-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.sign_bit.Statement Cert.KernelIdeal.S1024x1024 .f32
  ∧ IdealRules.sign_bit.Statement Cert.KernelIdeal.S1024x1024 .f32
  ∧ IdealRules.sign_bit.Statement Cert.KernelIdeal.S1024x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x784 : Shape := ⟨2, ![16384, 784]⟩
abbrev S1024x784 : Shape := ⟨2, ![1024, 784]⟩
abbrev S1024 : Shape := ⟨1, ![1024]⟩
abbrev S1024x1024 : Shape := ⟨2, ![1024, 1024]⟩
abbrev S10x1024 : Shape := ⟨2, ![10, 1024]⟩
abbrev S_ : Shape := ⟨0, ![]⟩

class Facts : Prop where
  bcast_S_S16384x784 : S_.BroadcastsInDim S16384x784 (![] : Fin 0 → Fin S16384x784.rank)
  reducesTo_S16384x784_S_d0_1 : S16384x784.ReducesTo [0, 1] S_
  h_S_ : 0 < S_.numel
  bcast_S_S1024x784 : S_.BroadcastsInDim S1024x784 (![] : Fin 0 → Fin S1024x784.rank)
  reducesTo_S1024x784_S_d0_1 : S1024x784.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S10x1024 : S_.BroadcastsInDim S10x1024 (![] : Fin 0 → Fin S10x1024.rank)
  reducesTo_S10x1024_S_d0_1 : S10x1024.ReducesTo [0, 1] S_

variable [Facts]

def fn_part3 {F : FTy → Type} [FloatOps F] (main_v48 : IVec S_ 1) (main_v49 : FVec F S10x1024 .f32) (main_v50 : FVec F S10x1024 .f32) : IVec S_ 1 :=
  let main_v51 : IVec S10x1024 1 := cmpf .olt main_v49 main_v50
  let main_c_19 : IVec S_ 1 := constantI S_ 1 1#1
  let main_v52 : IVec S_ 1 := (fun x v => Host.reduce IntOp.andi x v reducesTo_S10x1024_S_d0_1 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024 .f32) (main_arg10 : FVec F S10x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S10x1024 .f32 := Host.absf main_arg10
  let main_cst_18 : FVec F S_ .f32 := constant S_ .f32 0x7F800000#32
  let main_v50 : FVec F S10x1024 .f32 := broadcastInDim S10x1024 ![] bcast_S_S10x1024 main_cst_18
  fn_part3 (F := F) main_v48 main_v49 main_v50

def fn_part1 {F : FTy → Type} [FloatOps F] (main_arg4 : FVec F S1024x1024 .f32) (main_arg5 : FVec F S1024 .f32) (main_arg6 : FVec F S1024 .f32) (main_arg7 : FVec F S1024x1024 .f32) (main_arg8 : FVec F S1024 .f32) (main_arg9 : FVec F S1024 .f32) (main_arg10 : FVec F S10x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x784 .f32) (main_arg1 : FVec F S1024x784 .f32) (main_arg2 : FVec F S1024 .f32) (main_arg3 : FVec F S1024 .f32) (main_arg4 : FVec F S1024x1024 .f32) (main_arg5 : FVec F S1024 .f32) (main_arg6 : FVec F S1024 .f32) (main_arg7 : FVec F S1024x1024 .f32) (main_arg8 : FVec F S1024 .f32) (main_arg9 : FVec F S1024 .f32) (main_arg10 : FVec F S10x1024 .f32) : IVec S_ 1 :=
  let main_v0 : FVec F S16384x784 .f32 := Host.absf main_arg0
  let main_cst : FVec F S_ .f32 := constant S_ .f32 0x7F800000#32
  let main_v1 : FVec F S16384x784 .f32 := broadcastInDim S16384x784 ![] bcast_S_S16384x784 main_cst
  let main_v2 : IVec S16384x784 1 := cmpf .olt main_v0 main_v1
  let main_c : IVec S_ 1 := constantI S_ 1 1#1
  let main_v3 : IVec S_ 1 := (fun x v => Host.reduce IntOp.andi x v reducesTo_S16384x784_S_d0_1 h_S_) main_v2 main_c
  let main_v4 : FVec F S1024x784 .f32 := Host.absf main_arg1
  let main_cst_0 : FVec F S_ .f32 := constant S_ .f32 0x7F800000#32
  let main_v5 : FVec F S1024x784 .f32 := broadcastInDim S1024x784 ![] bcast_S_S1024x784 main_cst_0
  let main_v6 : IVec S1024x784 1 := cmpf .olt main_v4 main_v5
  let main_c_1 : IVec S_ 1 := constantI S_ 1 1#1
  let main_v7 : IVec S_ 1 := (fun x v => Host.reduce IntOp.andi x v reducesTo_S1024x784_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_v13 main_v16
-- ==== Kernel.lean ====
abbrev S16384x784 : Shape := ⟨2, ![16384, 784]⟩
abbrev S1024x784 : Shape := ⟨2, ![1024, 784]⟩
abbrev S1024 : Shape := ⟨1, ![1024]⟩
abbrev S1024x1024 : Shape := ⟨2, ![1024, 1024]⟩
abbrev S10x1024 : Shape := ⟨2, ![10, 1024]⟩
abbrev S784x1024 : Shape := ⟨2, ![784, 1024]⟩
abbrev S16384x1024 : Shape := ⟨2, ![16384, 1024]⟩
abbrev S128x1024 : Shape := ⟨2, ![128, 1024]⟩
abbrev S8x1024 : Shape := ⟨2, ![8, 1024]⟩
abbrev S1x1024 : Shape := ⟨2, ![1, 1024]⟩
abbrev S16x8x1024 : Shape := ⟨3, ![16, 8, 1024]⟩
abbrev S16x1x1024 : Shape := ⟨3, ![16, 1, 1024]⟩
abbrev S16x1024 : Shape := ⟨2, ![16, 1024]⟩
abbrev S_ : Shape := ⟨0, ![]⟩
abbrev S1024x10 : Shape := ⟨2, ![1024, 10]⟩
abbrev S1024x128 : Shape := ⟨2, ![1024, 128]⟩
abbrev S16384x128 : Shape := ⟨2, ![16384, 128]⟩
abbrev S16384x10 : Shape := ⟨2, ![16384, 10]⟩

abbrev nBuf : Space → Nat
  | .hbm => 102
  | .vmem => 44
  | .smem => 0
  | _ => 0

abbrev bufTy : (tb : Table) → Fin (tcTables nBuf tb) → BufTy
  | .hbm, ⟨0, _⟩ => ⟨S16384x784, .f32⟩
  | .hbm, ⟨1, _⟩ => ⟨S1024x784, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S10x1024, .f32⟩
  | .hbm, ⟨11, _⟩ => ⟨S1024x784, .f32⟩
  | .hbm, ⟨12, _⟩ => ⟨S784x1024, .f32⟩
  | .hbm, ⟨13, _⟩ => ⟨S16384x1024, .f32⟩
  | .hbm, ⟨14, _⟩ => ⟨S128x1024, .f32⟩
  | .hbm, ⟨15, _⟩ => ⟨S128x1024, .f32⟩
  | .hbm, ⟨16, _⟩ => ⟨S16x8x1024, .f32⟩
  | .hbm, ⟨17, _⟩ => ⟨S16x1x1024, .f32⟩
  | .hbm, ⟨18, _⟩ => ⟨S16x1024, .f32⟩
  | .hbm, ⟨19, _⟩ => ⟨S16x8x1024, .f32⟩
  | .hbm, ⟨20, _⟩ => ⟨S16x1x1024, .f32⟩
  | .hbm, ⟨21, _⟩ => ⟨S16x1024, .f32⟩
  | .hbm, ⟨22, _⟩ => ⟨S_, .f32⟩
  | .hbm, ⟨23, _⟩ => ⟨S1024, .f32⟩
  | .hbm, ⟨24, _⟩ => ⟨S1x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1024x1024, .f32⟩
  | .hbm, ⟨37, _⟩ => ⟨S1024x1024, .bf16⟩
  | .hbm, ⟨38, _⟩ => ⟨S1024x1024, .bf16⟩
  | .hbm, ⟨39, _⟩ => ⟨S1x1024, .f32⟩
  | .hbm, ⟨40, _⟩ => ⟨S1x1024, .f32⟩
  | .hbm, ⟨41, _⟩ => ⟨S16384x1024, .f32⟩
  | .hbm, ⟨42, _⟩ => ⟨S128x1024, .f32⟩
  | .hbm, ⟨43, _⟩ => ⟨S128x1024, .f32⟩
  | .hbm, ⟨44, _⟩ => ⟨S16x8x1024, .f32⟩
  | .hbm, ⟨45, _⟩ => ⟨S16x1x1024, .f32⟩
  | .hbm, ⟨46, _⟩ => ⟨S16x1024, .f32⟩
  | .hbm, ⟨47, _⟩ => ⟨S16x8x1024, .f32⟩
  | .hbm, ⟨48, _⟩ => ⟨S16x1x1024, .f32⟩
  | .hbm, ⟨49, _⟩ => ⟨S16x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S_, .f32⟩
  | .hbm, ⟨57, _⟩ => ⟨S1x1024, .f32⟩
  | .hbm, ⟨58, _⟩ => ⟨S1x1024, .f32⟩
  | .hbm, ⟨59, _⟩ => ⟨S_, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1024x1024, .f32⟩
  | .hbm, ⟨65, _⟩ => ⟨S1024x1024, .bf16⟩
  | .hbm, ⟨66, _⟩ => ⟨S1024x1024, .bf16⟩
  | .hbm, ⟨67, _⟩ => ⟨S1x1024, .f32⟩
  | .hbm, ⟨68, _⟩ => ⟨S1x1024, .f32⟩
  | .hbm, ⟨69, _⟩ => ⟨S16384x1024, .f32⟩
  | .hbm, ⟨70, _⟩ => ⟨S128x1024, .f32⟩
  | .hbm, ⟨71, _⟩ => ⟨S128x1024, .f32⟩
  | .hbm, ⟨72, _⟩ => ⟨S16x8x1024, .f32⟩
  | .hbm, ⟨73, _⟩ => ⟨S16x1x1024, .f32⟩
  | .hbm, ⟨74, _⟩ => ⟨S16x1024, .f32⟩
  | .hbm, ⟨75, _⟩ => ⟨S16x8x1024, .f32⟩
  | .hbm, ⟨76, _⟩ => ⟨S16x1x1024, .f32⟩
  | .hbm, ⟨77, _⟩ => ⟨S16x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S_, .f32⟩
  | .hbm, ⟨85, _⟩ => ⟨S1x1024, .f32⟩
  | .hbm, ⟨86, _⟩ => ⟨S1x1024, .f32⟩
  | .hbm, ⟨87, _⟩ => ⟨S_, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S1x1024, .f32⟩
  | .hbm, ⟨92, _⟩ => ⟨S10x1024, .f32⟩
  | .hbm, ⟨93, _⟩ => ⟨S10x1024, .bf16⟩
  | .hbm, ⟨94, _⟩ => ⟨S1024x10, .bf16⟩
  | .hbm, ⟨95, _⟩ => ⟨S_, .i32⟩
  | .hbm, ⟨96, _⟩ => ⟨S_, .bf16⟩
  | .hbm, ⟨97, _⟩ => ⟨S1024x128, .bf16⟩
  | .hbm, ⟨98, _⟩ => ⟨S1x1024, .f32⟩
  | .hbm, ⟨99, _⟩ => ⟨S1x1024, .f32⟩
  | .hbm, ⟨100, _⟩ => ⟨S16384x128, .f32⟩
  | .hbm, ⟨101, _⟩ => ⟨S16384x10, .f32⟩
  | .local _ .vmem, ⟨0, _⟩ => ⟨S1024x784, .f32⟩
  | .local _ .vmem, ⟨1, _⟩ => ⟨S1024x784, .f32⟩
  | .local _ .vmem, ⟨2, _⟩ => ⟨S784x1024, .f32⟩
  | .local _ .vmem, ⟨3, _⟩ => ⟨S1024x1024, .f32⟩
  | .local _ .vmem, ⟨4, _⟩ => ⟨S1024x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1024x1024, .bf16⟩
  | .local _ .vmem, ⟨16, _⟩ => ⟨S1024x1024, .f32⟩
  | .local _ .vmem, ⟨17, _⟩ => ⟨S1024x1024, .f32⟩
  | .local _ .vmem, ⟨18, _⟩ => ⟨S8x1024, .f32⟩
  | .local _ .vmem, ⟨19, _⟩ => ⟨S8x1024, .f32⟩
  | .local _ .vmem, ⟨20, _⟩ => ⟨S8x1024, .f32⟩
  | .local _ .vmem, ⟨21, _⟩ => ⟨S8x1024, .f32⟩
  | .local _ .vmem, ⟨22, _⟩ => ⟨S1024x1024, .f32⟩
  | .local _ .vmem, ⟨23, _⟩ => ⟨S1024x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1024x1024, .bf16⟩
  | .local _ .vmem, ⟨29, _⟩ => ⟨S1024x1024, .f32⟩
  | .local _ .vmem, ⟨30, _⟩ => ⟨S1024x1024, .f32⟩
  | .local _ .vmem, ⟨31, _⟩ => ⟨S8x1024, .f32⟩
  | .local _ .vmem, ⟨32, _⟩ => ⟨S8x1024, .f32⟩
  | .local _ .vmem, ⟨33, _⟩ => ⟨S8x1024, .f32⟩
  | .local _ .vmem, ⟨34, _⟩ => ⟨S8x1024, .f32⟩
  | .local _ .vmem, ⟨35, _⟩ => ⟨S1024x1024, .f32⟩
  | .local _ .vmem, ⟨36, _⟩ => ⟨S1024x1024, .f32⟩
  | .local _ .vmem, ⟨37, _⟩ => ⟨S1x1024, .f32⟩
  | .local _ .vmem, ⟨38, _⟩ => ⟨S1x1024, .f32⟩
  | .local _ .vmem, ⟨39, _⟩ => ⟨S1x1024, .f32⟩
  | .local _ .vmem, ⟨40, _⟩ => ⟨S1x1024, .f32⟩
  | .local _ .vmem, ⟨41, _⟩ => ⟨S1024x128, .bf16⟩
  | .local _ .vmem, ⟨42, _⟩ => ⟨S1024x128, .f32⟩
  | .local _ .vmem, ⟨43, _⟩ => ⟨S1024x128, .f32⟩
  | _, _ => ⟨S16384x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24_0 : Ref sig .tc := ⟨.hbm, 41, rfl⟩
abbrev main_v24_1 : Ref sig .tc := ⟨.hbm, 42, rfl⟩
abbrev main_v24_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_cst_5 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46_0 : Ref sig .tc := ⟨.hbm, 69, rfl⟩
abbrev main_v46_1 : Ref sig .tc := ⟨.hbm, 70, rfl⟩
abbrev main_v46_2 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_7 : Ref sig .tc := ⟨.hbm, 78, rfl⟩
abbrev main_v53 : Ref sig .tc := ⟨.hbm, 79, rfl⟩
abbrev main_v54 : Ref sig .tc := ⟨.hbm, 80, rfl⟩
abbrev main_cst_8 : Ref sig .tc := ⟨.hbm, 81, rfl⟩
abbrev main_v55 : Ref sig .tc := ⟨.hbm, 82, rfl⟩
abbrev main_v56 : Ref sig .tc := ⟨.hbm, 83, rfl⟩
abbrev main_cst_9 : Ref sig .tc := ⟨.hbm, 84, rfl⟩
abbrev main_v57 : Ref sig .tc := ⟨.hbm, 85, rfl⟩
abbrev main_v58 : Ref sig .tc := ⟨.hbm, 86, rfl⟩
abbrev main_cst_10 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c : Ref sig .tc := ⟨.hbm, 95, rfl⟩
abbrev main_call0_v0 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg6_1 : Ref sig .tc := ⟨.vmem, 30, rfl⟩
abbrev cc2_stg7_0 : Ref sig .tc := ⟨.vmem, 31, rfl⟩
abbrev cc2_stg7_1 : Ref sig .tc := ⟨.vmem, 32, rfl⟩
abbrev cc2_stg8_0 : Ref sig .tc := ⟨.vmem, 33, rfl⟩
abbrev cc2_stg8_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg2_0 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem8_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem6_1 : DmaSem sig := 30
abbrev cc2_sem7_0 : DmaSem sig := 31
abbrev cc2_sem7_1 : DmaSem sig := 32
abbrev cc2_sem8_0 : DmaSem sig := 33
abbrev cc2_sem8_1 : DmaSem sig := 34
abbrev cc3_sem0_0 : DmaSem sig := 35
abbrev cc3_sem0_1 : DmaSem sig := 36
abbrev cc3_sem1_0 : DmaSem sig := 37
abbrev cc3_sem2_0 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1024x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S8x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S8x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1024x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S8x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S8x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1024x128 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1024x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  transposes_S1024x784_S784x1024_1_0 : S1024x784.Transposes [1, 0] S784x1024
  inb_S1024x784_S1024x784_0_0 : ∀ a, (![0, 0] : Fin 2 → Nat) a + S1024x784.size a ≤ S1024x784.size a
  h_S1024x784 : 0 < S1024x784.numel
  inb_S784x1024_S784x1024_0_0 : ∀ a, (![0, 0] : Fin 2 → Nat) a + S784x1024.size a ≤ S784x1024.size a
  h_S784x1024 : 0 < S784x1024.numel
  shapeCasts_S784x1024_S784x1024 : S784x1024.ShapeCasts S784x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [0] S1024
  shapeCasts_S1024_S1x1024 : S1024.ShapeCasts S1x1024
  shapeCasts_S1x1024_S1x1024 : S1x1024.ShapeCasts S1x1024
  broadcasts_S1x1024_S8x1024 : S1x1024.Broadcasts S8x1024
  inb_S8x1024_S8x1024_0_0 : ∀ a, (![0, 0] : Fin 2 → Nat) a + S8x1024.size a ≤ S8x1024.size a
  h_S8x1024 : 0 < S8x1024.numel
  shapeCasts_S128x1024_S16x8x1024 : S128x1024.ShapeCasts S16x8x1024
  slices_S16x8x1024_S16x1x1024_0_0_0 : S16x8x1024.Slices ![0, 0, 0] S16x1x1024
  shapeCasts_S16x1x1024_S16x1024 : S16x1x1024.ShapeCasts S16x1024
  reducesTo_S16x1024_S1024_d0 : S16x1024.ReducesTo [0] S1024
  h_S_ : 0 < S_.numel
  bcast_S1024_S1x1024_1 : S1024.BroadcastsInDim S1x1024 (![1] : Fin 1 → Fin S1x1024.rank)
  bcast_S_S1x1024 : S_.BroadcastsInDim S1x1024 (![] : Fin 0 → Fin S1x1024.rank)
  bitsLt_bf16_f32 : FTy.bits .bf16 < FTy.bits .f32
  transposes_S1024x1024_S1024x1024_1_0 : S1024x1024.Transposes [1, 0] S1024x1024
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  broadcasts_S1x1024_S1024x1024 : S1x1024.Broadcasts S1024x1024
  transposes_S10x1024_S1024x10_1_0 : S10x1024.Transposes [1, 0] S1024x10
  pads_S1024x10_S1024x128_000_01180 : S1024x10.Pads (![0, 0] : Fin 2 → Nat) ![0, 118] ![0, 0] S1024x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  slices_S16384x128_S16384x10_0_0 : S16384x128.Slices ![0, 0] S16384x10
  dot_S1024x784_S784x1024_S1024x1024_1_0_0_1_n_n_wf : DotDims.WF S1024x784 S784x1024 S1024x1024 [1] [0] [0] [1] [] []
  dot_S1024x1024_S1024x1024_S1024x1024_1_0_0_1_n_n_wf : DotDims.WF S1024x1024 S1024x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S16384x784.size a
  hwx0_0 : ∀ i : grid0.Coords, EltTy.bits .f32 = 32 ∨ (Rect.block (s := S16384x784) S1024x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x1024.size a ≤ S784x1024.size a
  hwx0_1 : ∀ i : grid0.Coords, EltTy.bits .f32 = 32 ∨ (Rect.block (s := S784x1024) S784x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x1024.size a
  hwx0_2 : ∀ i : grid0.Coords, EltTy.bits .f32 = 32 ∨ (Rect.block (s := S16384x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S128x1024.size a
  hwx0_3 : ∀ i : grid0.Coords, EltTy.bits .f32 = 32 ∨ (Rect.block (s := S128x1024) S8x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1024.size a ≤ S128x1024.size a
  hwx0_4 : ∀ i : grid0.Coords, EltTy.bits .f32 = 32 ∨ (Rect.block (s := S128x1024) S8x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S16384x1024.size a
  hwx1_0 : ∀ i : grid1.Coords, EltTy.bits .f32 = 32 ∨ (Rect.block (s := S16384x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S1024x1024.size a
  hwx1_5 : ∀ i : grid1.Coords, EltTy.bits .bf16 = 32 ∨ (Rect.block (s := S1024x1024) S1024x1024.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x1024.size a ≤ S16384x1024.size a
  hwx1_6 : ∀ i : grid1.Coords, EltTy.bits .f32 = 32 ∨ (Rect.block (s := S16384x1024) S1024x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8x1024.size a ≤ S128x1024.size a
  hwx1_7 : ∀ i : grid1.Coords, EltTy.bits .f32 = 32 ∨ (Rect.block (s := S128x1024) S8x1024.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S8x1024.size a ≤ S128x1024.size a
  hwx1_8 : ∀ i : grid1.Coords, EltTy.bits .f32 = 32 ∨ (Rect.block (s := S128x1024) S8x1024.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S16384x1024.size a
  hwx2_0 : ∀ i : grid2.Coords, EltTy.bits .f32 = 32 ∨ (Rect.block (s := S16384x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1024.size a ≤ S1x1024.size a
  hwx2_1 : ∀ i : grid2.Coords, EltTy.bits .f32 = 32 ∨ (Rect.block (s := S1x1024) S1x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x1024.size a
  hwx2_3 : ∀ i : grid2.Coords, EltTy.bits .f32 = 32 ∨ (Rect.block (s := S1x1024) S1x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1024x1024.size a ≤ S1024x1024.size a
  hwx2_5 : ∀ i : grid2.Coords, EltTy.bits .bf16 = 32 ∨ (Rect.block (s := S1024x1024) S1024x1024.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x1024.size a ≤ S16384x1024.size a
  hwx2_6 : ∀ i : grid2.Coords, EltTy.bits .f32 = 32 ∨ (Rect.block (s := S16384x1024) S1024x1024.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8x1024.size a ≤ S128x1024.size a
  hwx2_7 : ∀ i : grid2.Coords, EltTy.bits .f32 = 32 ∨ (Rect.block (s := S128x1024) S8x1024.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S8x1024.size a ≤ S128x1024.size a
  hwx2_8 : ∀ i : grid2.Coords, EltTy.bits .f32 = 32 ∨ (Rect.block (s := S128x1024) S8x1024.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S16384x1024.size a
  hwx3_0 : ∀ i : grid3.Coords, EltTy.bits .f32 = 32 ∨ (Rect.block (s := S16384x1024) S1024x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x1024.size a ≤ S1x1024.size a
  hwx3_1 : ∀ i : grid3.Coords, EltTy.bits .f32 = 32 ∨ (Rect.block (s := S1x1024) S1x1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1024.size a ≤ S1x1024.size a
  hwx3_3 : ∀ i : grid3.Coords, EltTy.bits .f32 = 32 ∨ (Rect.block (s := S1x1024) S1x1024.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x1024.size a
  hwx3_4 : ∀ i : grid3.Coords, EltTy.bits .f32 = 32 ∨ (Rect.block (s := S1x1024) S1x1024.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1024x128.size a ≤ S1024x128.size a
  hwx3_5 : ∀ i : grid3.Coords, EltTy.bits .bf16 = 32 ∨ (Rect.block (s := S1024x128) S1024x128.size (cc3_transform_5 i) (hinb3_5 i)).WholeWords (EltTy.packing .bf16)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1024x128.size a ≤ S16384x128.size a
  hwx3_6 : ∀ i : grid3.Coords, EltTy.bits .f32 = 32 ∨ (Rect.block (s := S16384x128) S1024x128.size (cc3_transform_6 i) (hinb3_6 i)).WholeWords (EltTy.packing .f32)

variable [Facts₀]

def dot_S1024x784_S784x1024_S1024x1024_1_0_0_1_n_n : DotDims S1024x784 S784x1024 S1024x1024 where
  lhsContracting := [1]
  rhsContracting := [0]
  lhsNonContracting := [0]
  rhsNonContracting := [1]
  lhsBatch := []
  rhsBatch := []
  wf := dot_S1024x784_S784x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1024x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S784x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1024x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S8x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S8x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1024x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24_0) S1024x1024.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v24_1) S8x1024.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v24_2) S8x1024.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v24_0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S1x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S1024x1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v46_0) S1024x1024.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v46_1) S8x1024.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v46_2) S8x1024.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v46_0) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S1x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S1x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S1x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v68) S1x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v66) S1024x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v69) S1024x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S16384x784 : Shape := ⟨2, ![16384, 784]⟩
abbrev S1024x784 : Shape := ⟨2, ![1024, 784]⟩
abbrev S1024 : Shape := ⟨1, ![1024]⟩
abbrev S1024x1024 : Shape := ⟨2, ![1024, 1024]⟩
abbrev S10x1024 : Shape := ⟨2, ![10, 1024]⟩
abbrev S784x1024 : Shape := ⟨2, ![784, 1024]⟩
abbrev S16384x1024 : Shape := ⟨2, ![16384, 1024]⟩
abbrev S_ : Shape := ⟨0, ![]⟩
abbrev S1x1024 : Shape := ⟨2, ![1, 1024]⟩
abbrev S1024x10 : Shape := ⟨2, ![1024, 10]⟩
abbrev S16384x10 : Shape := ⟨2, ![16384, 10]⟩

abbrev nBuf : Space → Nat
  | .hbm => 116
  | .vmem => 0
  | .smem => 0
  | _ => 0

abbrev bufTy : (tb : Table) → Fin (tcTables nBuf tb) → BufTy
  | .hbm, ⟨0, _⟩ => ⟨S16384x784, .f32⟩
  | .hbm, ⟨1, _⟩ => ⟨S1024x784, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S10x1024, .f32⟩
  | .hbm, ⟨11, _⟩ => ⟨S1024x784, .f32⟩
  | .hbm, ⟨12, _⟩ => ⟨S784x1024, .f32⟩
  | .hbm, ⟨13, _⟩ => ⟨S16384x1024, .f32⟩
  | .hbm, ⟨14, _⟩ => ⟨S_, .f32⟩
  | .hbm, ⟨15, _⟩ => ⟨S1024, .f32⟩
  | .hbm, ⟨16, _⟩ => ⟨S_, .f32⟩
  | .hbm, ⟨17, _⟩ => ⟨S1024, .f32⟩
  | .hbm, ⟨18, _⟩ => ⟨S1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S1024x1024, .f32⟩
  | .hbm, ⟨46, _⟩ => ⟨S1024x1024, .f32⟩
  | .hbm, ⟨47, _⟩ => ⟨S16384x1024, .f32⟩
  | .hbm, ⟨48, _⟩ => ⟨S_, .f32⟩
  | .hbm, ⟨49, _⟩ => ⟨S1024, .f32⟩
  | .hbm, ⟨50, _⟩ => ⟨S_, .f32⟩
  | .hbm, ⟨51, _⟩ => ⟨S1024, .f32⟩
  | .hbm, ⟨52, _⟩ => ⟨S1024, .f32⟩
  | .hbm, ⟨53, _⟩ => ⟨S1x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S1024, .f32⟩
  | .hbm, ⟨59, _⟩ => ⟨S_, .f32⟩
  | .hbm, ⟨60, _⟩ => ⟨S1024, .f32⟩
  | .hbm, ⟨61, _⟩ => ⟨S1024, .f32⟩
  | .hbm, ⟨62, _⟩ => ⟨S1x1024, .f32⟩
  | .hbm, ⟨63, _⟩ => ⟨S16384x1024, .f32⟩
  | .hbm, ⟨64, _⟩ => ⟨S16384x1024, .f32⟩
  | .hbm, ⟨65, _⟩ => ⟨S1x1024, .f32⟩
  | .hbm, ⟨66, _⟩ => ⟨S16384x1024, .f32⟩
  | .hbm, ⟨67, _⟩ => ⟨S16384x1024, .f32⟩
  | .hbm, ⟨68, _⟩ => ⟨S_, .f32⟩
  | .hbm, ⟨69, _⟩ => ⟨S1024, .f32⟩
  | .hbm, ⟨70, _⟩ => ⟨S1024, .f32⟩
  | .hbm, ⟨71, _⟩ => ⟨S1024, .f32⟩
  | .hbm, ⟨72, _⟩ => ⟨S1x1024, .f32⟩
  | .hbm, ⟨73, _⟩ => ⟨S16384x1024, .f32⟩
  | .hbm, ⟨74, _⟩ => ⟨S16384x1024, .f32⟩
  | .hbm, ⟨75, _⟩ => ⟨S1x1024, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S1024x1024, .f32⟩
  | .hbm, ⟨80, _⟩ => ⟨S1024x1024, .f32⟩
  | .hbm, ⟨81, _⟩ => ⟨S16384x1024, .f32⟩
  | .hbm, ⟨82, _⟩ => ⟨S_, .f32⟩
  | .hbm, ⟨83, _⟩ => ⟨S1024, .f32⟩
  | .hbm, ⟨84, _⟩ => ⟨S_, .f32⟩
  | .hbm, ⟨85, _⟩ => ⟨S1024, .f32⟩
  | .hbm, ⟨86, _⟩ => ⟨S1024, .f32⟩
  | .hbm, ⟨87, _⟩ => ⟨S1x1024, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S_, .f32⟩
  | .hbm, ⟨92, _⟩ => ⟨S1024, .f32⟩
  | .hbm, ⟨93, _⟩ => ⟨S_, .f32⟩
  | .hbm, ⟨94, _⟩ => ⟨S1024, .f32⟩
  | .hbm, ⟨95, _⟩ => ⟨S1024, .f32⟩
  | .hbm, ⟨96, _⟩ => ⟨S1x1024, .f32⟩
  | .hbm, ⟨97, _⟩ => ⟨S16384x1024, .f32⟩
  | .hbm, ⟨98, _⟩ => ⟨S16384x1024, .f32⟩
  | .hbm, ⟨99, _⟩ => ⟨S1x1024, .f32⟩
  | .hbm, ⟨100, _⟩ => ⟨S16384x1024, .f32⟩
  | .hbm, ⟨101, _⟩ => ⟨S16384x1024, .f32⟩
  | .hbm, ⟨102, _⟩ => ⟨S_, .f32⟩
  | .hbm, ⟨103, _⟩ => ⟨S1024, .f32⟩
  | .hbm, ⟨104, _⟩ => ⟨S1024, .f32⟩
  | .hbm, ⟨105, _⟩ => ⟨S1024, .f32⟩
  | .hbm, ⟨106, _⟩ => ⟨S1x1024, .f32⟩
  | .hbm, ⟨107, _⟩ => ⟨S16384x1024, .f32⟩
  | .hbm, ⟨108, _⟩ => ⟨S16384x1024, .f32⟩
  | .hbm, ⟨109, _⟩ => ⟨S1x1024, .f32⟩
  | .hbm, ⟨110, _⟩ => ⟨S16384x1024, .f32⟩
  | .hbm, ⟨111, _⟩ => ⟨S16384x1024, .f32⟩
  | .hbm, ⟨112, _⟩ => ⟨S16384x1024, .f32⟩
  | .hbm, ⟨113, _⟩ => ⟨S10x1024, .f32⟩
  | .hbm, ⟨114, _⟩ => ⟨S1024x10, .f32⟩
  | .hbm, ⟨115, _⟩ => ⟨S16384x10, .f32⟩
  | _, _ => ⟨S16384x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_9 : Ref sig .tc := ⟨.hbm, 82, rfl⟩
abbrev main_v61 : Ref sig .tc := ⟨.hbm, 83, rfl⟩
abbrev main_cst_10 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_11 : Ref sig .tc := ⟨.hbm, 91, rfl⟩
abbrev main_v68 : Ref sig .tc := ⟨.hbm, 92, rfl⟩
abbrev main_cst_12 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_13 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩

abbrev nD : Nat := 1
abbrev τ : Topo := Topo.v7x

variable {F : FTy → Type} [FloatOps F]

class Facts₀ : Prop where
  transposes_S1024x784_S784x1024_1_0 : S1024x784.Transposes [1, 0] S784x1024
  reducesTo_S16384x1024_S1024_d0 : S16384x1024.ReducesTo [0] S1024
  h_S_ : 0 < S_.numel
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  transposes_S1024x1024_S1024x1024_1_0 : S1024x1024.Transposes [1, 0] S1024x1024
  transposes_S10x1024_S1024x10_1_0 : S10x1024.Transposes [1, 0] S1024x10
  dot_S16384x784_S784x1024_S16384x1024_1_0_0_1_n_n_wf : DotDims.WF S16384x784 S784x1024 S16384x1024 [1] [0] [0] [1] [] []
  dot_S16384x1024_S1024x1024_S16384x1024_1_0_0_1_n_n_wf : DotDims.WF S16384x1024 S1024x1024 S16384x1024 [1] [0] [0] [1] [] []
  dot_S16384x1024_S1024x10_S16384x10_1_0_0_1_n_n_wf : DotDims.WF S16384x1024 S1024x10 S16384x10 [1] [0] [0] [1] [] []

variable [Facts₀]

def dot_S16384x784_S784x1024_S16384x1024_1_0_0_1_n_n : DotDims S16384x784 S784x1024 S16384x1024 where
  lhsContracting := [1]
  rhsContracting := [0]
  lhsNonContracting := [0]
  rhsNonContracting := [1]
  lhsBatch := []
  rhsBatch := []
  wf := dot_S16384x784_S784x1024_S16384x1024_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S16384x1024_S1024x10_S16384x10_1_0_0_1_n_n : DotDims S16384x1024 S1024x10 S16384x10 where
  lhsContracting := [1]
  rhsContracting := [0]
  lhsNonContracting := [0]
  rhsNonContracting := [1]
  lhsBatch := []
  rhsBatch := []
  wf := dot_S16384x1024_S1024x10_S16384x10_1_0_0_1_n_n_wf

class Facts : Prop extends Facts₀ where

variable [Facts]
-- ==== Proof.KRun.lean ====
import proofs.«102666_j54082228191696_2_alg».proof.Proof.Gen.KernelIdeal.Frame

/-! # The idealized kernel's run, with every buffer that outlives a region named

The program is four pipelined regions among stretches of host operations. Its run is the run of
that list of segments: from the launch memory, each host stretch leaves the buffers at the fold of
its operations over what it found, each region leaves its arrays at what its write-backs leave and
every other buffer as it found it. So every weakly fair execution terminates with every buffer that
is not a region's scratch at the last boundary's contents (`Gen.W11`); in particular the result
buffer, and the arguments, which no segment writes. -/

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, and every buffer that outlives the regions
    ends at the last boundary's contents: the launch over the segments, the last thread state read
    against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- The run with the result buffer and the arguments named: the result at the last boundary's contents,
    each argument as launched. -/
theorem run_result : θ_run defs (onTc (τ := τ) (main (F := F))) ⟨m, fun _ => 0, ρ⟩ (fun r => ∀ c : Dev nD,
      r.2.mem ((c.tc : Thread nD τ).loc main_v70) = W11 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
      ⟨h c _ (mem_uc main_v70 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩)
    (run_all m ρ)

end Cert.KernelIdeal.KRun

end
-- ==== Proof.Kept.lean ====
import proofs.«102666_j54082228191696_2_alg».proof.Proof.Gen.KernelIdeal.Frame

/-! # Buffers a segment does not write

A host stretch leaves every buffer none of its operations writes as it found it, and a region leaves every
buffer that is not one of its arrays as it found it. So each argument array is still the launch memory's
when a later segment reads it, and each region's product is still in place when the next region reads it. -/

set_option maxRecDepth 16384

noncomputable section

namespace Cert.KernelIdeal.Kept

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- A buffer no operation of the stretch writes is unchanged by the stretch. -/
macro "host_kept" ops:ident : tactic => `(tactic|
  exact StableHlo.after_of_forall_not_mem _ _ (List.forall_iff_forall_mem.mp (by
    simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

theorem arg0_W1 : W1 m ρ c (Proc.devRef .tc main_arg0) = m ((c : Thread nD τ).loc main_arg0) :=
  (show W1 m ρ c (Proc.devRef .tc main_arg0) = W0 m ρ c (Proc.devRef .tc main_arg0) by host_kept hostOps0).trans rfl

theorem arg1_W1 : W1 m ρ c (Proc.devRef .tc main_arg1) = m ((c : Thread nD τ).loc main_arg1) :=
  (show W1 m ρ c (Proc.devRef .tc main_arg1) = W0 m ρ c (Proc.devRef .tc main_arg1) by host_kept hostOps0).trans rfl

theorem arg2_W1 : W1 m ρ c (Proc.devRef .tc main_arg2) = m ((c : Thread nD τ).loc main_arg2) :=
  (show W1 m ρ c (Proc.devRef .tc main_arg2) = W0 m ρ c (Proc.devRef .tc main_arg2) by host_kept hostOps0).trans rfl
theorem arg2_W2 : W2 m ρ c (Proc.devRef .tc main_arg2) = m ((c : Thread nD τ).loc main_arg2) :=
  (W2_of_ne m ρ c main_arg2 (by decide)).trans (arg2_W1 m ρ c)

theorem arg3_W1 : W1 m ρ c (Proc.devRef .tc main_arg3) = m ((c : Thread nD τ).loc main_arg3) :=
  (show W1 m ρ c (Proc.devRef .tc main_arg3) = W0 m ρ c (Proc.devRef .tc main_arg3) by host_kept hostOps0).trans rfl
theorem arg3_W2 : W2 m ρ c (Proc.devRef .tc main_arg3) = m ((c : Thread nD τ).loc main_arg3) :=
  (W2_of_ne m ρ c main_arg3 (by decide)).trans (arg3_W1 m ρ c)

theorem arg4_W1 : W1 m ρ c (Proc.devRef .tc main_arg4) = m ((c : Thread nD τ).loc main_arg4) :=
  (show W1 m ρ c (Proc.devRef .tc main_arg4) = W0 m ρ c (Proc.devRef .tc main_arg4) by host_kept hostOps0).trans rfl
theorem arg4_W2 : W2 m ρ c (Proc.devRef .tc main_arg4) = m ((c : Thread nD τ).loc main_arg4) :=
  (W2_of_ne m ρ c main_arg4 (by decide)).trans (arg4_W1 m ρ c)

theorem arg5_W1 : W1 m ρ c (Proc.devRef .tc main_arg5) = m ((c : Thread nD τ).loc main_arg5) :=
  (show W1 m ρ c (Proc.devRef .tc main_arg5) = W0 m ρ c (Proc.devRef .tc main_arg5) by host_kept hostOps0).trans rfl
theorem arg5_W2 : W2 m ρ c (Proc.devRef .tc main_arg5) = m ((c : Thread nD τ).loc main_arg5) :=
  (W2_of_ne m ρ c main_arg5 (by decide)).trans (arg5_W1 m ρ c)
theorem arg5_W3 : W3 m ρ c (Proc.devRef .tc main_arg5) = m ((c : Thread nD τ).loc main_arg5) :=
  (show W3 m ρ c (Proc.devRef .tc main_arg5) = W2 m ρ c (Proc.devRef .tc main_arg5) by host_kept hostOps1).trans (arg5_W2 m ρ c)
theorem arg5_W4 : W4 m ρ c (Proc.devRef .tc main_arg5) = m ((c : Thread nD τ).loc main_arg5) :=
  (W4_of_ne m ρ c main_arg5 (by decide)).trans (arg5_W3 m ρ c)

theorem arg6_W1 : W1 m ρ c (Proc.devRef .tc main_arg6) = m ((c : Thread nD τ).loc main_arg6) :=
  (show W1 m ρ c (Proc.devRef .tc main_arg6) = W0 m ρ c (Proc.devRef .tc main_arg6) by host_kept hostOps0).trans rfl
theorem arg6_W2 : W2 m ρ c (Proc.devRef .tc main_arg6) = m ((c : Thread nD τ).loc main_arg6) :=
  (W2_of_ne m ρ c main_arg6 (by decide)).trans (arg6_W1 m ρ c)
theorem arg6_W3 : W3 m ρ c (Proc.devRef .tc main_arg6) = m ((c : Thread nD τ).loc main_arg6) :=
  (show W3 m ρ c (Proc.devRef .tc main_arg6) = W2 m ρ c (Proc.devRef .tc main_arg6) by host_kept hostOps1).trans (arg6_W2 m ρ c)
theorem arg6_W4 : W4 m ρ c (Proc.devRef .tc main_arg6) = m ((c : Thread nD τ).loc main_arg6) :=
  (W4_of_ne m ρ c main_arg6 (by decide)).trans (arg6_W3 m ρ c)

theorem arg7_W1 : W1 m ρ c (Proc.devRef .tc main_arg7) = m ((c : Thread nD τ).loc main_arg7) :=
  (show W1 m ρ c (Proc.devRef .tc main_arg7) = W0 m ρ c (Proc.devRef .tc main_arg7) by host_kept hostOps0).trans rfl
theorem arg7_W2 : W2 m ρ c (Proc.devRef .tc main_arg7) = m ((c : Thread nD τ).loc main_arg7) :=
  (W2_of_ne m ρ c main_arg7 (by decide)).trans (arg7_W1 m ρ c)
theorem arg7_W3 : W3 m ρ c (Proc.devRef .tc main_arg7) = m ((c : Thread nD τ).loc main_arg7) :=
  (show W3 m ρ c (Proc.devRef .tc main_arg7) = W2 m ρ c (Proc.devRef .tc main_arg7) by host_kept hostOps1).trans (arg7_W2 m ρ c)
theorem arg7_W4 : W4 m ρ c (Proc.devRef .tc main_arg7) = m ((c : Thread nD τ).loc main_arg7) :=
  (W4_of_ne m ρ c main_arg7 (by decide)).trans (arg7_W3 m ρ c)

theorem arg8_W1 : W1 m ρ c (Proc.devRef .tc main_arg8) = m ((c : Thread nD τ).loc main_arg8) :=
  (show W1 m ρ c (Proc.devRef .tc main_arg8) = W0 m ρ c (Proc.devRef .tc main_arg8) by host_kept hostOps0).trans rfl
theorem arg8_W2 : W2 m ρ c (Proc.devRef .tc main_arg8) = m ((c : Thread nD τ).loc main_arg8) :=
  (W2_of_ne m ρ c main_arg8 (by decide)).trans (arg8_W1 m ρ c)
theorem arg8_W3 : W3 m ρ c (Proc.devRef .tc main_arg8) = m ((c : Thread nD τ).loc main_arg8) :=
  (show W3 m ρ c (Proc.devRef .tc main_arg8) = W2 m ρ c (Proc.devRef .tc main_arg8) by host_kept hostOps1).trans (arg8_W2 m ρ c)
theorem arg8_W4 : W4 m ρ c (Proc.devRef .tc main_arg8) = m ((c : Thread nD τ).loc main_arg8) :=
  (W4_of_ne m ρ c main_arg8 (by decide)).trans (arg8_W3 m ρ c)
theorem arg8_W5 : W5 m ρ c (Proc.devRef .tc main_arg8) = m ((c : Thread nD τ).loc main_arg8) :=
  (show W5 m ρ c (Proc.devRef .tc main_arg8) = W4 m ρ c (Proc.devRef .tc main_arg8) by host_kept hostOps2).trans (arg8_W4 m ρ c)
theorem arg8_W6 : W6 m ρ c (Proc.devRef .tc main_arg8) = m ((c : Thread nD τ).loc main_arg8) :=
  (W6_of_ne m ρ c main_arg8 (by decide)).trans (arg8_W5 m ρ c)
theorem arg8_W7 : W7 m ρ c (Proc.devRef .tc main_arg8) = m ((c : Thread nD τ).loc main_arg8) :=
  (show W7 m ρ c (Proc.devRef .tc main_arg8) = W6 m ρ c (Proc.devRef .tc main_arg8) by host_kept hostOps3).trans (arg8_W6 m ρ c)
theorem arg8_W8 : W8 m ρ c (Proc.devRef .tc main_arg8) = m ((c : Thread nD τ).loc main_arg8) :=
  (show W8 m ρ c (Proc.devRef .tc main_arg8) = W7 m ρ c (Proc.devRef .tc main_arg8) by host_kept hostOps3_1).trans (arg8_W7 m ρ c)

theorem arg9_W1 : W1 m ρ c (Proc.devRef .tc main_arg9) = m ((c : Thread nD τ).loc main_arg9) :=
  (show W1 m ρ c (Proc.devRef .tc main_arg9) = W0 m ρ c (Proc.devRef .tc main_arg9) by host_kept hostOps0).trans rfl
theorem arg9_W2 : W2 m ρ c (Proc.devRef .tc main_arg9) = m ((c : Thread nD τ).loc main_arg9) :=
  (W2_of_ne m ρ c main_arg9 (by decide)).trans (arg9_W1 m ρ c)
theorem arg9_W3 : W3 m ρ c (Proc.devRef .tc main_arg9) = m ((c : Thread nD τ).loc main_arg9) :=
  (show W3 m ρ c (Proc.devRef .tc main_arg9) = W2 m ρ c (Proc.devRef .tc main_arg9) by host_kept hostOps1).trans (arg9_W2 m ρ c)
theorem arg9_W4 : W4 m ρ c (Proc.devRef .tc main_arg9) = m ((c : Thread nD τ).loc main_arg9) :=
  (W4_of_ne m ρ c main_arg9 (by decide)).trans (arg9_W3 m ρ c)
theorem arg9_W5 : W5 m ρ c (Proc.devRef .tc main_arg9) = m ((c : Thread nD τ).loc main_arg9) :=
  (show W5 m ρ c (Proc.devRef .tc main_arg9) = W4 m ρ c (Proc.devRef .tc main_arg9) by host_kept hostOps2).trans (arg9_W4 m ρ c)
theorem arg9_W6 : W6 m ρ c (Proc.devRef .tc main_arg9) = m ((c : Thread nD τ).loc main_arg9) :=
  (W6_of_ne m ρ c main_arg9 (by decide)).trans (arg9_W5 m ρ c)
theorem arg9_W7 : W7 m ρ c (Proc.devRef .tc main_arg9) = m ((c : Thread nD τ).loc main_arg9) :=
  (show W7 m ρ c (Proc.devRef .tc main_arg9) = W6 m ρ c (Proc.devRef .tc main_arg9) by host_kept hostOps3).trans (arg9_W6 m ρ c)
theorem arg9_W8 : W8 m ρ c (Proc.devRef .tc main_arg9) = m ((c : Thread nD τ).loc main_arg9) :=
  (show W8 m ρ c (Proc.devRef .tc main_arg9) = W7 m ρ c (Proc.devRef .tc main_arg9) by host_kept hostOps3_1).trans (arg9_W7 m ρ c)

theorem arg10_W1 : W1 m ρ c (Proc.devRef .tc main_arg10) = m ((c : Thread nD τ).loc main_arg10) :=
  (show W1 m ρ c (Proc.devRef .tc main_arg10) = W0 m ρ c (Proc.devRef .tc main_arg10) by host_kept hostOps0).trans rfl
theorem arg10_W2 : W2 m ρ c (Proc.devRef .tc main_arg10) = m ((c : Thread nD τ).loc main_arg10) :=
  (W2_of_ne m ρ c main_arg10 (by decide)).trans (arg10_W1 m ρ c)
theorem arg10_W3 : W3 m ρ c (Proc.devRef .tc main_arg10) = m ((c : Thread nD τ).loc main_arg10) :=
  (show W3 m ρ c (Proc.devRef .tc main_arg10) = W2 m ρ c (Proc.devRef .tc main_arg10) by host_kept hostOps1).trans (arg10_W2 m ρ c)
theorem arg10_W4 : W4 m ρ c (Proc.devRef .tc main_arg10) = m ((c : Thread nD τ).loc main_arg10) :=
  (W4_of_ne m ρ c main_arg10 (by decide)).trans (arg10_W3 m ρ c)
theorem arg10_W5 : W5 m ρ c (Proc.devRef .tc main_arg10) = m ((c : Thread nD τ).loc main_arg10) :=
  (show W5 m ρ c (Proc.devRef .tc main_arg10) = W4 m ρ c (Proc.devRef .tc main_arg10) by host_kept hostOps2).trans (arg10_W4 m ρ c)
theorem arg10_W6 : W6 m ρ c (Proc.devRef .tc main_arg10) = m ((c : Thread nD τ).loc main_arg10) :=
  (W6_of_ne m ρ c main_arg10 (by decide)).trans (arg10_W5 m ρ c)

/-! ## Each region's product until the next region reads it -/

theorem v2_0_W3 : W3 m ρ c (Proc.devRef .tc main_v2_0) = W2 m ρ c (Proc.devRef .tc main_v2_0) := by host_kept hostOps1
theorem v24_0_W5 : W5 m ρ c (Proc.devRef .tc main_v24_0) = W4 m ρ c (Proc.devRef .tc main_v24_0) := by host_kept hostOps2
theorem v46_0_W9 : W9 m ρ c (Proc.devRef .tc main_v46_0) = W6 m ρ c (Proc.devRef .tc main_v46_0) :=
  (show W9 m ρ c (Proc.devRef .tc main_v46_0) = W8 m ρ c (Proc.devRef .tc main_v46_0) by host_kept hostOps3_2).trans
    ((show W8 m ρ c (Proc.devRef .tc main_v46_0) = W7 m ρ c (Proc.devRef .tc main_v46_0) by host_kept hostOps3_1).trans
      (show W7 m ρ c (Proc.devRef .tc main_v46_0) = W6 m ρ c (Proc.devRef .tc main_v46_0) by host_kept hostOps3))
theorem v58_W9 : W9 m ρ c (Proc.devRef .tc main_v58) = W7 m ρ c (Proc.devRef .tc main_v58) :=
  (show W9 m ρ c (Proc.devRef .tc main_v58) = W8 m ρ c (Proc.devRef .tc main_v58) by host_kept hostOps3_2).trans
    (show W8 m ρ c (Proc.devRef .tc main_v58) = W7 m ρ c (Proc.devRef .tc main_v58) by host_kept hostOps3_1)
theorem v62_W9 : W9 m ρ c (Proc.devRef .tc main_v62) = W7 m ρ c (Proc.devRef .tc main_v62) :=
  (show W9 m ρ c (Proc.devRef .tc main_v62) = W8 m ρ c (Proc.devRef .tc main_v62) by host_kept hostOps3_2).trans
    (show W8 m ρ c (Proc.devRef .tc main_v62) = W7 m ρ c (Proc.devRef .tc main_v62) by host_kept hostOps3_1)
theorem v66_W9 : W9 m ρ c (Proc.devRef .tc main_v66) = W8 m ρ c (Proc.devRef .tc main_v66) := by host_kept hostOps3_2

end Cert.KernelIdeal.Kept

end
-- ==== Proof.KOps.lean ====
import proofs.«102666_j54082228191696_2_alg».proof.KernelIdeal
import proofs.«102666_j54082228191696_2_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.KOps

open Cert.KernelIdeal Idealize.ShloMosaic Idealize.ShloMosaic.ValueIdx

/-! # The kernels' vector operations, read at an index over the extended reals

A block product into the zero accumulator is the sum over the contracted axis of the products; a
column reduction is the sum down the column; a one-row cast and a row broadcast read the row; the
kernel's spelling of the sign (one with the sign of the operand where the operand is not zero, the
operand itself at zero) is the sign. -/

abbrev D784 := dot_S1024x784_S784x1024_S1024x1024_1_0_0_1_n_n
abbrev D1024 := dot_S1024x1024_S1024x1024_S1024x1024_1_0_0_1_n_n
abbrev D128 := dot_S1024x1024_S1024x128_S1024x128_1_0_0_1_n_n

/-- The 1024×784 by 784×1024 block product at (r, j). -/
theorem matmul784_apply (prec : Option ContractPrecision) (x : FVec Ideal S1024x784 .f32) (y : FVec Ideal S784x1024 .f32)
    (r : Fin 1024) (j : Fin 1024) :
    matmul D784 prec x y (constant S1024x1024 .f32 0x00000000#32) (ix2 r j) = ∑ k : Fin 784, x (ix2 r k) * y (ix2 k j) := by
  refine (Ideal.matmul_constant_zero_apply D784 prec x y (ix2 r j)).trans ?_
  rw [← Equiv.sum_comp (contrEquiv1 D784 784 rfl rfl).symm]
  refine Finset.sum_congr rfl fun k _ => ?_
  have hk := contrEquiv1_symm_val D784 784 rfl rfl k
  have el : D784.lhsIdx (ix2 r j) ((contrEquiv1 D784 784 rfl rfl).symm k) = ix2 r k := funext fun a => Fin.ext (by
    match a with
    | ⟨0, _⟩ =>
      show (D784.lhsIdx (ix2 r j) _ 0).val = r.val
      unfold DotDims.lhsIdx
      rw [dif_neg (show ¬(0 : Fin S1024x784.rank) ∈ D784.lhsBatch by decide), dif_pos (show (0 : Fin S1024x784.rank) ∈ D784.lhsNonContracting by decide)]
      rfl
    | ⟨1, _⟩ => exact (D784.lhsIdx_val_of_single rfl _ _).trans hk)
  have er : D784.rhsIdx (ix2 r j) ((contrEquiv1 D784 784 rfl rfl).symm k) = ix2 k j := funext fun a => Fin.ext (by
    match a with
    | ⟨0, _⟩ => exact (D784.rhsIdx_val_of_single rfl _ _).trans hk
    | ⟨1, _⟩ =>
      show (D784.rhsIdx (ix2 r j) _ 1).val = j.val
      unfold DotDims.rhsIdx
      rw [dif_neg (show ¬(1 : Fin S784x1024.rank) ∈ D784.rhsBatch by decide), dif_pos (show (1 : Fin S784x1024.rank) ∈ D784.rhsNonContracting by decide)]
      rfl)
  rw [el, er]

/-- The 1024×1024 by 1024×1024 block product at (r, j). -/
theorem matmul1024_apply (prec : Option ContractPrecision) (x : FVec Ideal S1024x1024 .bf16) (y : FVec Ideal S1024x1024 .bf16)
    (r : Fin 1024) (j : Fin 1024) :
    matmul D1024 prec x y (constant S1024x1024 .f32 0x00000000#32) (ix2 r j) = ∑ k : Fin 1024, x (ix2 r k) * y (ix2 k j) := by
  refine (Ideal.matmul_constant_zero_apply D1024 prec x y (ix2 r j)).trans ?_
  rw [← Equiv.sum_comp (contrEquiv1 D1024 1024 rfl rfl).symm]
  refine Finset.sum_congr rfl fun k _ => ?_
  have hk := contrEquiv1_symm_val D1024 1024 rfl rfl k
  have el : D1024.lhsIdx (ix2 r j) ((contrEquiv1 D1024 1024 rfl rfl).symm k) = ix2 r k := funext fun a => Fin.ext (by
    match a with
    | ⟨0, _⟩ =>
      show (D1024.lhsIdx (ix2 r j) _ 0).val = r.val
      unfold DotDims.lhsIdx
      rw [dif_neg (show ¬(0 : Fin S1024x1024.rank) ∈ D1024.lhsBatch by decide), dif_pos (show (0 : Fin S1024x1024.rank) ∈ D1024.lhsNonContracting by decide)]
      rfl
    | ⟨1, _⟩ => exact (D1024.lhsIdx_val_of_single rfl _ _).trans hk)
  have er : D1024.rhsIdx (ix2 r j) ((contrEquiv1 D1024 1024 rfl rfl).symm k) = ix2 k j := funext fun a => Fin.ext (by
    match a with
    | ⟨0, _⟩ => exact (D1024.rhsIdx_val_of_single rfl _ _).trans hk
    | ⟨1, _⟩ =>
      show (D1024.rhsIdx (ix2 r j) _ 1).val = j.val
      unfold DotDims.rhsIdx
      rw [dif_neg (show ¬(1 : Fin S1024x1024.rank) ∈ D1024.rhsBatch by decide), dif_pos (show (1 : Fin S1024x1024.rank) ∈ D1024.rhsNonContracting by decide)]
      rfl)
  rw [el, er]

/-- The 1024×1024 by 1024×128 block product at (r, j). -/
theorem matmul128_apply (prec : Option ContractPrecision) (x : FVec Ideal S1024x1024 .bf16) (y : FVec Ideal S1024x128 .bf16)
    (r : Fin 1024) (j : Fin 128) :
    matmul D128 prec x y (constant S1024x128 .f32 0x00000000#32) (ix2 r j) = ∑ k : Fin 1024, x (ix2 r k) * y (ix2 k j) := by
  refine (Ideal.matmul_constant_zero_apply D128 prec x y (ix2 r j)).trans ?_
  rw [← Equiv.sum_comp (contrEquiv1 D128 1024 rfl rfl).symm]
  refine Finset.sum_congr rfl fun k _ => ?_
  have hk := contrEquiv1_symm_val D128 1024 rfl rfl k
  have el : D128.lhsIdx (ix2 r j) ((contrEquiv1 D128 1024 rfl rfl).symm k) = ix2 r k := funext fun a => Fin.ext (by
    match a with
    | ⟨0, _⟩ =>
      show (D128.lhsIdx (ix2 r j) _ 0).val = r.val
      unfold DotDims.lhsIdx
      rw [dif_neg (show ¬(0 : Fin S1024x1024.rank) ∈ D128.lhsBatch by decide), dif_pos (show (0 : Fin S1024x1024.rank) ∈ D128.lhsNonContracting by decide)]
      rfl
    | ⟨1, _⟩ => exact (D128.lhsIdx_val_of_single rfl _ _).trans hk)
  have er : D128.rhsIdx (ix2 r j) ((contrEquiv1 D128 1024 rfl rfl).symm k) = ix2 k j := funext fun a => Fin.ext (by
    match a with
    | ⟨0, _⟩ => exact (D128.rhsIdx_val_of_single rfl _ _).trans hk
    | ⟨1, _⟩ =>
      show (D128.rhsIdx (ix2 r j) _ 1).val = j.val
      unfold DotDims.rhsIdx
      rw [dif_neg (show ¬(1 : Fin S1024x128.rank) ∈ D128.rhsBatch by decide), dif_pos (show (1 : Fin S1024x128.rank) ∈ D128.rhsNonContracting by decide)]
      rfl)
  rw [el, er]

/-- A column reduction of a 1024×1024 block at column j: the sum down the column. -/
theorem colsum_apply (v : FVec Ideal S1024x1024 .f32) (j : Fin 1024) :
    multiReduction .add [0] S1024 v 0x00000000#32 Facts₀.reduces_S1024x1024_S1024 (.inl rfl) rfl (ix1 j)
      = ∑ r : Fin 1024, v (ix2 r j) := by
  refine (Ideal.multiReduction_add_single v 0x00000000#32 Facts₀.reduces_S1024x1024_S1024 (.inl rfl) rfl (ix1 j)).trans ?_
  refine Finset.sum_congr rfl fun r _ => congrArg v (funext fun a => Fin.ext ?_)
  match a with
  | ⟨0, _⟩ => rfl
  | ⟨1, _⟩ => rfl

/-- A vector of 1024 entries cast to one row and broadcast down 8 rows reads, at (s, j), entry j. -/
theorem rows8_apply (v : FVec Ideal S1024 .f32) (s : Fin 8) (j : Fin 1024) :
    broadcastTo S8x1024 (shapeCast S1x1024 v Facts₀.shapeCasts_S1024_S1x1024) Facts₀.broadcasts_S1x1024_S8x1024 (ix2 s j) = v (ix1 j) :=
  (broadcastTo_1b_ab_apply _ _ s j).trans (shapeCast_a_1a_apply v _ 0 j)

/-- One row broadcast down 1024 rows reads, at (r, k), the row's entry k. -/
theorem rows1024_apply (v : FVec Ideal S1x1024 .f32) (r k : Fin 1024) :
    broadcastTo S1024x1024 v Facts₀.broadcasts_S1x1024_S1024x1024 (ix2 r k) = v (ix2 (0 : Fin 1) k) :=
  broadcastTo_1b_ab_apply v _ r k

/-- The kernel's spelling of the sign over a whole block is the sign, entry by entry. -/
theorem ksign_apply {s : Shape} (x : FVec Ideal s .f32) (i : s.Idx) :
    select (cmpf .ogt (absf x) (broadcast s (Scalar.ofBits .f32 0x00000000#32)))
        (select (cmpf .olt x (constant s .f32 0x00000000#32)) (constant s .f32 0xBF800000#32)
          (constant s .f32 0x3F800000#32)) x i
      = Ideal.sign (x i) :=
  Ideal.jnp_sign_eq_sign_f32 (x i)

end Cert.KernelIdeal.KOps

end
-- ==== Proof.Spec.lean ====
import Idealize.ShloMosaic.PureOps.Ideal

/-! # A binarized MLP with training-mode batch normalisation, index by index, over the extended reals

A layer multiplies its input rows with the SIGNS of a weight matrix's rows (`lin`), and between two
layers every column of the pre-activations `z` is normalised over the batch and then replaced by its
sign. The normalisation is written in its two textbook forms:

* the two-pass form: the mean `μ` of a column, the mean of the squared deviations from `μ`, and
  `g · (z − μ) / √(var + ε) + b` (`bnTwoPass`);
* the one-pass form: the mean of the squares minus the square of the mean, and
  `g · (z − μ) · rsqrt(var + ε) + b` (`bnOnePass`).

On columns of real numbers the two agree (Algebra.lean). The batch count and ε are kept as the
float words both programs spell. -/

open scoped BigOperators

namespace Cert.BnnSpec

open Idealize.ShloMosaic

/-- The batch count as both programs spell it: the f32 word of 16384.0. -/
noncomputable abbrev nB : EReal := Ideal.ofBits .f32 0x46800000#32
/-- The ε of the normalisation as both programs spell it: the f32 word nearest 1e-5. -/
noncomputable abbrev eps : EReal := Ideal.ofBits .f32 0x3727C5AC#32

/-- A linear layer against binarized weights: row `i` of the input against the signs of row `j` of `W`. -/
noncomputable def lin {B K N : ℕ} (h : Fin B → Fin K → EReal) (W : Fin N → Fin K → EReal) (i : Fin B) (j : Fin N) : EReal :=
  ∑ k, h i k * Ideal.sign (W j k)

/-- The mean of column `j` over the batch. -/
noncomputable def mean {B N : ℕ} (z : Fin B → Fin N → EReal) (j : Fin N) : EReal :=
  Ideal.div (∑ i, z i j) nB

/-- The variance of column `j`, two-pass: the mean of the squared deviations from the mean. -/
noncomputable def varTwoPass {B N : ℕ} (z : Fin B → Fin N → EReal) (j : Fin N) : EReal :=
  Ideal.div (∑ i, (z i j - mean z j) * (z i j - mean z j)) nB

/-- The variance of column `j`, one-pass: the mean of the squares minus the square of the mean. -/
noncomputable def varOnePass {B N : ℕ} (z : Fin B → Fin N → EReal) (j : Fin N) : EReal :=
  Ideal.div (∑ i, z i j * z i j) nB - mean z j * mean z j

/-- Batch normalisation, two-pass variance, division by the square root. -/
noncomputable def bnTwoPass {B N : ℕ} (z : Fin B → Fin N → EReal) (g b : Fin N → EReal) (i : Fin B) (j : Fin N) : EReal :=
  Ideal.div (g j * (z i j - mean z j)) (Ideal.sqrt (varTwoPass z j + eps)) + b j

/-- Batch normalisation, one-pass variance, product with the reciprocal square root. -/
noncomputable def bnOnePass {B N : ℕ} (z : Fin B → Fin N → EReal) (g b : Fin N → EReal) (i : Fin B) (j : Fin N) : EReal :=
  g j * (z i j - mean z j) * Ideal.rsqrt (varOnePass z j + eps) + b j

/-- The binarized activation after a normalisation: the sign, entry by entry. -/
noncomputable def act {B N : ℕ} (y : Fin B → Fin N → EReal) (i : Fin B) (j : Fin N) : EReal := Ideal.sign (y i j)

/-- The whole network, in the two-pass form: three hidden layers of width `d`, each normalised and
    binarized, and the output layer. -/
noncomputable def netTwoPass {B K d O : ℕ} (x : Fin B → Fin K → EReal) (W1 : Fin d → Fin K → EReal) (g1 b1 : Fin d → EReal)
    (W2 : Fin d → Fin d → EReal) (g2 b2 : Fin d → EReal) (W3 : Fin d → Fin d → EReal) (g3 b3 : Fin d → EReal)
    (W4 : Fin O → Fin d → EReal) : Fin B → Fin O → EReal :=
  let z1 := lin x W1
  let z2 := lin (act (bnTwoPass z1 g1 b1)) W2
  let z3 := lin (act (bnTwoPass z2 g2 b2)) W3
  lin (act (bnTwoPass z3 g3 b3)) W4

/-- The whole network, in the one-pass form. -/
noncomputable def netOnePass {B K d O : ℕ} (x : Fin B → Fin K → EReal) (W1 : Fin d → Fin K → EReal) (g1 b1 : Fin d → EReal)
    (W2 : Fin d → Fin d → EReal) (g2 b2 : Fin d → EReal) (W3 : Fin d → Fin d → EReal) (g3 b3 : Fin d → EReal)
    (W4 : Fin O → Fin d → EReal) : Fin B → Fin O → EReal :=
  let z1 := lin x W1
  let z2 := lin (act (bnOnePass z1 g1 b1)) W2
  let z3 := lin (act (bnOnePass z2 g2 b2)) W3
  lin (act (bnOnePass z3 g3 b3)) W4

end Cert.BnnSpec
-- ==== Proof.Pay.lean ====
import proofs.«102666_j54082228191696_2_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws
import proofs.«102666_j54082228191696_2_alg».proof.Proof.KOps
import proofs.«102666_j54082228191696_2_alg».proof.Proof.Gen.KernelIdeal.Skeleton
import proofs.«102666_j54082228191696_2_alg».proof.Proof.Spec

open scoped BigOperators

noncomputable section

namespace Cert.KernelIdeal.Pay

open Cert.KernelIdeal Idealize.ShloMosaic Idealize.ShloMosaic.ValueIdx

open Cert.KernelIdeal.Gen Cert.KernelIdeal.KOps

/-! # What the four kernel bodies compute, index by index

Region 0 multiplies a block of 1024 rows of x with the binarized, transposed W1 and sums each column
of the product, and of its squares, over the block's rows. Regions 1 and 2 first normalise their block
of z with the batch statistics they are handed — γ·(z − μ)·rsqrt(var + ε) + β —, take the sign, and do
the same with the next weight; region 3 does it against the last, padded, weight and keeps no sums. -/

/-- The normalised entry a body forms at (r, k): γ·(z − μ)·rsqrt(var + ε) + β, every row vector read at k. -/
def normed (z : FVec Ideal S1024x1024 .f32) (va ga mu be : FVec Ideal S1x1024 .f32) (r k : Fin 1024) : EReal :=
  ga (ix2 (0 : Fin 1) k) * (z (ix2 r k) - mu (ix2 (0 : Fin 1) k)) * Ideal.rsqrt (va (ix2 (0 : Fin 1) k) + Cert.BnnSpec.eps) + be (ix2 (0 : Fin 1) k)

/-! ## Region 0 -/

theorem pay0_z (x0 : FVec Ideal S1024x784 .f32) (x1 : FVec Ideal S784x1024 .f32) (r j : Fin 1024) :
    k0_pay1 (F := Ideal) x0 x1 (ix2 r j) = ∑ k : Fin 784, x0 (ix2 r k) * x1 (ix2 k j) := by
  unfold k0_pay1
  rw [shapeCast_self]
  exact matmul784_apply _ x0 x1 r j

theorem pay0_sum (x0 : FVec Ideal S1024x784 .f32) (x1 : FVec Ideal S784x1024 .f32) (s : Fin 8) (j : Fin 1024) :
    k0_pay2 (F := Ideal) x0 x1 (ix2 s j) = ∑ r : Fin 1024, k0_pay1 (F := Ideal) x0 x1 (ix2 r j) := by
  unfold k0_pay2
  rw [shapeCast_self]
  exact (rows8_apply _ s j).trans (colsum_apply _ j)

theorem pay0_sumsq (x0 : FVec Ideal S1024x784 .f32) (x1 : FVec Ideal S784x1024 .f32) (s : Fin 8) (j : Fin 1024) :
    k0_pay3 (F := Ideal) x0 x1 (ix2 s j)
      = ∑ r : Fin 1024, k0_pay1 (F := Ideal) x0 x1 (ix2 r j) * k0_pay1 (F := Ideal) x0 x1 (ix2 r j) := by
  unfold k0_pay3
  rw [shapeCast_self]
  exact (rows8_apply _ s j).trans (colsum_apply _ j)

/-! ## Region 1 -/

theorem pay1_z (z : FVec Ideal S1024x1024 .f32) (va ga mu be : FVec Ideal S1x1024 .f32) (w : FVec Ideal S1024x1024 .bf16)
    (r j : Fin 1024) :
    k1_pay3 (F := Ideal) z va ga mu be w (ix2 r j) = ∑ k : Fin 1024, Ideal.sign (normed z va ga mu be r k) * w (ix2 k j) := by
  unfold k1_pay3
  simp only [shapeCast_self]
  refine (matmul1024_apply _ _ w r j).trans (Finset.sum_congr rfl fun k _ => ?_)
  refine congrArg (· * w (ix2 k j)) ((ksign_apply _ (ix2 r k)).trans (congrArg Ideal.sign ?_))
  show broadcastTo S1024x1024 ga _ (ix2 r k) * (z (ix2 r k) - broadcastTo S1024x1024 mu _ (ix2 r k))
      * broadcastTo S1024x1024 (rsqrt (addf va (broadcast S1x1024 (Scalar.ofBits .f32 0x3727C5AC#32)))) _ (ix2 r k)
      + broadcastTo S1024x1024 be _ (ix2 r k) = _
  rw [rows1024_apply, rows1024_apply, rows1024_apply, rows1024_apply]
  rfl

theorem pay1_sum (z : FVec Ideal S1024x1024 .f32) (va ga mu be : FVec Ideal S1x1024 .f32) (w : FVec Ideal S1024x1024 .bf16)
    (s : Fin 8) (j : Fin 1024) :
    k1_pay1 (F := Ideal) (k1_pay4 (F := Ideal) z va ga mu be w) (ix2 s j) = ∑ r : Fin 1024, k1_pay3 (F := Ideal) z va ga mu be w (ix2 r j) := by
  unfold k1_pay1 k1_pay4
  rw [shapeCast_self]
  exact (rows8_apply _ s j).trans (colsum_apply _ j)

theorem pay1_sumsq (z : FVec Ideal S1024x1024 .f32) (va ga mu be : FVec Ideal S1x1024 .f32) (w : FVec Ideal S1024x1024 .bf16)
    (s : Fin 8) (j : Fin 1024) :
    k1_pay2 (F := Ideal) (k1_pay5 (F := Ideal) z va ga mu be w) (ix2 s j)
      = ∑ r : Fin 1024, k1_pay3 (F := Ideal) z va ga mu be w (ix2 r j) * k1_pay3 (F := Ideal) z va ga mu be w (ix2 r j) := by
  unfold k1_pay2 k1_pay5
  rw [shapeCast_self]
  exact (rows8_apply _ s j).trans (colsum_apply _ j)

/-! ## Region 2 -/

theorem pay2_z (z : FVec Ideal S1024x1024 .f32) (va ga mu be : FVec Ideal S1x1024 .f32) (w : FVec Ideal S1024x1024 .bf16)
    (r j : Fin 1024) :
    k2_pay3 (F := Ideal) z va ga mu be w (ix2 r j) = ∑ k : Fin 1024, Ideal.sign (normed z va ga mu be r k) * w (ix2 k j) := by
  unfold k2_pay3
  simp only [shapeCast_self]
  refine (matmul1024_apply _ _ w r j).trans (Finset.sum_congr rfl fun k _ => ?_)
  refine congrArg (· * w (ix2 k j)) ((ksign_apply _ (ix2 r k)).trans (congrArg Ideal.sign ?_))
  show broadcastTo S1024x1024 ga _ (ix2 r k) * (z (ix2 r k) - broadcastTo S1024x1024 mu _ (ix2 r k))
      * broadcastTo S1024x1024 (rsqrt (addf va (broadcast S1x1024 (Scalar.ofBits .f32 0x3727C5AC#32)))) _ (ix2 r k)
      + broadcastTo S1024x1024 be _ (ix2 r k) = _
  rw [rows1024_apply, rows1024_apply, rows1024_apply, rows1024_apply]
  rfl

theorem pay2_sum (z : FVec Ideal S1024x1024 .f32) (va ga mu be : FVec Ideal S1x1024 .f32) (w : FVec Ideal S1024x1024 .bf16)
    (s : Fin 8) (j : Fin 1024) :
    k2_pay1 (F := Ideal) (k2_pay4 (F := Ideal) z va ga mu be w) (ix2 s j) = ∑ r : Fin 1024, k2_pay3 (F := Ideal) z va ga mu be w (ix2 r j) := by
  unfold k2_pay1 k2_pay4
  rw [shapeCast_self]
  exact (rows8_apply _ s j).trans (colsum_apply _ j)

theorem pay2_sumsq (z : FVec Ideal S1024x1024 .f32) (va ga mu be : FVec Ideal S1x1024 .f32) (w : FVec Ideal S1024x1024 .bf16)
    (s : Fin 8) (j : Fin 1024) :
    k2_pay2 (F := Ideal) (k2_pay5 (F := Ideal) z va ga mu be w) (ix2 s j)
      = ∑ r : Fin 1024, k2_pay3 (F := Ideal) z va ga mu be w (ix2 r j) * k2_pay3 (F := Ideal) z va ga mu be w (ix2 r j) := by
  unfold k2_pay2 k2_pay5
  rw [shapeCast_self]
  exact (rows8_apply _ s j).trans (colsum_apply _ j)

/-! ## Region 3 -/

theorem pay3_z (z : FVec Ideal S1024x1024 .f32) (va ga mu be : FVec Ideal S1x1024 .f32) (w : FVec Ideal S1024x128 .bf16)
    (r : Fin 1024) (j : Fin 128) :
    k3_pay1 (F := Ideal) z va ga mu be w (ix2 r j) = ∑ k : Fin 1024, Ideal.sign (normed z va ga mu be r k) * w (ix2 k j) := by
  unfold k3_pay1
  simp only [shapeCast_self]
  refine (matmul128_apply _ _ w r j).trans (Finset.sum_congr rfl fun k _ => ?_)
  refine congrArg (· * w (ix2 k j)) ((ksign_apply _ (ix2 r k)).trans (congrArg Ideal.sign ?_))
  show broadcastTo S1024x1024 ga _ (ix2 r k) * (z (ix2 r k) - broadcastTo S1024x1024 mu _ (ix2 r k))
      * broadcastTo S1024x1024 (rsqrt (addf va (broadcast S1x1024 (Scalar.ofBits .f32 0x3727C5AC#32)))) _ (ix2 r k)
      + broadcastTo S1024x1024 be _ (ix2 r k) = _
  rw [rows1024_apply, rows1024_apply, rows1024_apply, rows1024_apply]
  rfl

end Cert.KernelIdeal.Pay

end
-- ==== Proof.Reg0.lean ====
import proofs.«102666_j54082228191696_2_alg».proof.Proof.Pay
import proofs.«102666_j54082228191696_2_alg».proof.Proof.Gen.KernelIdeal.Frame
import Idealize.ShloMosaic.Lib.Pipeline.Value

set_option maxRecDepth 16384

open scoped BigOperators

noncomputable section

namespace Cert.KernelIdeal.Reg0

open Cert.KernelIdeal Cert.KernelIdeal.Gen Cert.KernelIdeal.KOps Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! # Region 0: the first layer's product and its per-tile column sums, as whole arrays

The grid has 16 points; point t takes rows 1024·t … 1024·t + 1023 of x and the whole transposed weight,
writes the same rows of the product, and writes rows 8·t … 8·t + 7 of the two statistics arrays, each of
those rows holding the column sums (of the product, of its squares) over the tile's 1024 rows. -/

theorem hz : (![0, 0] : Fin 2 → Nat) = fun _ => 0 := funext fun a => by fin_cases a <;> rfl

/-- The product at (i, j) as a function of the two input arrays. -/
def prod (X : S16384x784.Idx → EReal) (Wt : S784x1024.Idx → EReal) (i : Fin 16384) (j : Fin 1024) : EReal :=
  ∑ k : Fin 784, X (ix2 i k) * Wt (ix2 k j)

/-- Row r of tile t, as a row of the batch. -/
def tileRow (t : Fin 16) (r : Fin 1024) : Fin 16384 := ⟨t.val * 1024 + r.val, by omega⟩

/-- The tile a row of a statistics array belongs to: eight rows per tile. -/
def tileOf (a : Fin 128) : Fin 16 := ⟨a.val / 8, by omega⟩

/-- A tile's column sum of the product. -/
def tileSum (X : S16384x784.Idx → EReal) (Wt : S784x1024.Idx → EReal) (a : Fin 128) (j : Fin 1024) : EReal :=
  ∑ r : Fin 1024, prod X Wt (tileRow (tileOf a) r) j

/-- A tile's column sum of the product's squares. -/
def tileSumSq (X : S16384x784.Idx → EReal) (Wt : S784x1024.Idx → EReal) (a : Fin 128) (j : Fin 1024) : EReal :=
  ∑ r : Fin 1024, prod X Wt (tileRow (tileOf a) r) j * prod X Wt (tileRow (tileOf a) r) j

/-- The index maps over the grid: the row-blocked windows sit at block t, the weight at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- One entry of a block of the product, from blocks that restrict the two arrays. -/
theorem point_z (x0 : FVec Ideal S1024x784 .f32) (x1 : FVec Ideal S784x1024 .f32)
    (X : S16384x784.Idx → EReal) (Wt : S784x1024.Idx → EReal) (p q : Fin 1024) (i : Fin 16384) (j : Fin 1024)
    (h0 : ∀ k : Fin 784, x0 (ix2 p k) = X (ix2 i k)) (h1 : ∀ k : Fin 784, x1 (ix2 k q) = Wt (ix2 k j)) :
    k0_pay1 (F := Ideal) x0 x1 (ix2 p q) = prod X Wt i j := by
  rw [pay0_z]
  exact Finset.sum_congr rfl fun k _ => by rw [h0 k, h1 k]

/-- One entry of a block of the column sums. -/
theorem point_s (x0 : FVec Ideal S1024x784 .f32) (x1 : FVec Ideal S784x1024 .f32)
    (X : S16384x784.Idx → EReal) (Wt : S784x1024.Idx → EReal) (s : Fin 8) (q : Fin 1024) (a : Fin 128) (j : Fin 1024)
    (h0 : ∀ (r : Fin 1024) (k : Fin 784), x0 (ix2 r k) = X (ix2 (tileRow (tileOf a) r) k))
    (h1 : ∀ k : Fin 784, x1 (ix2 k q) = Wt (ix2 k j)) :
    k0_pay2 (F := Ideal) x0 x1 (ix2 s q) = tileSum X Wt a j := by
  rw [pay0_sum]
  exact Finset.sum_congr rfl fun r _ => point_z x0 x1 X Wt r q _ j (h0 r) h1

/-- One entry of a block of the column sums of squares. -/
theorem point_q (x0 : FVec Ideal S1024x784 .f32) (x1 : FVec Ideal S784x1024 .f32)
    (X : S16384x784.Idx → EReal) (Wt : S784x1024.Idx → EReal) (s : Fin 8) (q : Fin 1024) (a : Fin 128) (j : Fin 1024)
    (h0 : ∀ (r : Fin 1024) (k : Fin 784), x0 (ix2 r k) = X (ix2 (tileRow (tileOf a) r) k))
    (h1 : ∀ k : Fin 784, x1 (ix2 k q) = Wt (ix2 k j)) :
    k0_pay3 (F := Ideal) x0 x1 (ix2 s q) = tileSumSq X Wt a j := by
  rw [pay0_sumsq]
  exact Finset.sum_congr rfl fun r _ => by rw [point_z x0 x1 X Wt r q _ j (h0 r) h1]

/-! ## The product's array -/

/-- WHAT POINT t WRITES BACK to the product's array is its block of `prod`. -/
theorem flushed_z (c : Dev nD) (t : Fin cfg0.N) :
    (dat0 V c).flushed 2 t = ((cfg0.win 2).blk t).view.read (Elt Ideal)
      (fun i => prod (V c main_arg0) (V c main_v1) (i 0) (i 1)) := by
  show (cfg0.win 2).cut (grid0.coords t) ((dat0 V c).after 2 t) = _
  rw [after0_2]
  unfold out0_2
  rw [View.canon_unit_zero hz]
  simp only [View.ld_unit_zero (S := S1024x784) hz, View.ld_unit_zero (S := S784x1024) hz]
  obtain ⟨e00, e01, e10, e11, e20, e21, -⟩ := idx_facts t
  funext y
  have hy : y = ix2 (y 0) (y 1) := eq_ix2 y
  show k0_pay1 (F := Ideal) (iblk0 V c 0 t) (iblk0 V c 1 t) y
    = prod (V c main_arg0) (V c main_v1) ((((cfg0.win 2).blk t).view.emb y) 0) ((((cfg0.win 2).blk t).view.emb y) 1)
  refine (congrArg (k0_pay1 (F := Ideal) (iblk0 V c 0 t) (iblk0 V c 1 t)) hy).trans ?_
  refine point_z _ _ _ _ (y 0) (y 1) _ _ (fun k => ?_) (fun k => ?_)
  · show V c main_arg0 (((cfg0.win 0).blk t).view.emb (ix2 (y 0) k)) = V c main_arg0 (ix2 ((((cfg0.win 2).blk t).view.emb y) 0) k)
    refine congrArg (V c main_arg0) (funext fun a => Fin.ext ?_)
    match a with
    | ⟨0, _⟩ => show win0_0.index t (0 : Fin 2) * 1024 + 1 * (y 0).val = win0_2.index t (0 : Fin 2) * 1024 + 1 * (y 0).val; omega
    | ⟨1, _⟩ => show win0_0.index t (1 : Fin 2) * 784 + 1 * k.val = k.val; omega
  · show V c main_v1 (((cfg0.win 1).blk t).view.emb (ix2 k (y 1))) = V c main_v1 (ix2 k ((((cfg0.win 2).blk t).view.emb y) 1))
    refine congrArg (V c main_v1) (funext fun a => Fin.ext ?_)
    match a with
    | ⟨0, _⟩ => show win0_1.index t (0 : Fin 2) * 784 + 1 * k.val = k.val; omega
    | ⟨1, _⟩ => show win0_1.index t (1 : Fin 2) * 1024 + 1 * (y 1).val = win0_2.index t (1 : Fin 2) * 1024 + 1 * (y 1).val; omega

/-- An index of the product's array is in point t's block iff each coordinate is in the block's range. -/
theorem mem_blk_z (t : Fin cfg0.N) (i : S16384x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v2_0).slice (win0_2.rect t)).set ↔ _
  rw [View.set_slice_whole, Rect.mem_set_unit]
  exact Iff.rfl

/-- Every row of the product's array is in the block of the point that owns its tile. -/
theorem cover_z (i : S16384x1024.Idx) : ∃ t : Fin cfg0.N, (cfg0.win 2).flush t = true ∧ i ∈ ((cfg0.win 2).blk t).view.set := by
  have hi0 : (i 0).val < 16384 := (i 0).isLt
  have hi1 : (i 1).val < 1024 := (i 1).isLt
  have hN : cfg0.N = 16 := N_0
  refine ⟨⟨(i 0).val / 1024, by rw [hN]; omega⟩, flush0_2 _, ?_⟩
  rw [mem_blk_z]
  obtain ⟨-, -, -, -, e20, e21, -⟩ := idx_facts ⟨(i 0).val / 1024, by rw [hN]; omega⟩
  intro a
  match a with
  | ⟨0, _⟩ =>
    show win0_2.index _ (0 : Fin 2) * 1024 ≤ (i 0).val ∧ (i 0).val < win0_2.index _ (0 : Fin 2) * 1024 + 1024
    rw [e20]; show (i 0).val / 1024 * 1024 ≤ (i 0).val ∧ (i 0).val < (i 0).val / 1024 * 1024 + 1024; omega
  | ⟨1, _⟩ =>
    show win0_2.index _ (1 : Fin 2) * 1024 ≤ (i 1).val ∧ (i 1).val < win0_2.index _ (1 : Fin 2) * 1024 + 1024
    rw [e21]; omega

/-- THE PRODUCT'S ARRAY after the region. -/
theorem final_z (c : Dev nD) :
    (dat0 V c).arrAt 2 cfg0.N = fun i => prod (V c main_arg0) (V c main_v1) (i 0) (i 1) :=
  (dat0 V c).arrAt_eq_of_cover 2 _ (fun t _ => flushed_z V c t) cover_z

/-! ## The array of the column sums -/

/-- WHAT POINT t WRITES BACK to the sums' array: eight copies of the tile's column sums. -/
theorem flushed_s (c : Dev nD) (t : Fin cfg0.N) :
    (dat0 V c).flushed 3 t = ((cfg0.win 3).blk t).view.read (Elt Ideal)
      (fun i => tileSum (V c main_arg0) (V c main_v1) (i 0) (i 1)) := by
  show (cfg0.win 3).cut (grid0.coords t) ((dat0 V c).after 3 t) = _
  rw [after0_3]
  unfold out0_3
  rw [View.canon_unit_zero hz]
  simp only [View.ld_unit_zero (S := S1024x784) hz, View.ld_unit_zero (S := S784x1024) hz]
  obtain ⟨e00, e01, e10, e11, e20, e21, e30, e31, e40, e41⟩ := idx_facts t
  funext y
  have hy : y = ix2 (y 0) (y 1) := eq_ix2 y
  have hy0 : (y 0).val < 8 := (y 0).isLt
  have ht : t.val < 16 := lt_of_lt_of_eq t.isLt (show cfg0.N = 16 from N_0)
  show k0_pay2 (F := Ideal) (iblk0 V c 0 t) (iblk0 V c 1 t) y
    = tileSum (V c main_arg0) (V c main_v1) ((((cfg0.win 3).blk t).view.emb y) 0) ((((cfg0.win 3).blk t).view.emb y) 1)
  refine (congrArg (k0_pay2 (F := Ideal) (iblk0 V c 0 t) (iblk0 V c 1 t)) hy).trans ?_
  refine point_s _ _ _ _ (y 0) (y 1) _ _ (fun r k => ?_) (fun k => ?_)
  · show V c main_arg0 (((cfg0.win 0).blk t).view.emb (ix2 r k))
      = V c main_arg0 (ix2 (tileRow (tileOf ((((cfg0.win 3).blk t).view.emb y) 0)) r) k)
    refine congrArg (V c main_arg0) (funext fun a => Fin.ext ?_)
    match a with
    | ⟨0, _⟩ =>
      show win0_0.index t (0 : Fin 2) * 1024 + 1 * r.val = (win0_3.index t (0 : Fin 2) * 8 + 1 * (y 0).val) / 8 * 1024 + r.val
      omega
    | ⟨1, _⟩ => show win0_0.index t (1 : Fin 2) * 784 + 1 * k.val = k.val; omega
  · show V c main_v1 (((cfg0.win 1).blk t).view.emb (ix2 k (y 1))) = V c main_v1 (ix2 k ((((cfg0.win 3).blk t).view.emb y) 1))
    refine congrArg (V c main_v1) (funext fun a => Fin.ext ?_)
    match a with
    | ⟨0, _⟩ => show win0_1.index t (0 : Fin 2) * 784 + 1 * k.val = k.val; omega
    | ⟨1, _⟩ => show win0_1.index t (1 : Fin 2) * 1024 + 1 * (y 1).val = win0_3.index t (1 : Fin 2) * 1024 + 1 * (y 1).val; omega

theorem mem_blk_s (t : Fin cfg0.N) (i : S128x1024.Idx) :
    i ∈ ((cfg0.win 3).blk t).view.set ↔ ∀ a : Fin 2, win0_3.index t a * S8x1024.size a ≤ (i a).val ∧ (i a).val < win0_3.index t a * S8x1024.size a + S8x1024.size a := by
  show i ∈ ((View.whole main_v2_1).slice (win0_3.rect t)).set ↔ _
  rw [View.set_slice_whole, Rect.mem_set_unit]
  exact Iff.rfl

theorem cover_s (i : S128x1024.Idx) : ∃ t : Fin cfg0.N, (cfg0.win 3).flush t = true ∧ i ∈ ((cfg0.win 3).blk t).view.set := by
  have hi0 : (i 0).val < 128 := (i 0).isLt
  have hi1 : (i 1).val < 1024 := (i 1).isLt
  have hN : cfg0.N = 16 := N_0
  refine ⟨⟨(i 0).val / 8, by rw [hN]; omega⟩, flush0_3 _, ?_⟩
  rw [mem_blk_s]
  obtain ⟨-, -, -, -, -, -, e30, e31, e40, e41⟩ := idx_facts ⟨(i 0).val / 8, by rw [hN]; omega⟩
  intro a
  match a with
  | ⟨0, _⟩ =>
    show win0_3.index _ (0 : Fin 2) * 8 ≤ (i 0).val ∧ (i 0).val < win0_3.index _ (0 : Fin 2) * 8 + 8
    rw [e30]; show (i 0).val / 8 * 8 ≤ (i 0).val ∧ (i 0).val < (i 0).val / 8 * 8 + 8; omega
  | ⟨1, _⟩ =>
    show win0_3.index _ (1 : Fin 2) * 1024 ≤ (i 1).val ∧ (i 1).val < win0_3.index _ (1 : Fin 2) * 1024 + 1024
    rw [e31]; omega

/-- THE ARRAY of the column sums after the region. -/
theorem final_s (c : Dev nD) :
    (dat0 V c).arrAt 3 cfg0.N = fun i => tileSum (V c main_arg0) (V c main_v1) (i 0) (i 1) :=
  (dat0 V c).arrAt_eq_of_cover 3 _ (fun t _ => flushed_s V c t) cover_s

/-! ## The array of the column sums of squares -/

/-- WHAT POINT t WRITES BACK to the sums of squares' array: eight copies of the tile's column sums of squares. -/
theorem flushed_q (c : Dev nD) (t : Fin cfg0.N) :
    (dat0 V c).flushed 4 t = ((cfg0.win 4).blk t).view.read (Elt Ideal)
      (fun i => tileSumSq (V c main_arg0) (V c main_v1) (i 0) (i 1)) := by
  show (cfg0.win 4).cut (grid0.coords t) ((dat0 V c).after 4 t) = _
  rw [after0_4]
  unfold out0_4
  rw [View.canon_unit_zero hz]
  simp only [View.ld_unit_zero (S := S1024x784) hz, View.ld_unit_zero (S := S784x1024) hz]
  obtain ⟨e00, e01, e10, e11, e20, e21, e30, e31, e40, e41⟩ := idx_facts t
  funext y
  have hy : y = ix2 (y 0) (y 1) := eq_ix2 y
  have hy0 : (y 0).val < 8 := (y 0).isLt
  have ht : t.val < 16 := lt_of_lt_of_eq t.isLt (show cfg0.N = 16 from N_0)
  show k0_pay3 (F := Ideal) (iblk0 V c 0 t) (iblk0 V c 1 t) y
    = tileSumSq (V c main_arg0) (V c main_v1) ((((cfg0.win 4).blk t).view.emb y) 0) ((((cfg0.win 4).blk t).view.emb y) 1)
  refine (congrArg (k0_pay3 (F := Ideal) (iblk0 V c 0 t) (iblk0 V c 1 t)) hy).trans ?_
  refine point_q _ _ _ _ (y 0) (y 1) _ _ (fun r k => ?_) (fun k => ?_)
  · show V c main_arg0 (((cfg0.win 0).blk t).view.emb (ix2 r k))
      = V c main_arg0 (ix2 (tileRow (tileOf ((((cfg0.win 4).blk t).view.emb y) 0)) r) k)
    refine congrArg (V c main_arg0) (funext fun a => Fin.ext ?_)
    match a with
    | ⟨0, _⟩ =>
      show win0_0.index t (0 : Fin 2) * 1024 + 1 * r.val = (win0_4.index t (0 : Fin 2) * 8 + 1 * (y 0).val) / 8 * 1024 + r.val
      omega
    | ⟨1, _⟩ => show win0_0.index t (1 : Fin 2) * 784 + 1 * k.val = k.val; omega
  · show V c main_v1 (((cfg0.win 1).blk t).view.emb (ix2 k (y 1))) = V c main_v1 (ix2 k ((((cfg0.win 4).blk t).view.emb y) 1))
    refine congrArg (V c main_v1) (funext fun a => Fin.ext ?_)
    match a with
    | ⟨0, _⟩ => show win0_1.index t (0 : Fin 2) * 784 + 1 * k.val = k.val; omega
    | ⟨1, _⟩ => show win0_1.index t (1 : Fin 2) * 1024 + 1 * (y 1).val = win0_4.index t (1 : Fin 2) * 1024 + 1 * (y 1).val; omega

theorem mem_blk_q (t : Fin cfg0.N) (i : S128x1024.Idx) :
    i ∈ ((cfg0.win 4).blk t).view.set ↔ ∀ a : Fin 2, win0_4.index t a * S8x1024.size a ≤ (i a).val ∧ (i a).val < win0_4.index t a * S8x1024.size a + S8x1024.size a := by
  show i ∈ ((View.whole main_v2_2).slice (win0_4.rect t)).set ↔ _
  rw [View.set_slice_whole, Rect.mem_set_unit]
  exact Iff.rfl

theorem cover_q (i : S128x1024.Idx) : ∃ t : Fin cfg0.N, (cfg0.win 4).flush t = true ∧ i ∈ ((cfg0.win 4).blk t).view.set := by
  have hi0 : (i 0).val < 128 := (i 0).isLt
  have hi1 : (i 1).val < 1024 := (i 1).isLt
  have hN : cfg0.N = 16 := N_0
  refine ⟨⟨(i 0).val / 8, by rw [hN]; omega⟩, flush0_4 _, ?_⟩
  rw [mem_blk_q]
  obtain ⟨-, -, -, -, -, -, e30, e31, e40, e41⟩ := idx_facts ⟨(i 0).val / 8, by rw [hN]; omega⟩
  intro a
  match a with
  | ⟨0, _⟩ =>
    show win0_4.index _ (0 : Fin 2) * 8 ≤ (i 0).val ∧ (i 0).val < win0_4.index _ (0 : Fin 2) * 8 + 8
    rw [e40]; show (i 0).val / 8 * 8 ≤ (i 0).val ∧ (i 0).val < (i 0).val / 8 * 8 + 8; omega
  | ⟨1, _⟩ =>
    show win0_4.index _ (1 : Fin 2) * 1024 ≤ (i 1).val ∧ (i 1).val < win0_4.index _ (1 : Fin 2) * 1024 + 1024
    rw [e41]; omega

/-- THE ARRAY of the column sums of squares after the region. -/
theorem final_q (c : Dev nD) :
    (dat0 V c).arrAt 4 cfg0.N = fun i => tileSumSq (V c main_arg0) (V c main_v1) (i 0) (i 1) :=
  (dat0 V c).arrAt_eq_of_cover 4 _ (fun t _ => flushed_q V c t) cover_q

end Cert.KernelIdeal.Reg0

end
-- ==== Proof.Reg1.lean ====
import proofs.«102666_j54082228191696_2_alg».proof.Proof.Pay
import proofs.«102666_j54082228191696_2_alg».proof.Proof.Gen.KernelIdeal.Frame
import proofs.«102666_j54082228191696_2_alg».proof.Proof.Reg0
import Idealize.ShloMosaic.Lib.Pipeline.Value

set_option maxRecDepth 16384

open scoped BigOperators

noncomputable section

namespace Cert.KernelIdeal.Reg1

open Cert.KernelIdeal Cert.KernelIdeal.Gen Cert.KernelIdeal.KOps Cert.KernelIdeal.Pay
open Idealize.ShloMosaic Idealize.ShloMosaic.TcCoe Idealize.ShloMosaic.ValueIdx Idealize.SL.Sem
open Idealize.ShloMosaic.Pipeline (Dat)
open Cert.KernelIdeal.Reg0 (hz tileRow tileOf)

variable (V : (c : Dev nD) → (b : Ref sig .tc) → Buf (Elt Ideal) ((c : Thread nD τ).loc b))

/-! # Region 1: a normalised, binarized layer and its per-tile column sums, as whole arrays

The grid has 16 points; point t takes rows 1024·t … 1024·t + 1023 of z, the four row vectors (mean,
variance, scale, shift) and the transposed binarized weight whole, writes the same rows of the next
pre-activations — the signs of the normalised entries against the weight —, and writes rows
8·t … 8·t + 7 of the two statistics arrays, each of those rows holding the column sums (of the new
pre-activations, of their squares) over the tile's 1024 rows. -/

/-- The next pre-activation at (i, j) as a function of the six input arrays: the sign of
    γ·(z − μ)·rsqrt(var + ε) + β along row i against column j of the weight. -/
def next (Z : S16384x1024.Idx → EReal) (Mu Va Ga Be : S1x1024.Idx → EReal) (Wt : S1024x1024.Idx → EReal)
    (i : Fin 16384) (j : Fin 1024) : EReal :=
  ∑ k : Fin 1024, Ideal.sign (Ga (ix2 (0 : Fin 1) k) * (Z (ix2 i k) - Mu (ix2 (0 : Fin 1) k))
    * Ideal.rsqrt (Va (ix2 (0 : Fin 1) k) + Cert.BnnSpec.eps) + Be (ix2 (0 : Fin 1) k)) * Wt (ix2 k j)

/-- A tile's column sum of the next pre-activations: row a of the statistics array belongs to tile a / 8. -/
def tileSum (Z : S16384x1024.Idx → EReal) (Mu Va Ga Be : S1x1024.Idx → EReal) (Wt : S1024x1024.Idx → EReal)
    (a : Fin 128) (j : Fin 1024) : EReal :=
  ∑ r : Fin 1024, next Z Mu Va Ga Be Wt (tileRow (tileOf a) r) j

/-- A tile's column sum of the squares of the next pre-activations. -/
def tileSumSq (Z : S16384x1024.Idx → EReal) (Mu Va Ga Be : S1x1024.Idx → EReal) (Wt : S1024x1024.Idx → EReal)
    (a : Fin 128) (j : Fin 1024) : EReal :=
  ∑ r : Fin 1024, next Z Mu Va Ga Be Wt (tileRow (tileOf a) r) j * next Z Mu Va Ga Be Wt (tileRow (tileOf a) r) j

/-- The index maps over the grid: the row-blocked windows sit at block t, the whole ones at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-- One entry of a block of the next pre-activations, from blocks that restrict the six arrays. -/
theorem point_z (x0 : FVec Ideal S1024x1024 .f32) (x1 x2 x3 x4 : FVec Ideal S1x1024 .f32) (x5 : FVec Ideal S1024x1024 .bf16)
    (Z : S16384x1024.Idx → EReal) (Mu Va Ga Be : S1x1024.Idx → EReal) (Wt : S1024x1024.Idx → EReal)
    (p q : Fin 1024) (i : Fin 16384) (j : Fin 1024)
    (h0 : ∀ k : Fin 1024, x0 (ix2 p k) = Z (ix2 i k))
    (h1 : ∀ k : Fin 1024, x1 (ix2 (0 : Fin 1) k) = Mu (ix2 (0 : Fin 1) k))
    (h2 : ∀ k : Fin 1024, x2 (ix2 (0 : Fin 1) k) = Va (ix2 (0 : Fin 1) k))
    (h3 : ∀ k : Fin 1024, x3 (ix2 (0 : Fin 1) k) = Ga (ix2 (0 : Fin 1) k))
    (h4 : ∀ k : Fin 1024, x4 (ix2 (0 : Fin 1) k) = Be (ix2 (0 : Fin 1) k))
    (h5 : ∀ k : Fin 1024, x5 (ix2 k q) = Wt (ix2 k j)) :
    k1_pay3 (F := Ideal) x0 x2 x3 x1 x4 x5 (ix2 p q) = next Z Mu Va Ga Be Wt i j := by
  rw [pay1_z]
  unfold next normed
  exact Finset.sum_congr rfl fun k _ => by rw [h0 k, h1 k, h2 k, h3 k, h4 k, h5 k]

/-- One entry of a block of the column sums. -/
theorem point_s (x0 : FVec Ideal S1024x1024 .f32) (x1 x2 x3 x4 : FVec Ideal S1x1024 .f32) (x5 : FVec Ideal S1024x1024 .bf16)
    (Z : S16384x1024.Idx → EReal) (Mu Va Ga Be : S1x1024.Idx → EReal) (Wt : S1024x1024.Idx → EReal)
    (s : Fin 8) (q : Fin 1024) (a : Fin 128) (j : Fin 1024)
    (h0 : ∀ (r k : Fin 1024), x0 (ix2 r k) = Z (ix2 (tileRow (tileOf a) r) k))
    (h1 : ∀ k : Fin 1024, x1 (ix2 (0 : Fin 1) k) = Mu (ix2 (0 : Fin 1) k))
    (h2 : ∀ k : Fin 1024, x2 (ix2 (0 : Fin 1) k) = Va (ix2 (0 : Fin 1) k))
    (h3 : ∀ k : Fin 1024, x3 (ix2 (0 : Fin 1) k) = Ga (ix2 (0 : Fin 1) k))
    (h4 : ∀ k : Fin 1024, x4 (ix2 (0 : Fin 1) k) = Be (ix2 (0 : Fin 1) k))
    (h5 : ∀ k : Fin 1024, x5 (ix2 k q) = Wt (ix2 k j)) :
    k1_pay1 (F := Ideal) (k1_pay4 (F := Ideal) x0 x2 x3 x1 x4 x5) (ix2 s q)
      = tileSum Z Mu Va Ga Be Wt a j := by
  rw [pay1_sum]
  exact Finset.sum_congr rfl fun r _ => point_z x0 x1 x2 x3 x4 x5 Z Mu Va Ga Be Wt r q _ j (h0 r) h1 h2 h3 h4 h5

/-- One entry of a block of the column sums of squares. -/
theorem point_q (x0 : FVec Ideal S1024x1024 .f32) (x1 x2 x3 x4 : FVec Ideal S1x1024 .f32) (x5 : FVec Ideal S1024x1024 .bf16)
    (Z : S16384x1024.Idx → EReal) (Mu Va Ga Be : S1x1024.Idx → EReal) (Wt : S1024x1024.Idx → EReal)
    (s : Fin 8) (q : Fin 1024) (a : Fin 128) (j : Fin 1024)
    (h0 : ∀ (r k : Fin 1024), x0 (ix2 r k) = Z (ix2 (tileRow (tileOf a) r) k))
    (h1 : ∀ k : Fin 1024, x1 (ix2 (0 : Fin 1) k) = Mu (ix2 (0 : Fin 1) k))
    (h2 : ∀ k : Fin 1024, x2 (ix2 (0 : Fin 1) k) = Va (ix2 (0 : Fin 1) k))
    (h3 : ∀ k : Fin 1024, x3 (ix2 (0 : Fin 1) k) = Ga (ix2 (0 : Fin 1) k))
    (h4 : ∀ k : Fin 1024, x4 (ix2 (0 : Fin 1) k) = Be (ix2 (0 : Fin 1) k))
    (h5 : ∀ k : Fin 1024, x5 (ix2 k q) = Wt (ix2 k j)) :
    k1_pay2 (F := Ideal) (k1_pay5 (F := Ideal) x0 x2 x3 x1 x4 x5) (ix2 s q)
      = tileSumSq Z Mu Va Ga Be Wt a j := by
  rw [pay1_sumsq]
  exact Finset.sum_congr rfl fun r _ => by
    rw [point_z x0 x1 x2 x3 x4 x5 Z Mu Va Ga Be Wt r q _ j (h0 r) h1 h2 h3 h4 h5]

/-! ## The next pre-activations' array -/

/-- WHAT POINT t WRITES BACK to the next pre-activations' array is its block of `next`. -/
theorem flushed_z (c : Dev nD) (t : Fin cfg1.N) :
    (dat1 V c).flushed 6 t = ((cfg1.win 6).blk t).view.read (Elt Ideal)
      (fun i => next (V c main_v2_0) (V c main_v14) (V c main_v18) (V c main_v22) (V c main_v23) (V c main_v21) (i 0) (i 1)) := by
  show (cfg1.win 6).cut (grid1.coords t) ((dat1 V c).after 6 t) = _
  rw [after1_6]
  unfold out1_6
  rw [View.canon_unit_zero hz]
  simp only [View.ld_unit_zero (S := S1024x1024) hz, View.ld_unit_zero (S := S1x1024) hz]
  obtain ⟨e00, e01, e10, e11, e20, e21, e30, e31, e40, e41, e50, e51, e60, e61, -⟩ := idx_facts t
  funext y
  have hy : y = ix2 (y 0) (y 1) := eq_ix2 y
  show k1_pay3 (F := Ideal) (iblk1 V c 0 t) (iblk1 V c 2 t) (iblk1 V c 3 t) (iblk1 V c 1 t) (iblk1 V c 4 t) (iblk1 V c 5 t) y
    = next (V c main_v2_0) (V c main_v14) (V c main_v18) (V c main_v22) (V c main_v23) (V c main_v21)
        ((((cfg1.win 6).blk t).view.emb y) 0) ((((cfg1.win 6).blk t).view.emb y) 1)
  refine (congrArg (k1_pay3 (F := Ideal) (iblk1 V c 0 t) (iblk1 V c 2 t) (iblk1 V c 3 t) (iblk1 V c 1 t) (iblk1 V c 4 t) (iblk1 V c 5 t)) hy).trans ?_
  refine point_z _ _ _ _ _ _ _ _ _ _ _ _ (y 0) (y 1) _ _ (fun k => ?_) (fun k => ?_) (fun k => ?_) (fun k => ?_) (fun k => ?_) (fun k => ?_)
  · show V c main_v2_0 (((cfg1.win 0).blk t).view.emb (ix2 (y 0) k)) = V c main_v2_0 (ix2 ((((cfg1.win 6).blk t).view.emb y) 0) k)
    refine congrArg (V c main_v2_0) (funext fun a => Fin.ext ?_)
    match a with
    | ⟨0, _⟩ => show win1_0.index t (0 : Fin 2) * 1024 + 1 * (y 0).val = win1_6.index t (0 : Fin 2) * 1024 + 1 * (y 0).val; omega
    | ⟨1, _⟩ => show win1_0.index t (1 : Fin 2) * 1024 + 1 * k.val = k.val; omega
  · show V c main_v14 (((cfg1.win 1).blk t).view.emb (ix2 (0 : Fin 1) k)) = V c main_v14 (ix2 (0 : Fin 1) k)
    refine congrArg (V c main_v14) (funext fun a => Fin.ext ?_)
    match a with
    | ⟨0, _⟩ => show win1_1.index t (0 : Fin 2) * 1 + 1 * 0 = 0; omega
    | ⟨1, _⟩ => show win1_1.index t (1 : Fin 2) * 1024 + 1 * k.val = k.val; omega
  · show V c main_v18 (((cfg1.win 2).blk t).view.emb (ix2 (0 : Fin 1) k)) = V c main_v18 (ix2 (0 : Fin 1) k)
    refine congrArg (V c main_v18) (funext fun a => Fin.ext ?_)
    match a with
    | ⟨0, _⟩ => show win1_2.index t (0 : Fin 2) * 1 + 1 * 0 = 0; omega
    | ⟨1, _⟩ => show win1_2.index t (1 : Fin 2) * 1024 + 1 * k.val = k.val; omega
  · show V c main_v22 (((cfg1.win 3).blk t).view.emb (ix2 (0 : Fin 1) k)) = V c main_v22 (ix2 (0 : Fin 1) k)
    refine congrArg (V c main_v22) (funext fun a => Fin.ext ?_)
    match a with
    | ⟨0, _⟩ => show win1_3.index t (0 : Fin 2) * 1 + 1 * 0 = 0; omega
    | ⟨1, _⟩ => show win1_3.index t (1 : Fin 2) * 1024 + 1 * k.val = k.val; omega
  · show V c main_v23 (((cfg1.win 4).blk t).view.emb (ix2 (0 : Fin 1) k)) = V c main_v23 (ix2 (0 : Fin 1) k)
    refine congrArg (V c main_v23) (funext fun a => Fin.ext ?_)
    match a with
    | ⟨0, _⟩ => show win1_4.index t (0 : Fin 2) * 1 + 1 * 0 = 0; omega
    | ⟨1, _⟩ => show win1_4.index t (1 : Fin 2) * 1024 + 1 * k.val = k.val; omega
  · show V c main_v21 (((cfg1.win 5).blk t).view.emb (ix2 k (y 1))) = V c main_v21 (ix2 k ((((cfg1.win 6).blk t).view.emb y) 1))
    refine congrArg (V c main_v21) (funext fun a => Fin.ext ?_)
    match a with
    | ⟨0, _⟩ => show win1_5.index t (0 : Fin 2) * 1024 + 1 * k.val = k.val; omega
    | ⟨1, _⟩ => show win1_5.index t (1 : Fin 2) * 1024 + 1 * (y 1).val = win1_6.index t (1 : Fin 2) * 1024 + 1 * (y 1).val; omega

/-- An index of the next pre-activations' array is in point t's block iff each coordinate is in the block's range. -/
theorem mem_blk_z (t : Fin cfg1.N) (i : S16384x1024.Idx) :
    i ∈ ((cfg1.win 6).blk t).view.set ↔ ∀ a : Fin 2, win1_6.index t a * S1024x1024.size a ≤ (i a).val ∧ (i a).val < win1_6.index t a * S1024x1024.size a + S1024x1024.size a := by
  show i ∈ ((View.whole main_v24_0).slice (win1_6.rect t)).set ↔ _
  rw [View.set_slice_whole, Rect.mem_set_unit]
  exact Iff.rfl

/-- Every row of the array is in the block of the point that owns its tile. -/
theorem cover_z (i : S16384x1024.Idx) : ∃ t : Fin cfg1.N, (cfg1.win 6).flush t = true ∧ i ∈ ((cfg1.win 6).blk t).view.set := by
  have hi0 : (i 0).val < 16384 := (i 0).isLt
  have hi1 : (i 1).val < 1024 := (i 1).isLt
  have hN : cfg1.N = 16 := N_1
  refine ⟨⟨(i 0).val / 1024, by rw [hN]; omega⟩, flush1_6 _, ?_⟩
  rw [mem_blk_z]
  obtain ⟨-, -, -, -, -, -, -, -, -, -, -, -, e60, e61, -⟩ := idx_facts ⟨(i 0).val / 1024, by rw [hN]; omega⟩
  intro a
  match a with
  | ⟨0, _⟩ =>
    show win1_6.index _ (0 : Fin 2) * 1024 ≤ (i 0).val ∧ (i 0).val < win1_6.index _ (0 : Fin 2) * 1024 + 1024
    rw [e60]; show (i 0).val / 1024 * 1024 ≤ (i 0).val ∧ (i 0).val < (i 0).val / 1024 * 1024 + 1024; omega
  | ⟨1, _⟩ =>
    show win1_6.index _ (1 : Fin 2) * 1024 ≤ (i 1).val ∧ (i 1).val < win1_6.index _ (1 : Fin 2) * 1024 + 1024
    rw [e61]; omega

/-- THE NEXT PRE-ACTIVATIONS' ARRAY after the region. -/
theorem final_z (c : Dev nD) :
    (dat1 V c).arrAt 6 cfg1.N = fun i => next (V c main_v2_0) (V c main_v14) (V c main_v18) (V c main_v22) (V c main_v23) (V c main_v21) (i 0) (i 1) :=
  (dat1 V c).arrAt_eq_of_cover 6 _ (fun t _ => flushed_z V c t) cover_z

/-! ## The per-tile column sums' array -/

/-- WHAT POINT t WRITES BACK to that array: its eight rows, each the tile's column sums. -/
theorem flushed_s (c : Dev nD) (t : Fin cfg1.N) :
    (dat1 V c).flushed 7 t = ((cfg1.win 7).blk t).view.read (Elt Ideal)
      (fun i => tileSum (V c main_v2_0) (V c main_v14) (V c main_v18) (V c main_v22) (V c main_v23) (V c main_v21) (i 0) (i 1)) := by
  show (cfg1.win 7).cut (grid1.coords t) ((dat1 V c).after 7 t) = _
  rw [after1_7]
  unfold out1_7
  rw [View.canon_unit_zero hz]
  simp only [View.ld_unit_zero (S := S1024x1024) hz, View.ld_unit_zero (S := S1x1024) hz]
  obtain ⟨e00, e01, e10, e11, e20, e21, e30, e31, e40, e41, e50, e51, e60, e61, e70, e71, e80, e81⟩ := idx_facts t
  funext y
  have hy : y = ix2 (y 0) (y 1) := eq_ix2 y
  have hy0 : (y 0).val < 8 := (y 0).isLt
  show k1_pay1 (F := Ideal) (k1_pay4 (F := Ideal) (iblk1 V c 0 t) (iblk1 V c 2 t) (iblk1 V c 3 t) (iblk1 V c 1 t) (iblk1 V c 4 t) (iblk1 V c 5 t)) y
    = tileSum (V c main_v2_0) (V c main_v14) (V c main_v18) (V c main_v22) (V c main_v23) (V c main_v21) ((((cfg1.win 7).blk t).view.emb y) 0) ((((cfg1.win 7).blk t).view.emb y) 1)
  refine (congrArg (k1_pay1 (F := Ideal) (k1_pay4 (F := Ideal) (iblk1 V c 0 t) (iblk1 V c 2 t) (iblk1 V c 3 t) (iblk1 V c 1 t) (iblk1 V c 4 t) (iblk1 V c 5 t))) hy).trans ?_
  refine point_s _ _ _ _ _ _ _ _ _ _ _ _ (y 0) (y 1) _ _ (fun r k => ?_) (fun k => ?_) (fun k => ?_) (fun k => ?_) (fun k => ?_) (fun k => ?_)
  · show V c main_v2_0 (((cfg1.win 0).blk t).view.emb (ix2 r k))
      = V c main_v2_0 (ix2 (tileRow (tileOf ((((cfg1.win 7).blk t).view.emb y) 0)) r) k)
    refine congrArg (V c main_v2_0) (funext fun a => Fin.ext ?_)
    match a with
    | ⟨0, _⟩ =>
      show win1_0.index t (0 : Fin 2) * 1024 + 1 * r.val = (win1_7.index t (0 : Fin 2) * 8 + 1 * (y 0).val) / 8 * 1024 + r.val
      rw [e00, e70]; omega
    | ⟨1, _⟩ => show win1_0.index t (1 : Fin 2) * 1024 + 1 * k.val = k.val; omega
  · show V c main_v14 (((cfg1.win 1).blk t).view.emb (ix2 (0 : Fin 1) k)) = V c main_v14 (ix2 (0 : Fin 1) k)
    refine congrArg (V c main_v14) (funext fun a => Fin.ext ?_)
    match a with
    | ⟨0, _⟩ => show win1_1.index t (0 : Fin 2) * 1 + 1 * 0 = 0; omega
    | ⟨1, _⟩ => show win1_1.index t (1 : Fin 2) * 1024 + 1 * k.val = k.val; omega
  · show V c main_v18 (((cfg1.win 2).blk t).view.emb (ix2 (0 : Fin 1) k)) = V c main_v18 (ix2 (0 : Fin 1) k)
    refine congrArg (V c main_v18) (funext fun a => Fin.ext ?_)
    match a with
    | ⟨0, _⟩ => show win1_2.index t (0 : Fin 2) * 1 + 1 * 0 = 0; omega
    | ⟨1, _⟩ => show win1_2.index t (1 : Fin 2) * 1024 + 1 * k.val = k.val; omega
  · show V c main_v22 (((cfg1.win 3).blk t).view.emb (ix2 (0 : Fin 1) k)) = V c main_v22 (ix2 (0 : Fin 1) k)
    refine congrArg (V c main_v22) (funext fun a => Fin.ext ?_)
    match a with
    | ⟨0, _⟩ => show win1_3.index t (0 : Fin 2) * 1 + 1 * 0 = 0; omega
    | ⟨1, _⟩ => show win1_3.index t (1 : Fin 2) * 1024 + 1 * k.val = k.val; omega
  · show V c main_v23 (((cfg1.win 4).blk t).view.emb (ix2 (0 : Fin 1) k)) = V c main_v23 (ix2 (0 : Fin 1) k)
    refine congrArg (V c main_v23) (funext fun a => Fin.ext ?_)
    match a with
    | ⟨0, _⟩ => show win1_4.index t (0 : Fin 2) * 1 + 1 * 0 = 0; omega
    | ⟨1, _⟩ => show win1_4.index t (1 : Fin 2) * 1024 + 1 * k.val = k.val; omega
  · show V c main_v21 (((cfg1.win 5).blk t).view.emb (ix2 k (y 1))) = V c main_v21 (ix2 k ((((cfg1.win 7).blk t).view.emb y) 1))
    refine congrArg (V c main_v21) (funext fun a => Fin.ext ?_)
    match a with
    | ⟨0, _⟩ => show win1_5.index t (0 : Fin 2) * 1024 + 1 * k.val = k.val; omega
    | ⟨1, _⟩ => show win1_5.index t (1 : Fin 2) * 1024 + 1 * (y 1).val = win1_7.index t (1 : Fin 2) * 1024 + 1 * (y 1).val; omega

/-- An index of that array is in point t's block iff each coordinate is in the block's range. -/
theorem mem_blk_s (t : Fin cfg1.N) (i : S128x1024.Idx) :
    i ∈ ((cfg1.win 7).blk t).view.set ↔ ∀ a : Fin 2, win1_7.index t a * S8x1024.size a ≤ (i a).val ∧ (i a).val < win1_7.index t a * S8x1024.size a + S8x1024.size a := by
  show i ∈ ((View.whole main_v24_1).slice (win1_7.rect t)).set ↔ _
  rw [View.set_slice_whole, Rect.mem_set_unit]
  exact Iff.rfl

/-- Every row of that array is in the block of the point that owns its tile. -/
theorem cover_s (i : S128x1024.Idx) : ∃ t : Fin cfg1.N, (cfg1.win 7).flush t = true ∧ i ∈ ((cfg1.win 7).blk t).view.set := by
  have hi0 : (i 0).val < 128 := (i 0).isLt
  have hi1 : (i 1).val < 1024 := (i 1).isLt
  have hN : cfg1.N = 16 := N_1
  refine ⟨⟨(i 0).val / 8, by rw [hN]; omega⟩, flush1_7 _, ?_⟩
  rw [mem_blk_s]
  obtain ⟨-, -, -, -, -, -, -, -, -, -, -, -, -, -, e70, e71, e80, e81⟩ := idx_facts ⟨(i 0).val / 8, by rw [hN]; omega⟩
  intro a
  match a with
  | ⟨0, _⟩ =>
    show win1_7.index _ (0 : Fin 2) * 8 ≤ (i 0).val ∧ (i 0).val < win1_7.index _ (0 : Fin 2) * 8 + 8
    rw [e70]; show (i 0).val / 8 * 8 ≤ (i 0).val ∧ (i 0).val < (i 0).val / 8 * 8 + 8; omega
  | ⟨1, _⟩ =>
    show win1_7.index _ (1 : Fin 2) * 1024 ≤ (i 1).val ∧ (i 1).val < win1_7.index _ (1 : Fin 2) * 1024 + 1024
    rw [e71]; omega

/-- THAT ARRAY after the region. -/
theorem final_s (c : Dev nD) :
    (dat1 V c).arrAt 7 cfg1.N = fun i => tileSum (V c main_v2_0) (V c main_v14) (V c main_v18) (V c main_v22) (V c main_v23) (V c main_v21) (i 0) (i 1) :=
  (dat1 V c).arrAt_eq_of_cover 7 _ (fun t _ => flushed_s V c t) cover_s

/-! ## The per-tile column sums of squares' array -/

/-- WHAT POINT t WRITES BACK to that array: its eight rows, each the tile's column sums. -/
theorem flushed_q (c : Dev nD) (t : Fin cfg1.N) :
    (dat1 V c).flushed 8 t = ((cfg1.win 8).blk t).view.read (Elt Ideal)
      (fun i => tileSumSq (V c main_v2_0) (V c main_v14) (V c main_v18) (V c main_v22) (V c main_v23) (V c main_v21) (i 0) (i 1)) := by
  show (cfg1.win 8).cut (grid1.coords t) ((dat1 V c).after 8 t) = _
  rw [after1_8]
  unfold out1_8
  rw [View.canon_unit_zero hz]
  simp only [View.ld_unit_zero (S := S1024x1024) hz, View.ld_unit_zero (S := S1x1024) hz]
  obtain ⟨e00, e01, e10, e11, e20, e21, e30, e31, e40, e41, e50, e51, e60, e61, e70, e71, e80, e81⟩ := idx_facts t
  funext y
  have hy : y = ix2 (y 0) (y 1) := eq_ix2 y
  have hy0 : (y 0).val < 8 := (y 0).isLt
  show k1_pay2 (F := Ideal) (k1_pay5 (F := Ideal) (iblk1 V c 0 t) (iblk1 V c 2 t) (iblk1 V c 3 t) (iblk1 V c 1 t) (iblk1 V c 4 t) (iblk1 V c 5 t)) y
    = tileSumSq (V c main_v2_0) (V c main_v14) (V c main_v18) (V c main_v22) (V c main_v23) (V c main_v21) ((((cfg1.win 8).blk t).view.emb y) 0) ((((cfg1.win 8).blk t).view.emb y) 1)
  refine (congrArg (k1_pay2 (F := Ideal) (k1_pay5 (F := Ideal) (iblk1 V c 0 t) (iblk1 V c 2 t) (iblk1 V c 3 t) (iblk1 V c 1 t) (iblk1 V c 4 t) (iblk1 V c 5 t))) hy).trans ?_
  refine point_q _ _ _ _ _ _ _ _ _ _ _ _ (y 0) (y 1) _ _ (fun r k => ?_) (fun k => ?_) (fun k => ?_) (fun k => ?_) (fun k => ?_) (fun k => ?_)
  · show V c main_v2_0 (((cfg1.win 0).blk t).view.emb (ix2 r k))
      = V c main_v2_0 (ix2 (tileRow (tileOf ((((cfg1.win 8).blk t).view.emb y) 0)) r) k)
    refine congrArg (V c main_v2_0) (funext fun a => Fin.ext ?_)
    match a with
    | ⟨0, _⟩ =>
      show win1_0.index t (0 : Fin 2) * 1024 + 1 * r.val = (win1_8.index t (0 : Fin 2) * 8 + 1 * (y 0).val) / 8 * 1024 + r.val
      rw [e00, e80]; omega
    | ⟨1, _⟩ => show win1_0.index t (1 : Fin 2) * 1024 + 1 * k.val = k.val; omega
  · show V c main_v14 (((cfg1.win 1).blk t).view.emb (ix2 (0 : Fin 1) k)) = V c main_v14 (ix2 (0 : Fin 1) k)
    refine congrArg (V c main_v14) (funext fun a => Fin.ext ?_)
    match a with
    | ⟨0, _⟩ => show win1_1.index t (0 : Fin 2) * 1 + 1 * 0 = 0; omega
    | ⟨1, _⟩ => show win1_1.index t (1 : Fin 2) * 1024 + 1 * k.val = k.val; omega
  · show V c main_v18 (((cfg1.win 2).blk t).view.emb (ix2 (0 : Fin 1) k)) = V c main_v18 (ix2 (0 : Fin 1) k)
    refine congrArg (V c main_v18) (funext fun a => Fin.ext ?_)
    match a with
    | ⟨0, _⟩ => show win1_2.index t (0 : Fin 2) * 1 + 1 * 0 = 0; omega
    | ⟨1, _⟩ => show win1_2.index t (1 : Fin 2) * 1024 + 1 * k.val = k.val; omega
  · show V c main_v22 (((cfg1.win 3).blk t).view.emb (ix2 (0 : Fin 1) k)) = V c main_v22 (ix2 (0 : Fin 1) k)
    refine congrArg (V c main_v22) (funext fun a => Fin.ext ?_)
    match a with
    | ⟨0, _⟩ => show win1_3.index t (0 : Fin 2) * 1 + 1 * 0 = 0; omega
    | ⟨1, _⟩ => show win1_3.index t (1 : Fin 2) * 1024 + 1 * k.val = k.val; omega
  · show V c main_v23 (((cfg1.win 4).blk t).view.emb (ix2 (0 : Fin 1) k)) = V c main_v23 (ix2 (0 : Fin 1) k)
    refine congrArg (V c main_v23) (funext fun a => Fin.ext ?_)
    match a with
    | ⟨0, _⟩ => show win1_4.index t (0 : Fin 2) * 1 + 1 * 0 = 0; omega
    | ⟨1, _⟩ => show win1_4.index t (1 : Fin 2) * 1024 + 1 * k.val = k.val; omega
  · show V c main_v21 (((cfg1.win 5).blk t).view.emb (ix2 k (y 1))) = V c main_v21 (ix2 k ((((cfg1.win 8).blk t).view.emb y) 1))
    refine congrArg (V c main_v21) (funext fun a => Fin.ext ?_)
    match a with
    | ⟨0, _⟩ => show win1_5.index t (0 : Fin 2) * 1024 + 1 * k.val = k.val; omega
    | ⟨1, _⟩ => show win1_5.index t (1 : Fin 2) * 1024 + 1 * (y 1).val = win1_8.index t (1 : Fin 2) * 1024 + 1 * (y 1).val; omega

/-- An index of that array is in point t's block iff each coordinate is in the block's range. -/
theorem mem_blk_q (t : Fin cfg1.N) (i : S128x1024.Idx) :
    i ∈ ((cfg1.win 8).blk t).view.set ↔ ∀ a : Fin 2, win1_8.index t a * S8x1024.size a ≤ (i a).val ∧ (i a).val < win1_8.index t a * S8x1024.size a + S8x1024.size a := by
  show i ∈ ((View.whole main_v24_2).slice (win1_8.rect t)).set ↔ _
  rw [View.set_slice_whole, Rect.mem_set_unit]
  exact Iff.rfl

/-- Every row of that array is in the block of the point that owns its tile. -/
theorem cover_q (i : S128x1024.Idx) : ∃ t : Fin cfg1.N, (cfg1.win 8).flush t = true ∧ i ∈ ((cfg1.win 8).blk t).view.set := by
  have hi0 : (i 0).val < 128 := (i 0).isLt
  have hi1 : (i 1).val < 1024 := (i 1).isLt
  have hN : cfg1.N = 16 := N_1
  refine ⟨⟨(i 0).val / 8, by rw [hN]; omega⟩, flush1_8 _, ?_⟩
  rw [mem_blk_q]
  obtain ⟨-, -, -, -, -, -, -, -, -, -, -, -, -, -, e70, e71, e80, e81⟩ := idx_facts ⟨(i 0).val / 8, by rw [hN]; omega⟩
  intro a
  match a with
  | ⟨0, _⟩ =>
    show win1_8.index _ (0 : Fin 2) * 8 ≤ (i 0).val ∧ (i 0).val < win1_8.index _ (0 : Fin 2) * 8 + 8
    rw [e80]; show (i 0).val / 8 * 8 ≤ (i 0).val ∧ (i 0).val < (i 0).val / 8 * 8 + 8; omega
  | ⟨1, _⟩ =>
    show win1_8.index _ (1 : Fin 2) * 1024 ≤ (i 1).val ∧ (i 1).val < win1_8.index _ (1 : Fin 2) * 1024 + 1024
    rw [e81]; omega

/-- THAT ARRAY after the region. -/
theorem final_q (c : Dev nD) :
    (dat1 V c).arrAt 8 cfg1.N = fun i => tileSumSq (V c main_v2_0) (V c main_v14) (V c main_v18) (V c main_v22) (V c main_v23) (V c main_v21) (i 0) (i 1) :=
  (dat1 V c).arrAt_eq_of_cover 8 _ (fun t _ => flushed_q V c t) cover_q

end Cert.KernelIdeal.Reg1

end
-- ==== Proof.Reg2.lean ====
import proofs.«102666_j54082228191696_2_alg».proof.Proof.Pay
import proofs.«102666_j54082228191696_2_alg».proof.Proof.Gen.KernelIdeal.Frame
import proofs.«102666_j54082228191696_2_alg».proof.Proof.Reg0
import Idealize.ShloMosaic.Lib.Pipeline.Value

set_option maxRecDepth 16384

open scoped BigOperators

noncomputable section

namespace Cert.KernelIdeal.Reg2

open Cert.KernelIdeal Cert.KernelIdeal.Gen Cert.KernelIdeal.KOps Cert.KernelIdeal.Pay
open Idealize.ShloMosaic Idealize.ShloMosaic.TcCoe Idealize.ShloMosaic.ValueIdx Idealize.SL.Sem
open Idealize.ShloMosaic.Pipeline (Dat)
open Cert.KernelIdeal.Reg0 (hz tileRow tileOf)

variable (V : (c : Dev nD) → (b : Ref sig .tc) → Buf (Elt Ideal) ((c : Thread nD τ).loc b))

/-! # Region 2: a normalised, binarized layer and its per-tile column sums, as whole arrays

The grid has 16 points; point t takes rows 1024·t … 1024·t + 1023 of z, the four row vectors (mean,
variance, scale, shift) and the transposed binarized weight whole, writes the same rows of the next
pre-activations — the signs of the normalised entries against the weight —, and writes rows
8·t … 8·t + 7 of the two statistics arrays, each of those rows holding the column sums (of the new
pre-activations, of their squares) over the tile's 1024 rows. -/

/-- The next pre-activation at (i, j) as a function of the six input arrays: the sign of
    γ·(z − μ)·rsqrt(var + ε) + β along row i against column j of the weight. -/
def next (Z : S16384x1024.Idx → EReal) (Mu Va Ga Be : S1x1024.Idx → EReal) (Wt : S1024x1024.Idx → EReal)
    (i : Fin 16384) (j : Fin 1024) : EReal :=
  ∑ k : Fin 1024, Ideal.sign (Ga (ix2 (0 : Fin 1) k) * (Z (ix2 i k) - Mu (ix2 (0 : Fin 1) k))
    * Ideal.rsqrt (Va (ix2 (0 : Fin 1) k) + Cert.BnnSpec.eps) + Be (ix2 (0 : Fin 1) k)) * Wt (ix2 k j)

/-- A tile's column sum of the next pre-activations: row a of the statistics array belongs to tile a / 8. -/
def tileSum (Z : S16384x1024.Idx → EReal) (Mu Va Ga Be : S1x1024.Idx → EReal) (Wt : S1024x1024.Idx → EReal)
    (a : Fin 128) (j : Fin 1024) : EReal :=
  ∑ r : Fin 1024, next Z Mu Va Ga Be Wt (tileRow (tileOf a) r) j

/-- A tile's column sum of the squares of the next pre-activations. -/
def tileSumSq (Z : S16384x1024.Idx → EReal) (Mu Va Ga Be : S1x1024.Idx → EReal) (Wt : S1024x1024.Idx → EReal)
    (a : Fin 128) (j : Fin 1024) : EReal :=
  ∑ r : Fin 1024, next Z Mu Va Ga Be Wt (tileRow (tileOf a) r) j * next Z Mu Va Ga Be Wt (tileRow (tileOf a) r) j

/-- The index maps over the grid: the row-blocked windows sit at block t, the whole ones at block 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0 :=
  (by decide +kernel : ∀ t : Fin grid2.N, _)

/-- One entry of a block of the next pre-activations, from blocks that restrict the six arrays. -/
theorem point_z (x0 : FVec Ideal S1024x1024 .f32) (x1 x2 x3 x4 : FVec Ideal S1x1024 .f32) (x5 : FVec Ideal S1024x1024 .bf16)
    (Z : S16384x1024.Idx → EReal) (Mu Va Ga Be : S1x1024.Idx → EReal) (Wt : S1024x1024.Idx → EReal)
    (p q : Fin 1024) (i : Fin 16384) (j : Fin 1024)
    (h0 : ∀ k : Fin 1024, x0 (ix2 p k) = Z (ix2 i k))
    (h1 : ∀ k : Fin 1024, x1 (ix2 (0 : Fin 1) k) = Mu (ix2 (0 : Fin 1) k))
    (h2 : ∀ k : Fin 1024, x2 (ix2 (0 : Fin 1) k) = Va (ix2 (0 : Fin 1) k))
    (h3 : ∀ k : Fin 1024, x3 (ix2 (0 : Fin 1) k) = Ga (ix2 (0 : Fin 1) k))
    (h4 : ∀ k : Fin 1024, x4 (ix2 (0 : Fin 1) k) = Be (ix2 (0 : Fin 1) k))
    (h5 : ∀ k : Fin 1024, x5 (ix2 k q) = Wt (ix2 k j)) :
    k2_pay3 (F := Ideal) x0 x2 x3 x1 x4 x5 (ix2 p q) = next Z Mu Va Ga Be Wt i j := by
  rw [pay2_z]
  unfold next normed
  exact Finset.sum_congr rfl fun k _ => by rw [h0 k, h1 k, h2 k, h3 k, h4 k, h5 k]

/-- One entry of a block of the column sums. -/
theorem point_s (x0 : FVec Ideal S1024x1024 .f32) (x1 x2 x3 x4 : FVec Ideal S1x1024 .f32) (x5 : FVec Ideal S1024x1024 .bf16)
    (Z : S16384x1024.Idx → EReal) (Mu Va Ga Be : S1x1024.Idx → EReal) (Wt : S1024x1024.Idx → EReal)
    (s : Fin 8) (q : Fin 1024) (a : Fin 128) (j : Fin 1024)
    (h0 : ∀ (r k : Fin 1024), x0 (ix2 r k) = Z (ix2 (tileRow (tileOf a) r) k))
    (h1 : ∀ k : Fin 1024, x1 (ix2 (0 : Fin 1) k) = Mu (ix2 (0 : Fin 1) k))
    (h2 : ∀ k : Fin 1024, x2 (ix2 (0 : Fin 1) k) = Va (ix2 (0 : Fin 1) k))
    (h3 : ∀ k : Fin 1024, x3 (ix2 (0 : Fin 1) k) = Ga (ix2 (0 : Fin 1) k))
    (h4 : ∀ k : Fin 1024, x4 (ix2 (0 : Fin 1) k) = Be (ix2 (0 : Fin 1) k))
    (h5 : ∀ k : Fin 1024, x5 (ix2 k q) = Wt (ix2 k j)) :
    k2_pay1 (F := Ideal) (k2_pay4 (F := Ideal) x0 x2 x3 x1 x4 x5) (ix2 s q)
      = tileSum Z Mu Va Ga Be Wt a j := by
  rw [pay2_sum]
  exact Finset.sum_congr rfl fun r _ => point_z x0 x1 x2 x3 x4 x5 Z Mu Va Ga Be Wt r q _ j (h0 r) h1 h2 h3 h4 h5

/-- One entry of a block of the column sums of squares. -/
theorem point_q (x0 : FVec Ideal S1024x1024 .f32) (x1 x2 x3 x4 : FVec Ideal S1x1024 .f32) (x5 : FVec Ideal S1024x1024 .bf16)
    (Z : S16384x1024.Idx → EReal) (Mu Va Ga Be : S1x1024.Idx → EReal) (Wt : S1024x1024.Idx → EReal)
    (s : Fin 8) (q : Fin 1024) (a : Fin 128) (j : Fin 1024)
    (h0 : ∀ (r k : Fin 1024), x0 (ix2 r k) = Z (ix2 (tileRow (tileOf a) r) k))
    (h1 : ∀ k : Fin 1024, x1 (ix2 (0 : Fin 1) k) = Mu (ix2 (0 : Fin 1) k))
    (h2 : ∀ k : Fin 1024, x2 (ix2 (0 : Fin 1) k) = Va (ix2 (0 : Fin 1) k))
    (h3 : ∀ k : Fin 1024, x3 (ix2 (0 : Fin 1) k) = Ga (ix2 (0 : Fin 1) k))
    (h4 : ∀ k : Fin 1024, x4 (ix2 (0 : Fin 1) k) = Be (ix2 (0 : Fin 1) k))
    (h5 : ∀ k : Fin 1024, x5 (ix2 k q) = Wt (ix2 k j)) :
    k2_pay2 (F := Ideal) (k2_pay5 (F := Ideal) x0 x2 x3 x1 x4 x5) (ix2 s q)
      = tileSumSq Z Mu Va Ga Be Wt a j := by
  rw [pay2_sumsq]
  exact Finset.sum_congr rfl fun r _ => by
    rw [point_z x0 x1 x2 x3 x4 x5 Z Mu Va Ga Be Wt r q _ j (h0 r) h1 h2 h3 h4 h5]

/-! ## The next pre-activations' array -/

set_option maxHeartbeats 1000000 in
/-- WHAT POINT t WRITES BACK to the next pre-activations' array is its block of `next`. -/
theorem flushed_z (c : Dev nD) (t : Fin cfg2.N) :
    (dat2 V c).flushed 6 t = ((cfg2.win 6).blk t).view.read (Elt Ideal)
      (fun i => next (V c main_v24_0) (V c main_v36) (V c main_v40) (V c main_v44) (V c main_v45) (V c main_v43) (i 0) (i 1)) := by
  show (cfg2.win 6).cut (grid2.coords t) ((dat2 V c).after 6 t) = _
  rw [after2_6]
  unfold out2_6
  rw [View.canon_unit_zero hz]
  simp only [View.ld_unit_zero (S := S1024x1024) hz, View.ld_unit_zero (S := S1x1024) hz]
  obtain ⟨e00, e01, e10, e11, e20, e21, e30, e31, e40, e41, e50, e51, e60, e61, -⟩ := idx_facts t
  funext y
  have hy : y = ix2 (y 0) (y 1) := eq_ix2 y
  show k2_pay3 (F := Ideal) (iblk2 V c 0 t) (iblk2 V c 2 t) (iblk2 V c 3 t) (iblk2 V c 1 t) (iblk2 V c 4 t) (iblk2 V c 5 t) y
    = next (V c main_v24_0) (V c main_v36) (V c main_v40) (V c main_v44) (V c main_v45) (V c main_v43)
        ((((cfg2.win 6).blk t).view.emb y) 0) ((((cfg2.win 6).blk t).view.emb y) 1)
  refine (congrArg (k2_pay3 (F := Ideal) (iblk2 V c 0 t) (iblk2 V c 2 t) (iblk2 V c 3 t) (iblk2 V c 1 t) (iblk2 V c 4 t) (iblk2 V c 5 t)) hy).trans ?_
  refine point_z _ _ _ _ _ _ _ _ _ _ _ _ (y 0) (y 1) _ _ (fun k => ?_) (fun k => ?_) (fun k => ?_) (fun k => ?_) (fun k => ?_) (fun k => ?_)
  · show V c main_v24_0 (((cfg2.win 0).blk t).view.emb (ix2 (y 0) k)) = V c main_v24_0 (ix2 ((((cfg2.win 6).blk t).view.emb y) 0) k)
    refine congrArg (V c main_v24_0) (funext fun a => Fin.ext ?_)
    match a with
    | ⟨0, _⟩ => show win2_0.index t (0 : Fin 2) * 1024 + 1 * (y 0).val = win2_6.index t (0 : Fin 2) * 1024 + 1 * (y 0).val; omega
    | ⟨1, _⟩ => show win2_0.index t (1 : Fin 2) * 1024 + 1 * k.val = k.val; omega
  · show V c main_v36 (((cfg2.win 1).blk t).view.emb (ix2 (0 : Fin 1) k)) = V c main_v36 (ix2 (0 : Fin 1) k)
    refine congrArg (V c main_v36) (funext fun a => Fin.ext ?_)
    match a with
    | ⟨0, _⟩ => show win2_1.index t (0 : Fin 2) * 1 + 1 * 0 = 0; omega
    | ⟨1, _⟩ => show win2_1.index t (1 : Fin 2) * 1024 + 1 * k.val = k.val; omega
  · show V c main_v40 (((cfg2.win 2).blk t).view.emb (ix2 (0 : Fin 1) k)) = V c main_v40 (ix2 (0 : Fin 1) k)
    refine congrArg (V c main_v40) (funext fun a => Fin.ext ?_)
    match a with
    | ⟨0, _⟩ => show win2_2.index t (0 : Fin 2) * 1 + 1 * 0 = 0; omega
    | ⟨1, _⟩ => show win2_2.index t (1 : Fin 2) * 1024 + 1 * k.val = k.val; omega
  · show V c main_v44 (((cfg2.win 3).blk t).view.emb (ix2 (0 : Fin 1) k)) = V c main_v44 (ix2 (0 : Fin 1) k)
    refine congrArg (V c main_v44) (funext fun a => Fin.ext ?_)
    match a with
    | ⟨0, _⟩ => show win2_3.index t (0 : Fin 2) * 1 + 1 * 0 = 0; omega
    | ⟨1, _⟩ => show win2_3.index t (1 : Fin 2) * 1024 + 1 * k.val = k.val; omega
  · show V c main_v45 (((cfg2.win 4).blk t).view.emb (ix2 (0 : Fin 1) k)) = V c main_v45 (ix2 (0 : Fin 1) k)
    refine congrArg (V c main_v45) (funext fun a => Fin.ext ?_)
    match a with
    | ⟨0, _⟩ => show win2_4.index t (0 : Fin 2) * 1 + 1 * 0 = 0; omega
    | ⟨1, _⟩ => show win2_4.index t (1 : Fin 2) * 1024 + 1 * k.val = k.val; omega
  · show V c main_v43 (((cfg2.win 5).blk t).view.emb (ix2 k (y 1))) = V c main_v43 (ix2 k ((((cfg2.win 6).blk t).view.emb y) 1))
    refine congrArg (V c main_v43) (funext fun a => Fin.ext ?_)
    match a with
    | ⟨0, _⟩ => show win2_5.index t (0 : Fin 2) * 1024 + 1 * k.val = k.val; omega
    | ⟨1, _⟩ => show win2_5.index t (1 : Fin 2) * 1024 + 1 * (y 1).val = win2_6.index t (1 : Fin 2) * 1024 + 1 * (y 1).val; omega

/-- An index of the next pre-activations' array is in point t's block iff each coordinate is in the block's range. -/
theorem mem_blk_z (t : Fin cfg2.N) (i : S16384x1024.Idx) :
    i ∈ ((cfg2.win 6).blk t).view.set ↔ ∀ a : Fin 2, win2_6.index t a * S1024x1024.size a ≤ (i a).val ∧ (i a).val < win2_6.index t a * S1024x1024.size a + S1024x1024.size a := by
  show i ∈ ((View.whole main_v46_0).slice (win2_6.rect t)).set ↔ _
  rw [View.set_slice_whole, Rect.mem_set_unit]
  exact Iff.rfl

/-- Every row of the array is in the block of the point that owns its tile. -/
theorem cover_z (i : S16384x1024.Idx) : ∃ t : Fin cfg2.N, (cfg2.win 6).flush t = true ∧ i ∈ ((cfg2.win 6).blk t).view.set := by
  have hi0 : (i 0).val < 16384 := (i 0).isLt
  have hi1 : (i 1).val < 1024 := (i 1).isLt
  have hN : cfg2.N = 16 := N_2
  refine ⟨⟨(i 0).val / 1024, by rw [hN]; omega⟩, flush2_6 _, ?_⟩
  rw [mem_blk_z]
  obtain ⟨-, -, -, -, -, -, -, -, -, -, -, -, e60, e61, -⟩ := idx_facts ⟨(i 0).val / 1024, by rw [hN]; omega⟩
  intro a
  match a with
  | ⟨0, _⟩ =>
    show win2_6.index _ (0 : Fin 2) * 1024 ≤ (i 0).val ∧ (i 0).val < win2_6.index _ (0 : Fin 2) * 1024 + 1024
    rw [e60]; show (i 0).val / 1024 * 1024 ≤ (i 0).val ∧ (i 0).val < (i 0).val / 1024 * 1024 + 1024; omega
  | ⟨1, _⟩ =>
    show win2_6.index _ (1 : Fin 2) * 1024 ≤ (i 1).val ∧ (i 1).val < win2_6.index _ (1 : Fin 2) * 1024 + 1024
    rw [e61]; omega

/-- THE NEXT PRE-ACTIVATIONS' ARRAY after the region. -/
theorem final_z (c : Dev nD) :
    (dat2 V c).arrAt 6 cfg2.N = fun i => next (V c main_v24_0) (V c main_v36) (V c main_v40) (V c main_v44) (V c main_v45) (V c main_v43) (i 0) (i 1) :=
  (dat2 V c).arrAt_eq_of_cover 6 _ (fun t _ => flushed_z V c t) cover_z

/-! ## The per-tile column sums' array -/

set_option maxHeartbeats 1000000 in
/-- WHAT POINT t WRITES BACK to that array: its eight rows, each the tile's column sums. -/
theorem flushed_s (c : Dev nD) (t : Fin cfg2.N) :
    (dat2 V c).flushed 7 t = ((cfg2.win 7).blk t).view.read (Elt Ideal)
      (fun i => tileSum (V c main_v24_0) (V c main_v36) (V c main_v40) (V c main_v44) (V c main_v45) (V c main_v43) (i 0) (i 1)) := by
  show (cfg2.win 7).cut (grid2.coords t) ((dat2 V c).after 7 t) = _
  rw [after2_7]
  unfold out2_7
  rw [View.canon_unit_zero hz]
  simp only [View.ld_unit_zero (S := S1024x1024) hz, View.ld_unit_zero (S := S1x1024) hz]
  obtain ⟨e00, e01, e10, e11, e20, e21, e30, e31, e40, e41, e50, e51, e60, e61, e70, e71, e80, e81⟩ := idx_facts t
  funext y
  have hy : y = ix2 (y 0) (y 1) := eq_ix2 y
  have hy0 : (y 0).val < 8 := (y 0).isLt
  show k2_pay1 (F := Ideal) (k2_pay4 (F := Ideal) (iblk2 V c 0 t) (iblk2 V c 2 t) (iblk2 V c 3 t) (iblk2 V c 1 t) (iblk2 V c 4 t) (iblk2 V c 5 t)) y
    = tileSum (V c main_v24_0) (V c main_v36) (V c main_v40) (V c main_v44) (V c main_v45) (V c main_v43) ((((cfg2.win 7).blk t).view.emb y) 0) ((((cfg2.win 7).blk t).view.emb y) 1)
  refine (congrArg (k2_pay1 (F := Ideal) (k2_pay4 (F := Ideal) (iblk2 V c 0 t) (iblk2 V c 2 t) (iblk2 V c 3 t) (iblk2 V c 1 t) (iblk2 V c 4 t) (iblk2 V c 5 t))) hy).trans ?_
  refine point_s _ _ _ _ _ _ _ _ _ _ _ _ (y 0) (y 1) _ _ (fun r k => ?_) (fun k => ?_) (fun k => ?_) (fun k => ?_) (fun k => ?_) (fun k => ?_)
  · show V c main_v24_0 (((cfg2.win 0).blk t).view.emb (ix2 r k))
      = V c main_v24_0 (ix2 (tileRow (tileOf ((((cfg2.win 7).blk t).view.emb y) 0)) r) k)
    refine congrArg (V c main_v24_0) (funext fun a => Fin.ext ?_)
    match a with
    | ⟨0, _⟩ =>
      show win2_0.index t (0 : Fin 2) * 1024 + 1 * r.val = (win2_7.index t (0 : Fin 2) * 8 + 1 * (y 0).val) / 8 * 1024 + r.val
      rw [e00, e70]; omega
    | ⟨1, _⟩ => show win2_0.index t (1 : Fin 2) * 1024 + 1 * k.val = k.val; omega
  · show V c main_v36 (((cfg2.win 1).blk t).view.emb (ix2 (0 : Fin 1) k)) = V c main_v36 (ix2 (0 : Fin 1) k)
    refine congrArg (V c main_v36) (funext fun a => Fin.ext ?_)
    match a with
    | ⟨0, _⟩ => show win2_1.index t (0 : Fin 2) * 1 + 1 * 0 = 0; omega
    | ⟨1, _⟩ => show win2_1.index t (1 : Fin 2) * 1024 + 1 * k.val = k.val; omega
  · show V c main_v40 (((cfg2.win 2).blk t).view.emb (ix2 (0 : Fin 1) k)) = V c main_v40 (ix2 (0 : Fin 1) k)
    refine congrArg (V c main_v40) (funext fun a => Fin.ext ?_)
    match a with
    | ⟨0, _⟩ => show win2_2.index t (0 : Fin 2) * 1 + 1 * 0 = 0; omega
    | ⟨1, _⟩ => show win2_2.index t (1 : Fin 2) * 1024 + 1 * k.val = k.val; omega
  · show V c main_v44 (((cfg2.win 3).blk t).view.emb (ix2 (0 : Fin 1) k)) = V c main_v44 (ix2 (0 : Fin 1) k)
    refine congrArg (V c main_v44) (funext fun a => Fin.ext ?_)
    match a with
    | ⟨0, _⟩ => show win2_3.index t (0 : Fin 2) * 1 + 1 * 0 = 0; omega
    | ⟨1, _⟩ => show win2_3.index t (1 : Fin 2) * 1024 + 1 * k.val = k.val; omega
  · show V c main_v45 (((cfg2.win 4).blk t).view.emb (ix2 (0 : Fin 1) k)) = V c main_v45 (ix2 (0 : Fin 1) k)
    refine congrArg (V c main_v45) (funext fun a => Fin.ext ?_)
    match a with
    | ⟨0, _⟩ => show win2_4.index t (0 : Fin 2) * 1 + 1 * 0 = 0; omega
    | ⟨1, _⟩ => show win2_4.index t (1 : Fin 2) * 1024 + 1 * k.val = k.val; omega
  · show V c main_v43 (((cfg2.win 5).blk t).view.emb (ix2 k (y 1))) = V c main_v43 (ix2 k ((((cfg2.win 7).blk t).view.emb y) 1))
    refine congrArg (V c main_v43) (funext fun a => Fin.ext ?_)
    match a with
    | ⟨0, _⟩ => show win2_5.index t (0 : Fin 2) * 1024 + 1 * k.val = k.val; omega
    | ⟨1, _⟩ => show win2_5.index t (1 : Fin 2) * 1024 + 1 * (y 1).val = win2_7.index t (1 : Fin 2) * 1024 + 1 * (y 1).val; omega

/-- An index of that array is in point t's block iff each coordinate is in the block's range. -/
theorem mem_blk_s (t : Fin cfg2.N) (i : S128x1024.Idx) :
    i ∈ ((cfg2.win 7).blk t).view.set ↔ ∀ a : Fin 2, win2_7.index t a * S8x1024.size a ≤ (i a).val ∧ (i a).val < win2_7.index t a * S8x1024.size a + S8x1024.size a := by
  show i ∈ ((View.whole main_v46_1).slice (win2_7.rect t)).set ↔ _
  rw [View.set_slice_whole, Rect.mem_set_unit]
  exact Iff.rfl

/-- Every row of that array is in the block of the point that owns its tile. -/
theorem cover_s (i : S128x1024.Idx) : ∃ t : Fin cfg2.N, (cfg2.win 7).flush t = true ∧ i ∈ ((cfg2.win 7).blk t).view.set := by
  have hi0 : (i 0).val < 128 := (i 0).isLt
  have hi1 : (i 1).val < 1024 := (i 1).isLt
  have hN : cfg2.N = 16 := N_2
  refine ⟨⟨(i 0).val / 8, by rw [hN]; omega⟩, flush2_7 _, ?_⟩
  rw [mem_blk_s]
  obtain ⟨-, -, -, -, -, -, -, -, -, -, -, -, -, -, e70, e71, e80, e81⟩ := idx_facts ⟨(i 0).val / 8, by rw [hN]; omega⟩
  intro a
  match a with
  | ⟨0, _⟩ =>
    show win2_7.index _ (0 : Fin 2) * 8 ≤ (i 0).val ∧ (i 0).val < win2_7.index _ (0 : Fin 2) * 8 + 8
    rw [e70]; show (i 0).val / 8 * 8 ≤ (i 0).val ∧ (i 0).val < (i 0).val / 8 * 8 + 8; omega
  | ⟨1, _⟩ =>
    show win2_7.index _ (1 : Fin 2) * 1024 ≤ (i 1).val ∧ (i 1).val < win2_7.index _ (1 : Fin 2) * 1024 + 1024
    rw [e71]; omega

/-- THAT ARRAY after the region. -/
theorem final_s (c : Dev nD) :
    (dat2 V c).arrAt 7 cfg2.N = fun i => tileSum (V c main_v24_0) (V c main_v36) (V c main_v40) (V c main_v44) (V c main_v45) (V c main_v43) (i 0) (i 1) :=
  (dat2 V c).arrAt_eq_of_cover 7 _ (fun t _ => flushed_s V c t) cover_s

/-! ## The per-tile column sums of squares' array -/

set_option maxHeartbeats 1000000 in
/-- WHAT POINT t WRITES BACK to that array: its eight rows, each the tile's column sums. -/
theorem flushed_q (c : Dev nD) (t : Fin cfg2.N) :
    (dat2 V c).flushed 8 t = ((cfg2.win 8).blk t).view.read (Elt Ideal)
      (fun i => tileSumSq (V c main_v24_0) (V c main_v36) (V c main_v40) (V c main_v44) (V c main_v45) (V c main_v43) (i 0) (i 1)) := by
  show (cfg2.win 8).cut (grid2.coords t) ((dat2 V c).after 8 t) = _
  rw [after2_8]
  unfold out2_8
  rw [View.canon_unit_zero hz]
  simp only [View.ld_unit_zero (S := S1024x1024) hz, View.ld_unit_zero (S := S1x1024) hz]
  obtain ⟨e00, e01, e10, e11, e20, e21, e30, e31, e40, e41, e50, e51, e60, e61, e70, e71, e80, e81⟩ := idx_facts t
  funext y
  have hy : y = ix2 (y 0) (y 1) := eq_ix2 y
  have hy0 : (y 0).val < 8 := (y 0).isLt
  show k2_pay2 (F := Ideal) (k2_pay5 (F := Ideal) (iblk2 V c 0 t) (iblk2 V c 2 t) (iblk2 V c 3 t) (iblk2 V c 1 t) (iblk2 V c 4 t) (iblk2 V c 5 t)) y
    = tileSumSq (V c main_v24_0) (V c main_v36) (V c main_v40) (V c main_v44) (V c main_v45) (V c main_v43) ((((cfg2.win 8).blk t).view.emb y) 0) ((((cfg2.win 8).blk t).view.emb y) 1)
  refine (congrArg (k2_pay2 (F := Ideal) (k2_pay5 (F := Ideal) (iblk2 V c 0 t) (iblk2 V c 2 t) (iblk2 V c 3 t) (iblk2 V c 1 t) (iblk2 V c 4 t) (iblk2 V c 5 t))) hy).trans ?_
  refine point_q _ _ _ _ _ _ _ _ _ _ _ _ (y 0) (y 1) _ _ (fun r k => ?_) (fun k => ?_) (fun k => ?_) (fun k => ?_) (fun k => ?_) (fun k => ?_)
  · show V c main_v24_0 (((cfg2.win 0).blk t).view.emb (ix2 r k))
      = V c main_v24_0 (ix2 (tileRow (tileOf ((((cfg2.win 8).blk t).view.emb y) 0)) r) k)
    refine congrArg (V c main_v24_0) (funext fun a => Fin.ext ?_)
    match a with
    | ⟨0, _⟩ =>
      show win2_0.index t (0 : Fin 2) * 1024 + 1 * r.val = (win2_8.index t (0 : Fin 2) * 8 + 1 * (y 0).val) / 8 * 1024 + r.val
      rw [e00, e80]; omega
    | ⟨1, _⟩ => show win2_0.index t (1 : Fin 2) * 1024 + 1 * k.val = k.val; omega
  · show V c main_v36 (((cfg2.win 1).blk t).view.emb (ix2 (0 : Fin 1) k)) = V c main_v36 (ix2 (0 : Fin 1) k)
    refine congrArg (V c main_v36) (funext fun a => Fin.ext ?_)
    match a with
    | ⟨0, _⟩ => show win2_1.index t (0 : Fin 2) * 1 + 1 * 0 = 0; omega
    | ⟨1, _⟩ => show win2_1.index t (1 : Fin 2) * 1024 + 1 * k.val = k.val; omega
  · show V c main_v40 (((cfg2.win 2).blk t).view.emb (ix2 (0 : Fin 1) k)) = V c main_v40 (ix2 (0 : Fin 1) k)
    refine congrArg (V c main_v40) (funext fun a => Fin.ext ?_)
    match a with
    | ⟨0, _⟩ => show win2_2.index t (0 : Fin 2) * 1 + 1 * 0 = 0; omega
    | ⟨1, _⟩ => show win2_2.index t (1 : Fin 2) * 1024 + 1 * k.val = k.val; omega
  · show V c main_v44 (((cfg2.win 3).blk t).view.emb (ix2 (0 : Fin 1) k)) = V c main_v44 (ix2 (0 : Fin 1) k)
    refine congrArg (V c main_v44) (funext fun a => Fin.ext ?_)
    match a with
    | ⟨0, _⟩ => show win2_3.index t (0 : Fin 2) * 1 + 1 * 0 = 0; omega
    | ⟨1, _⟩ => show win2_3.index t (1 : Fin 2) * 1024 + 1 * k.val = k.val; omega
  · show V c main_v45 (((cfg2.win 4).blk t).view.emb (ix2 (0 : Fin 1) k)) = V c main_v45 (ix2 (0 : Fin 1) k)
    refine congrArg (V c main_v45) (funext fun a => Fin.ext ?_)
    match a with
    | ⟨0, _⟩ => show win2_4.index t (0 : Fin 2) * 1 + 1 * 0 = 0; omega
    | ⟨1, _⟩ => show win2_4.index t (1 : Fin 2) * 1024 + 1 * k.val = k.val; omega
  · show V c main_v43 (((cfg2.win 5).blk t).view.emb (ix2 k (y 1))) = V c main_v43 (ix2 k ((((cfg2.win 8).blk t).view.emb y) 1))
    refine congrArg (V c main_v43) (funext fun a => Fin.ext ?_)
    match a with
    | ⟨0, _⟩ => show win2_5.index t (0 : Fin 2) * 1024 + 1 * k.val = k.val; omega
    | ⟨1, _⟩ => show win2_5.index t (1 : Fin 2) * 1024 + 1 * (y 1).val = win2_8.index t (1 : Fin 2) * 1024 + 1 * (y 1).val; omega

/-- An index of that array is in point t's block iff each coordinate is in the block's range. -/
theorem mem_blk_q (t : Fin cfg2.N) (i : S128x1024.Idx) :
    i ∈ ((cfg2.win 8).blk t).view.set ↔ ∀ a : Fin 2, win2_8.index t a * S8x1024.size a ≤ (i a).val ∧ (i a).val < win2_8.index t a * S8x1024.size a + S8x1024.size a := by
  show i ∈ ((View.whole main_v46_2).slice (win2_8.rect t)).set ↔ _
  rw [View.set_slice_whole, Rect.mem_set_unit]
  exact Iff.rfl

/-- Every row of that array is in the block of the point that owns its tile. -/
theorem cover_q (i : S128x1024.Idx) : ∃ t : Fin cfg2.N, (cfg2.win 8).flush t = true ∧ i ∈ ((cfg2.win 8).blk t).view.set := by
  have hi0 : (i 0).val < 128 := (i 0).isLt
  have hi1 : (i 1).val < 1024 := (i 1).isLt
  have hN : cfg2.N = 16 := N_2
  refine ⟨⟨(i 0).val / 8, by rw [hN]; omega⟩, flush2_8 _, ?_⟩
  rw [mem_blk_q]
  obtain ⟨-, -, -, -, -, -, -, -, -, -, -, -, -, -, e70, e71, e80, e81⟩ := idx_facts ⟨(i 0).val / 8, by rw [hN]; omega⟩
  intro a
  match a with
  | ⟨0, _⟩ =>
    show win2_8.index _ (0 : Fin 2) * 8 ≤ (i 0).val ∧ (i 0).val < win2_8.index _ (0 : Fin 2) * 8 + 8
    rw [e80]; show (i 0).val / 8 * 8 ≤ (i 0).val ∧ (i 0).val < (i 0).val / 8 * 8 + 8; omega
  | ⟨1, _⟩ =>
    show win2_8.index _ (1 : Fin 2) * 1024 ≤ (i 1).val ∧ (i 1).val < win2_8.index _ (1 : Fin 2) * 1024 + 1024
    rw [e81]; omega

/-- THAT ARRAY after the region. -/
theorem final_q (c : Dev nD) :
    (dat2 V c).arrAt 8 cfg2.N = fun i => tileSumSq (V c main_v24_0) (V c main_v36) (V c main_v40) (V c main_v44) (V c main_v45) (V c main_v43) (i 0) (i 1) :=
  (dat2 V c).arrAt_eq_of_cover 8 _ (fun t _ => flushed_q V c t) cover_q

end Cert.KernelIdeal.Reg2

end
-- ==== Proof.Reg3.lean ====
import proofs.«102666_j54082228191696_2_alg».proof.Proof.Pay
import proofs.«102666_j54082228191696_2_alg».proof.Proof.Gen.KernelIdeal.Frame
import proofs.«102666_j54082228191696_2_alg».proof.Proof.Reg0
import Idealize.ShloMosaic.Lib.Pipeline.Value

set_option maxRecDepth 16384

open scoped BigOperators

noncomputable section

namespace Cert.KernelIdeal.Reg3

open Cert.KernelIdeal Cert.KernelIdeal.Gen Cert.KernelIdeal.KOps Cert.KernelIdeal.Pay
open Idealize.ShloMosaic Idealize.ShloMosaic.TcCoe Idealize.ShloMosaic.ValueIdx Idealize.SL.Sem
open Idealize.ShloMosaic.Pipeline (Dat)
open Cert.KernelIdeal.Reg0 (hz)

variable (V : (c : Dev nD) → (b : Ref sig .tc) → Buf (Elt Ideal) ((c : Thread nD τ).loc b))

/-! # Region 3: the output layer, as a whole array

The grid has 16 points; point t takes rows 1024·t … 1024·t + 1023 of z, the four row vectors (mean,
variance, scale, shift) and the transposed binarized output weight (padded to 128 columns) whole, and
writes the same rows of the output: the signs of the normalised entries against the weight. -/

/-- The output at (i, j) as a function of the six input arrays: the sign of
    γ·(z − μ)·rsqrt(var + ε) + β along row i against column j of the weight. -/
def out (Z : S16384x1024.Idx → EReal) (Mu Va Ga Be : S1x1024.Idx → EReal) (Wt : S1024x128.Idx → EReal)
    (i : Fin 16384) (j : Fin 128) : EReal :=
  ∑ k : Fin 1024, Ideal.sign (Ga (ix2 (0 : Fin 1) k) * (Z (ix2 i k) - Mu (ix2 (0 : Fin 1) k))
    * Ideal.rsqrt (Va (ix2 (0 : Fin 1) k) + Cert.BnnSpec.eps) + Be (ix2 (0 : Fin 1) k)) * Wt (ix2 k j)

/-- The index maps over the grid: the row-blocked windows sit at block t, the whole ones at block 0. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- One entry of a block of the output, from blocks that restrict the six arrays. -/
theorem point_z (x0 : FVec Ideal S1024x1024 .f32) (x1 x2 x3 x4 : FVec Ideal S1x1024 .f32) (x5 : FVec Ideal S1024x128 .bf16)
    (Z : S16384x1024.Idx → EReal) (Mu Va Ga Be : S1x1024.Idx → EReal) (Wt : S1024x128.Idx → EReal)
    (p : Fin 1024) (q : Fin 128) (i : Fin 16384) (j : Fin 128)
    (h0 : ∀ k : Fin 1024, x0 (ix2 p k) = Z (ix2 i k))
    (h1 : ∀ k : Fin 1024, x1 (ix2 (0 : Fin 1) k) = Mu (ix2 (0 : Fin 1) k))
    (h2 : ∀ k : Fin 1024, x2 (ix2 (0 : Fin 1) k) = Va (ix2 (0 : Fin 1) k))
    (h3 : ∀ k : Fin 1024, x3 (ix2 (0 : Fin 1) k) = Ga (ix2 (0 : Fin 1) k))
    (h4 : ∀ k : Fin 1024, x4 (ix2 (0 : Fin 1) k) = Be (ix2 (0 : Fin 1) k))
    (h5 : ∀ k : Fin 1024, x5 (ix2 k q) = Wt (ix2 k j)) :
    k3_pay1 (F := Ideal) x0 x2 x3 x1 x4 x5 (ix2 p q) = out Z Mu Va Ga Be Wt i j := by
  rw [pay3_z]
  unfold out normed
  exact Finset.sum_congr rfl fun k _ => by rw [h0 k, h1 k, h2 k, h3 k, h4 k, h5 k]

/-! ## The output's array -/

set_option maxHeartbeats 1000000 in
/-- WHAT POINT t WRITES BACK to the output's array is its block of `out`. -/
theorem flushed_z (c : Dev nD) (t : Fin cfg3.N) :
    (dat3 V c).flushed 6 t = ((cfg3.win 6).blk t).view.read (Elt Ideal)
      (fun i => out (V c main_v46_0) (V c main_v58) (V c main_v62) (V c main_v67) (V c main_v68) (V c main_v66) (i 0) (i 1)) := by
  show (cfg3.win 6).cut (grid3.coords t) ((dat3 V c).after 6 t) = _
  rw [after3_6]
  unfold out3_6
  rw [View.canon_unit_zero hz]
  simp only [View.ld_unit_zero (S := S1024x1024) hz, View.ld_unit_zero (S := S1x1024) hz, View.ld_unit_zero (S := S1024x128) hz]
  obtain ⟨e00, e01, e10, e11, e20, e21, e30, e31, e40, e41, e50, e51, e60, e61⟩ := idx_facts t
  funext y
  have hy : y = ix2 (y 0) (y 1) := eq_ix2 y
  show k3_pay1 (F := Ideal) (iblk3 V c 0 t) (iblk3 V c 2 t) (iblk3 V c 3 t) (iblk3 V c 1 t) (iblk3 V c 4 t) (iblk3 V c 5 t) y
    = out (V c main_v46_0) (V c main_v58) (V c main_v62) (V c main_v67) (V c main_v68) (V c main_v66)
        ((((cfg3.win 6).blk t).view.emb y) 0) ((((cfg3.win 6).blk t).view.emb y) 1)
  refine (congrArg (k3_pay1 (F := Ideal) (iblk3 V c 0 t) (iblk3 V c 2 t) (iblk3 V c 3 t) (iblk3 V c 1 t) (iblk3 V c 4 t) (iblk3 V c 5 t)) hy).trans ?_
  refine point_z _ _ _ _ _ _ _ _ _ _ _ _ (y 0) (y 1) _ _ (fun k => ?_) (fun k => ?_) (fun k => ?_) (fun k => ?_) (fun k => ?_) (fun k => ?_)
  · show V c main_v46_0 (((cfg3.win 0).blk t).view.emb (ix2 (y 0) k)) = V c main_v46_0 (ix2 ((((cfg3.win 6).blk t).view.emb y) 0) k)
    refine congrArg (V c main_v46_0) (funext fun a => Fin.ext ?_)
    match a with
    | ⟨0, _⟩ => show win3_0.index t (0 : Fin 2) * 1024 + 1 * (y 0).val = win3_6.index t (0 : Fin 2) * 1024 + 1 * (y 0).val; omega
    | ⟨1, _⟩ => show win3_0.index t (1 : Fin 2) * 1024 + 1 * k.val = k.val; omega
  · show V c main_v58 (((cfg3.win 1).blk t).view.emb (ix2 (0 : Fin 1) k)) = V c main_v58 (ix2 (0 : Fin 1) k)
    refine congrArg (V c main_v58) (funext fun a => Fin.ext ?_)
    match a with
    | ⟨0, _⟩ => show win3_1.index t (0 : Fin 2) * 1 + 1 * 0 = 0; omega
    | ⟨1, _⟩ => show win3_1.index t (1 : Fin 2) * 1024 + 1 * k.val = k.val; omega
  · show V c main_v62 (((cfg3.win 2).blk t).view.emb (ix2 (0 : Fin 1) k)) = V c main_v62 (ix2 (0 : Fin 1) k)
    refine congrArg (V c main_v62) (funext fun a => Fin.ext ?_)
    match a with
    | ⟨0, _⟩ => show win3_2.index t (0 : Fin 2) * 1 + 1 * 0 = 0; omega
    | ⟨1, _⟩ => show win3_2.index t (1 : Fin 2) * 1024 + 1 * k.val = k.val; omega
  · show V c main_v67 (((cfg3.win 3).blk t).view.emb (ix2 (0 : Fin 1) k)) = V c main_v67 (ix2 (0 : Fin 1) k)
    refine congrArg (V c main_v67) (funext fun a => Fin.ext ?_)
    match a with
    | ⟨0, _⟩ => show win3_3.index t (0 : Fin 2) * 1 + 1 * 0 = 0; omega
    | ⟨1, _⟩ => show win3_3.index t (1 : Fin 2) * 1024 + 1 * k.val = k.val; omega
  · show V c main_v68 (((cfg3.win 4).blk t).view.emb (ix2 (0 : Fin 1) k)) = V c main_v68 (ix2 (0 : Fin 1) k)
    refine congrArg (V c main_v68) (funext fun a => Fin.ext ?_)
    match a with
    | ⟨0, _⟩ => show win3_4.index t (0 : Fin 2) * 1 + 1 * 0 = 0; omega
    | ⟨1, _⟩ => show win3_4.index t (1 : Fin 2) * 1024 + 1 * k.val = k.val; omega
  · show V c main_v66 (((cfg3.win 5).blk t).view.emb (ix2 k (y 1))) = V c main_v66 (ix2 k ((((cfg3.win 6).blk t).view.emb y) 1))
    refine congrArg (V c main_v66) (funext fun a => Fin.ext ?_)
    match a with
    | ⟨0, _⟩ => show win3_5.index t (0 : Fin 2) * 1024 + 1 * k.val = k.val; omega
    | ⟨1, _⟩ => show win3_5.index t (1 : Fin 2) * 128 + 1 * (y 1).val = win3_6.index t (1 : Fin 2) * 128 + 1 * (y 1).val; omega

/-- An index of the output's array is in point t's block iff each coordinate is in the block's range. -/
theorem mem_blk_z (t : Fin cfg3.N) (i : S16384x128.Idx) :
    i ∈ ((cfg3.win 6).blk t).view.set ↔ ∀ a : Fin 2, win3_6.index t a * S1024x128.size a ≤ (i a).val ∧ (i a).val < win3_6.index t a * S1024x128.size a + S1024x128.size a := by
  show i ∈ ((View.whole main_v69).slice (win3_6.rect t)).set ↔ _
  rw [View.set_slice_whole, Rect.mem_set_unit]
  exact Iff.rfl

/-- Every row of the array is in the block of the point that owns its tile. -/
theorem cover_z (i : S16384x128.Idx) : ∃ t : Fin cfg3.N, (cfg3.win 6).flush t = true ∧ i ∈ ((cfg3.win 6).blk t).view.set := by
  have hi0 : (i 0).val < 16384 := (i 0).isLt
  have hi1 : (i 1).val < 128 := (i 1).isLt
  have hN : cfg3.N = 16 := N_3
  refine ⟨⟨(i 0).val / 1024, by rw [hN]; omega⟩, flush3_6 _, ?_⟩
  rw [mem_blk_z]
  obtain ⟨-, -, -, -, -, -, -, -, -, -, -, -, e60, e61⟩ := idx_facts ⟨(i 0).val / 1024, by rw [hN]; omega⟩
  intro a
  match a with
  | ⟨0, _⟩ =>
    show win3_6.index _ (0 : Fin 2) * 1024 ≤ (i 0).val ∧ (i 0).val < win3_6.index _ (0 : Fin 2) * 1024 + 1024
    rw [e60]; show (i 0).val / 1024 * 1024 ≤ (i 0).val ∧ (i 0).val < (i 0).val / 1024 * 1024 + 1024; omega
  | ⟨1, _⟩ =>
    show win3_6.index _ (1 : Fin 2) * 128 ≤ (i 1).val ∧ (i 1).val < win3_6.index _ (1 : Fin 2) * 128 + 128
    rw [e61]; omega

/-- THE OUTPUT'S ARRAY after the region. -/
theorem final_z (c : Dev nD) :
    (dat3 V c).arrAt 6 cfg3.N = fun i => out (V c main_v46_0) (V c main_v58) (V c main_v62) (V c main_v67) (V c main_v68) (V c main_v66) (i 0) (i 1) :=
  (dat3 V c).arrAt_eq_of_cover 6 _ (fun t _ => flushed_z V c t) cover_z

end Cert.KernelIdeal.Reg3

end
-- ==== Proof.HostStats.lean ====
import proofs.«102666_j54082228191696_2_alg».proof.Proof.Gen.KernelIdeal.Launch
import proofs.«102666_j54082228191696_2_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

/-! # The column statistics the host computes between two regions

A region leaves, for each of its 16 row tiles, the column sums of the tile (and the column sums of
squares) in an array of 128 rows: tile `t`'s value is repeated on rows `8 t … 8 t + 7`. The host
reads row `8 t` of every tile (a cast to 16 × 8 rows, the first of each 8, a cast to 16 rows), adds
the 16 rows from the zero word, and divides by the batch count word: the column mean
(`statMean`). The same on the squares, minus the square of the mean, is the one-pass variance
(`statVar`). Both are read here at a column. -/

noncomputable section

open scoped BigOperators

namespace Cert.KernelIdeal.HostGlue

open Cert.KernelIdeal Cert.KernelIdeal.Gen Idealize.ShloMosaic Idealize.ShloMosaic.ValueIdx

/-- Row `8 t` of each of the 16 tiles: the cast to `[16, 8, 1024]`, the slice `[:, 0:1, :]`, the cast to `[16, 1024]`. -/
def tileRows (S : FVec Ideal S128x1024 .f32) : FVec Ideal S16x1024 .f32 :=
  shapeCast S16x1024
    (extractStridedSlice S16x1x1024 ![0, 0, 0]
      (shapeCast S16x8x1024 S shapeCasts_S128x1024_S16x8x1024) slices_S16x8x1024_S16x1x1024_0_0_0)
    shapeCasts_S16x1x1024_S16x1024

/-- The tiles' rows added up from the zero word, as one row, divided by the batch count word. -/
def statMean (S : FVec Ideal S128x1024 .f32) : FVec Ideal S1x1024 .f32 :=
  Host.divf
    (broadcastInDim S1x1024 ![1] bcast_S1024_S1x1024_1
      (Host.reduceAdd (tileRows S) (constant (F := Ideal) S_ .f32 0x00000000#32) reducesTo_S16x1024_S1024_d0 h_S_))
    (broadcastInDim S1x1024 ![] bcast_S_S1x1024 (constant (F := Ideal) S_ .f32 0x46800000#32))

/-- The mean of the squares minus the square of the mean. -/
def statVar (S Q : FVec Ideal S128x1024 .f32) : FVec Ideal S1x1024 .f32 :=
  subf (statMean Q) (mulf (statMean S) (statMean S))

/-- Row `t` of the tiles' rows is row `8 t` of the array. -/
theorem tileRows_apply (S : FVec Ideal S128x1024 .f32) (t : Fin 16) (j : Fin 1024) :
    tileRows S (ix2 t j) = S (ix2 ⟨8 * t.val, by omega⟩ j) := by
  unfold tileRows
  refine (shapeCast_apply _ _ (ix2 t j) (ix3 t (0 : Fin 1) j) ?_).trans ?_
  · rw [Shape.rowMajor_val_three, Shape.rowMajor_val_two]
    show (t.val * 1 + 0) * 1024 + j.val = t.val * 1024 + j.val
    omega
  refine (extractStridedSlice_apply _ _ _ (ix3 t (0 : Fin 1) j) (ix3 t (0 : Fin 8) j) (fun a => ?_)).trans ?_
  · match a with
    | ⟨0, _⟩ => exact (Nat.zero_add _).symm
    | ⟨1, _⟩ => exact (Nat.zero_add _).symm
    | ⟨2, _⟩ => exact (Nat.zero_add _).symm
  refine shapeCast_apply _ _ (ix3 t (0 : Fin 8) j) (ix2 ⟨8 * t.val, by omega⟩ j) ?_
  rw [Shape.rowMajor_val_three, Shape.rowMajor_val_two]
  show 8 * t.val * 1024 + j.val = (t.val * 8 + 0) * 1024 + j.val
  omega

/-- The sum over axis 0 of a `[16, 1024]` array from the zero word, at column `j`, is the sum of the 16 rows there. -/
theorem reduceRows_apply (X : FVec Ideal S16x1024 .f32) (j : Fin 1024) :
    Host.reduceAdd X (constant (F := Ideal) S_ .f32 0x00000000#32) reducesTo_S16x1024_S1024_d0 h_S_ (ix1 j)
      = ∑ t : Fin 16, X (ix2 t j) := by
  have hr : S16x1024.Reduces [0] S1024 := by decide
  rw [hostReduceAdd_apply, Ideal.hostReduceAdd_single reducesTo_S16x1024_S1024_d0 hr, constant_apply, Ideal.ofBits_zero_f32,
    zero_add]
  refine Finset.sum_congr rfl (fun t _ => congrArg X ?_)
  funext a
  match a with
  | ⟨0, _⟩ => rfl
  | ⟨1, _⟩ => rfl

/-- The column mean the host computes, at column `j`: the 16 tiles' sums added, divided by the batch count word. -/
theorem statMean_apply (S : FVec Ideal S128x1024 .f32) (j : Fin 1024) :
    statMean S (ix2 0 j) = Ideal.div (∑ t : Fin 16, S (ix2 ⟨8 * t.val, by omega⟩ j)) Cert.BnnSpec.nB := by
  unfold statMean
  rw [hostDivf_apply, broadcastInDim_scalar_apply, constant_apply,
    broadcastInDim_apply _ _ _ (ix2 (0 : Fin 1) j) (ix1 j) (fun a => by
      match a with
      | ⟨0, _⟩ => rfl),
    reduceRows_apply]
  simp only [tileRows_apply]

/-- The one-pass variance the host computes, at column `j`. -/
theorem statVar_apply (S Q : FVec Ideal S128x1024 .f32) (j : Fin 1024) :
    statVar S Q (ix2 0 j)
      = Ideal.div (∑ t : Fin 16, Q (ix2 ⟨8 * t.val, by omega⟩ j)) Cert.BnnSpec.nB
        - Ideal.div (∑ t : Fin 16, S (ix2 ⟨8 * t.val, by omega⟩ j)) Cert.BnnSpec.nB
          * Ideal.div (∑ t : Fin 16, S (ix2 ⟨8 * t.val, by omega⟩ j)) Cert.BnnSpec.nB := by
  unfold statVar
  rw [subf_apply, mulf_apply, statMean_apply, statMean_apply]

end Cert.KernelIdeal.HostGlue
-- ==== Proof.HostGlue.lean ====
import proofs.«102666_j54082228191696_2_alg».proof.Proof.HostStats
import Idealize.ShloMosaic.Lib.KernelVsHost

/-! # The host operations between the regions, read at an index

Between two regions the host turns the per-tile column sums a region left into the column mean and
the one-pass variance (HostStats), replaces the next weight matrix by the transpose of its signs
(the narrowing to the shorter format is the identity on extended reals), and views the scale and the
shift as one-row arrays. Before the last region it pads the transposed signs of the output weights
with zero columns up to 128, and after it cuts the first 10 columns out of the 128. Each stretch is
read here from an arbitrary state of the buffers: what it writes, as a function of what it found,
and that it writes nothing else. -/

noncomputable section

open scoped BigOperators

namespace Cert.KernelIdeal.HostGlue

open Cert.KernelIdeal Cert.KernelIdeal.Gen Idealize.ShloMosaic Idealize.ShloMosaic.ValueIdx

variable (W : Valuation τ sig (Elt Ideal))

/-! ## The stretch before region 0 -/

/-- The buffers the stretch before region 0 writes. -/
abbrev writes0 : List (Ref sig .tc) := [main_v0, main_v1]

/-- It writes nothing else. -/
theorem keep0 {r : Ref sig .tc} (hr : r ∉ writes0) :
    StableHlo.after hostOps0 W (Proc.devRef .tc r) = W (Proc.devRef .tc r) :=
  StableHlo.after_of_writes_sub hostOps0 W (by
    simp only [hostOps0, writes0, List.Forall, StableHlo.TRef.unary, StableHlo.TRef.binary, StableHlo.nullary_writes, StableHlo.unary_writes,
      StableHlo.binary_writes, StableHlo.reshape_writes, Finset.singleton_subset_iff, List.mem_toFinset, List.map_cons, List.map_nil,
      List.mem_cons, true_or, or_true, and_self]) hr

/-- The first weight matrix, binarized and transposed. -/
theorem ops0_w : (StableHlo.after hostOps0 W (Proc.devRef .tc main_v1) : FVec Ideal S784x1024 .f32)
    = (transpose S784x1024 [1, 0] (Host.sign (F := Ideal) (W (Proc.devRef .tc main_arg1) : FVec Ideal S1024x784 .f32))
        transposes_S1024x784_S784x1024_1_0 : FVec Ideal S784x1024 .f32) := by
  after_results

/-- At `(k, j)` it is the sign of the weight at `(j, k)`. -/
theorem ops0_w_apply (k : Fin 784) (j : Fin 1024) :
    (StableHlo.after hostOps0 W (Proc.devRef .tc main_v1) : FVec Ideal S784x1024 .f32) (ix2 k j)
      = Ideal.sign ((W (Proc.devRef .tc main_arg1) : FVec Ideal S1024x784 .f32) (ix2 j k)) := by
  rw [ops0_w]
  exact transpose_ix2_apply _ _ k j

/-! ## The stretch before region 1 -/

/-- The buffers the stretch before region 1 writes. -/
abbrev writes1 : List (Ref sig .tc) :=
  [main_v3, main_v4, main_v5, main_v6, main_v7, main_v8, main_cst, main_v9, main_v10, main_cst_0, main_v11, main_v12, main_cst_1, main_v13, main_v14, main_cst_2, main_v15, main_v16, main_v17, main_v18, main_v19, main_v20, main_v21, main_v22, main_v23]

/-- It writes nothing else. -/
theorem keep1 {r : Ref sig .tc} (hr : r ∉ writes1) :
    StableHlo.after hostOps1 W (Proc.devRef .tc r) = W (Proc.devRef .tc r) :=
  StableHlo.after_of_writes_sub hostOps1 W (by
    simp only [hostOps1, writes1, List.Forall, StableHlo.nullary_writes, StableHlo.unary_writes, StableHlo.binary_writes,
      StableHlo.reshape_writes, Finset.singleton_subset_iff, List.mem_toFinset, List.map_cons, List.map_nil,
      List.mem_cons, true_or, or_true, and_self]) hr

/-- The column mean of the first layer. -/
theorem ops1_mean : (StableHlo.after hostOps1 W (Proc.devRef .tc main_v14) : FVec Ideal S1x1024 .f32)
    = statMean (W (Proc.devRef .tc main_v2_1)) := by
  after_results; rfl

/-- The one-pass variance of the first layer. -/
theorem ops1_var : (StableHlo.after hostOps1 W (Proc.devRef .tc main_v18) : FVec Ideal S1x1024 .f32)
    = statVar (W (Proc.devRef .tc main_v2_1)) (W (Proc.devRef .tc main_v2_2)) := by
  after_results_simp; rfl

/-- The next weight matrix, binarized, narrowed and transposed. -/
theorem ops1_w : (StableHlo.after hostOps1 W (Proc.devRef .tc main_v21) : FVec Ideal S1024x1024 .bf16)
    = (transpose S1024x1024 [1, 0] (truncf (F := Ideal) .bf16 (Host.sign (F := Ideal) (W (Proc.devRef .tc main_arg4) : FVec Ideal S1024x1024 .f32))
        bitsLt_bf16_f32) transposes_S1024x1024_S1024x1024_1_0 : FVec Ideal S1024x1024 .bf16) := by
  after_results

/-- At `(k, j)` it is the sign of the weight at `(j, k)`. -/
theorem ops1_w_apply (k : Fin 1024) (j : Fin 1024) :
    (StableHlo.after hostOps1 W (Proc.devRef .tc main_v21) : FVec Ideal S1024x1024 .bf16) (ix2 k j)
      = Ideal.sign ((W (Proc.devRef .tc main_arg4) : FVec Ideal S1024x1024 .f32) (ix2 j k)) := by
  rw [ops1_w]
  exact transpose_ix2_apply _ _ k j

/-- The scale of the first normalisation as a one-row array. -/
theorem ops1_g_apply (j : Fin 1024) :
    (StableHlo.after hostOps1 W (Proc.devRef .tc main_v22) : FVec Ideal S1x1024 .f32) (ix2 0 j)
      = (W (Proc.devRef .tc main_arg2) : FVec Ideal S1024 .f32) (ix1 j) := by
  have e : (StableHlo.after hostOps1 W (Proc.devRef .tc main_v22) : FVec Ideal S1x1024 .f32)
      = shapeCast S1x1024 (W (Proc.devRef .tc main_arg2) : FVec Ideal S1024 .f32) shapeCasts_S1024_S1x1024 := by
    after_results; rfl
  rw [e]
  exact shapeCast_a_1a_apply _ _ 0 j

/-- The shift of the first normalisation as a one-row array. -/
theorem ops1_b_apply (j : Fin 1024) :
    (StableHlo.after hostOps1 W (Proc.devRef .tc main_v23) : FVec Ideal S1x1024 .f32) (ix2 0 j)
      = (W (Proc.devRef .tc main_arg3) : FVec Ideal S1024 .f32) (ix1 j) := by
  have e : (StableHlo.after hostOps1 W (Proc.devRef .tc main_v23) : FVec Ideal S1x1024 .f32)
      = shapeCast S1x1024 (W (Proc.devRef .tc main_arg3) : FVec Ideal S1024 .f32) shapeCasts_S1024_S1x1024 := by
    after_results; rfl
  rw [e]
  exact shapeCast_a_1a_apply _ _ 0 j

/-- The pre-activations of the first layer are kept. -/
theorem ops1_keep_z : StableHlo.after hostOps1 W (Proc.devRef .tc main_v2_0) = W (Proc.devRef .tc main_v2_0) :=
  keep1 W (by decide)

/-! ## The stretch before region 2 -/

/-- The buffers the stretch before region 2 writes. -/
abbrev writes2 : List (Ref sig .tc) :=
  [main_v25, main_v26, main_v27, main_v28, main_v29, main_v30, main_cst_3, main_v31, main_v32, main_cst_4, main_v33, main_v34, main_cst_5, main_v35, main_v36, main_cst_6, main_v37, main_v38, main_v39, main_v40, main_v41, main_v42, main_v43, main_v44, main_v45]

/-- It writes nothing else. -/
theorem keep2 {r : Ref sig .tc} (hr : r ∉ writes2) :
    StableHlo.after hostOps2 W (Proc.devRef .tc r) = W (Proc.devRef .tc r) :=
  StableHlo.after_of_writes_sub hostOps2 W (by
    simp only [hostOps2, writes2, List.Forall, StableHlo.nullary_writes, StableHlo.unary_writes, StableHlo.binary_writes,
      StableHlo.reshape_writes, Finset.singleton_subset_iff, List.mem_toFinset, List.map_cons, List.map_nil,
      List.mem_cons, true_or, or_true, and_self]) hr

/-- The column mean of the second layer. -/
theorem ops2_mean : (StableHlo.after hostOps2 W (Proc.devRef .tc main_v36) : FVec Ideal S1x1024 .f32)
    = statMean (W (Proc.devRef .tc main_v24_1)) := by
  after_results; rfl

/-- The one-pass variance of the second layer. -/
theorem ops2_var : (StableHlo.after hostOps2 W (Proc.devRef .tc main_v40) : FVec Ideal S1x1024 .f32)
    = statVar (W (Proc.devRef .tc main_v24_1)) (W (Proc.devRef .tc main_v24_2)) := by
  after_results_simp; rfl

/-- The next weight matrix, binarized, narrowed and transposed. -/
theorem ops2_w : (StableHlo.after hostOps2 W (Proc.devRef .tc main_v43) : FVec Ideal S1024x1024 .bf16)
    = (transpose S1024x1024 [1, 0] (truncf (F := Ideal) .bf16 (Host.sign (F := Ideal) (W (Proc.devRef .tc main_arg7) : FVec Ideal S1024x1024 .f32))
        bitsLt_bf16_f32) transposes_S1024x1024_S1024x1024_1_0 : FVec Ideal S1024x1024 .bf16) := by
  after_results

/-- At `(k, j)` it is the sign of the weight at `(j, k)`. -/
theorem ops2_w_apply (k : Fin 1024) (j : Fin 1024) :
    (StableHlo.after hostOps2 W (Proc.devRef .tc main_v43) : FVec Ideal S1024x1024 .bf16) (ix2 k j)
      = Ideal.sign ((W (Proc.devRef .tc main_arg7) : FVec Ideal S1024x1024 .f32) (ix2 j k)) := by
  rw [ops2_w]
  exact transpose_ix2_apply _ _ k j

/-- The scale of the second normalisation as a one-row array. -/
theorem ops2_g_apply (j : Fin 1024) :
    (StableHlo.after hostOps2 W (Proc.devRef .tc main_v44) : FVec Ideal S1x1024 .f32) (ix2 0 j)
      = (W (Proc.devRef .tc main_arg5) : FVec Ideal S1024 .f32) (ix1 j) := by
  have e : (StableHlo.after hostOps2 W (Proc.devRef .tc main_v44) : FVec Ideal S1x1024 .f32)
      = shapeCast S1x1024 (W (Proc.devRef .tc main_arg5) : FVec Ideal S1024 .f32) shapeCasts_S1024_S1x1024 := by
    after_results; rfl
  rw [e]
  exact shapeCast_a_1a_apply _ _ 0 j

/-- The shift of the second normalisation as a one-row array. -/
theorem ops2_b_apply (j : Fin 1024) :
    (StableHlo.after hostOps2 W (Proc.devRef .tc main_v45) : FVec Ideal S1x1024 .f32) (ix2 0 j)
      = (W (Proc.devRef .tc main_arg6) : FVec Ideal S1024 .f32) (ix1 j) := by
  have e : (StableHlo.after hostOps2 W (Proc.devRef .tc main_v45) : FVec Ideal S1x1024 .f32)
      = shapeCast S1x1024 (W (Proc.devRef .tc main_arg6) : FVec Ideal S1024 .f32) shapeCasts_S1024_S1x1024 := by
    after_results; rfl
  rw [e]
  exact shapeCast_a_1a_apply _ _ 0 j

/-- The pre-activations of the second layer are kept. -/
theorem ops2_keep_z : StableHlo.after hostOps2 W (Proc.devRef .tc main_v24_0) = W (Proc.devRef .tc main_v24_0) :=
  keep2 W (by decide)

/-! ## The stretch before region 3 -/

/-- The buffers the stretch before region 3 writes. -/
abbrev writes3 : List (Ref sig .tc) :=
  [main_v47, main_v48, main_v49, main_v50, main_v51, main_v52, main_cst_7, main_v53, main_v54, main_cst_8, main_v55, main_v56, main_cst_9, main_v57, main_v58, main_cst_10, main_v59, main_v60, main_v61, main_v62, main_v63, main_v64, main_v65, main_c]

/-- It writes nothing else. -/
theorem keep3 {r : Ref sig .tc} (hr : r ∉ writes3) :
    StableHlo.after hostOps3 W (Proc.devRef .tc r) = W (Proc.devRef .tc r) :=
  StableHlo.after_of_writes_sub hostOps3 W (by
    simp only [hostOps3, writes3, List.Forall, StableHlo.nullary_writes, StableHlo.unary_writes, StableHlo.binary_writes,
      StableHlo.reshape_writes, Finset.singleton_subset_iff, List.mem_toFinset, List.map_cons, List.map_nil,
      List.mem_cons, true_or, or_true, and_self]) hr

/-- The column mean of the third layer. -/
theorem ops3_mean : (StableHlo.after hostOps3 W (Proc.devRef .tc main_v58) : FVec Ideal S1x1024 .f32)
    = statMean (W (Proc.devRef .tc main_v46_1)) := by
  after_results; rfl

/-- The one-pass variance of the third layer. -/
theorem ops3_var : (StableHlo.after hostOps3 W (Proc.devRef .tc main_v62) : FVec Ideal S1x1024 .f32)
    = statVar (W (Proc.devRef .tc main_v46_1)) (W (Proc.devRef .tc main_v46_2)) := by
  after_results_simp; rfl

/-- The next weight matrix, binarized, narrowed and transposed. -/
theorem ops3_w : (StableHlo.after hostOps3 W (Proc.devRef .tc main_v65) : FVec Ideal S1024x10 .bf16)
    = (transpose S1024x10 [1, 0] (truncf (F := Ideal) .bf16 (Host.sign (F := Ideal) (W (Proc.devRef .tc main_arg10) : FVec Ideal S10x1024 .f32))
        bitsLt_bf16_f32) transposes_S10x1024_S1024x10_1_0 : FVec Ideal S1024x10 .bf16) := by
  after_results

/-- At `(k, j)` it is the sign of the weight at `(j, k)`. -/
theorem ops3_w_apply (k : Fin 1024) (j : Fin 10) :
    (StableHlo.after hostOps3 W (Proc.devRef .tc main_v65) : FVec Ideal S1024x10 .bf16) (ix2 k j)
      = Ideal.sign ((W (Proc.devRef .tc main_arg10) : FVec Ideal S10x1024 .f32) (ix2 j k)) := by
  rw [ops3_w]
  exact transpose_ix2_apply _ _ k j

/-- The pre-activations of the third layer are kept. -/
theorem ops3_keep_z : StableHlo.after hostOps3 W (Proc.devRef .tc main_v46_0) = W (Proc.devRef .tc main_v46_0) :=
  keep3 W (by decide)

/-- The integer zero the padding is made of. -/
theorem ops3_c : (StableHlo.after hostOps3 W (Proc.devRef .tc main_c) : IVec S_ 32) = constantI S_ 32 0#32 := by
  after_results

/-! ## The padding of the output weights -/

/-- The buffers the padding writes. -/
abbrev writes3_1 : List (Ref sig .tc) := [main_call0_v0, main_v66]

/-- It writes nothing else. -/
theorem keep3_1 {r : Ref sig .tc} (hr : r ∉ writes3_1) :
    StableHlo.after hostOps3_1 W (Proc.devRef .tc r) = W (Proc.devRef .tc r) :=
  StableHlo.after_of_writes_sub hostOps3_1 W (by
    simp only [hostOps3_1, writes3_1, List.Forall, StableHlo.TRef.unary, StableHlo.TRef.binary, StableHlo.nullary_writes, StableHlo.unary_writes,
      StableHlo.binary_writes, StableHlo.reshape_writes, Finset.singleton_subset_iff, List.mem_toFinset, List.map_cons, List.map_nil,
      List.mem_cons, true_or, or_true, and_self]) hr

/-- The transposed signs padded to 128 columns with the integer word converted. -/
theorem ops3_1_pad : (StableHlo.after hostOps3_1 W (Proc.devRef .tc main_v66) : FVec Ideal S1024x128 .bf16)
    = (pad S1024x128 ![0, 0] ![0, 118] ![0, 0] (W (Proc.devRef .tc main_v65) : FVec Ideal S1024x10 .bf16)
        (sitofp (F := Ideal) .bf16 (W (Proc.devRef .tc main_c) : IVec S_ 32)) pads_S1024x10_S1024x128_000_01180 h_S_
        : FVec Ideal S1024x128 .bf16) := by
  after_results; rfl

/-- With the integer word zero: at `(k, j)` the array's entry on the first 10 columns, zero on the other 118. -/
theorem ops3_1_pad_apply (hc : (W (Proc.devRef .tc main_c) : IVec S_ 32) = constantI S_ 32 0#32) (k : Fin 1024) (j : Fin 128) :
    (StableHlo.after hostOps3_1 W (Proc.devRef .tc main_v66) : FVec Ideal S1024x128 .bf16) (ix2 k j)
      = (if h : j.val < 10 then (W (Proc.devRef .tc main_v65) : FVec Ideal S1024x10 .bf16) (ix2 k ⟨j.val, h⟩) else 0 : EReal) := by
  rw [ops3_1_pad, hc]
  by_cases h : j.val < 10
  · rw [dif_pos h]
    refine pad_apply_of_inside _ _ _ _ _ _ _ (ix2 k j) (ix2 k ⟨j.val, h⟩) (fun a => ?_)
    match a with
    | ⟨0, _⟩ => show k.val = 0 + k.val * (0 + 1); omega
    | ⟨1, _⟩ => show j.val = 0 + j.val * (0 + 1); omega
  · rw [dif_neg h]
    refine (pad_apply_of_not_inside _ _ _ _ _ _ _ (ix2 k j) (1 : Fin 2) (fun hin => h ?_)).trans ?_
    · have h3 : (j.val - 0) / (0 + 1) < 10 := hin.2.2
      omega
    · exact sitofp_zero (φ := .bf16)

/-! ## The scale and the shift of the third normalisation -/

/-- The buffers this stretch writes. -/
abbrev writes3_2 : List (Ref sig .tc) := [main_v67, main_v68]

/-- It writes nothing else. -/
theorem keep3_2 {r : Ref sig .tc} (hr : r ∉ writes3_2) :
    StableHlo.after hostOps3_2 W (Proc.devRef .tc r) = W (Proc.devRef .tc r) :=
  StableHlo.after_of_writes_sub hostOps3_2 W (by
    simp only [hostOps3_2, writes3_2, List.Forall, StableHlo.TRef.unary, StableHlo.TRef.binary, StableHlo.nullary_writes, StableHlo.unary_writes,
      StableHlo.binary_writes, StableHlo.reshape_writes, Finset.singleton_subset_iff, List.mem_toFinset, List.map_cons, List.map_nil,
      List.mem_cons, true_or, or_true, and_self]) hr

/-- The scale of the third normalisation as a one-row array. -/
theorem ops3_2_g_apply (j : Fin 1024) :
    (StableHlo.after hostOps3_2 W (Proc.devRef .tc main_v67) : FVec Ideal S1x1024 .f32) (ix2 0 j)
      = (W (Proc.devRef .tc main_arg8) : FVec Ideal S1024 .f32) (ix1 j) := by
  have e : (StableHlo.after hostOps3_2 W (Proc.devRef .tc main_v67) : FVec Ideal S1x1024 .f32)
      = shapeCast S1x1024 (W (Proc.devRef .tc main_arg8) : FVec Ideal S1024 .f32) shapeCasts_S1024_S1x1024 := by
    after_results; rfl
  rw [e]
  exact shapeCast_a_1a_apply _ _ 0 j

/-- The shift of the third normalisation as a one-row array. -/
theorem ops3_2_b_apply (j : Fin 1024) :
    (StableHlo.after hostOps3_2 W (Proc.devRef .tc main_v68) : FVec Ideal S1x1024 .f32) (ix2 0 j)
      = (W (Proc.devRef .tc main_arg9) : FVec Ideal S1024 .f32) (ix1 j) := by
  have e : (StableHlo.after hostOps3_2 W (Proc.devRef .tc main_v68) : FVec Ideal S1x1024 .f32)
      = shapeCast S1x1024 (W (Proc.devRef .tc main_arg9) : FVec Ideal S1024 .f32) shapeCasts_S1024_S1x1024 := by
    after_results; rfl
  rw [e]
  exact shapeCast_a_1a_apply _ _ 0 j

/-! ## The cut after the last region -/

/-- The buffer the cut writes. -/
abbrev writes4 : List (Ref sig .tc) := [main_v70]

/-- It writes nothing else. -/
theorem keep4 {r : Ref sig .tc} (hr : r ∉ writes4) :
    StableHlo.after hostOps4 W (Proc.devRef .tc r) = W (Proc.devRef .tc r) :=
  StableHlo.after_of_writes_sub hostOps4 W (by
    simp only [hostOps4, writes4, List.Forall, StableHlo.TRef.unary, StableHlo.TRef.binary, StableHlo.nullary_writes, StableHlo.unary_writes,
      StableHlo.binary_writes, StableHlo.reshape_writes, Finset.singleton_subset_iff, List.mem_toFinset, List.map_cons, List.map_nil,
      List.mem_cons, true_or, or_true, and_self]) hr

/-- The result is the first 10 columns of the last region's 128. -/
theorem ops4_out_apply (i : Fin 16384) (j : Fin 10) :
    (StableHlo.after hostOps4 W (Proc.devRef .tc main_v70) : FVec Ideal S16384x10 .f32) (ix2 i j)
      = (W (Proc.devRef .tc main_v69) : FVec Ideal S16384x128 .f32) (ix2 i ⟨j.val, by omega⟩) := by
  have e : (StableHlo.after hostOps4 W (Proc.devRef .tc main_v70) : FVec Ideal S16384x10 .f32)
      = (extractStridedSlice S16384x10 ![0, 0] (W (Proc.devRef .tc main_v69) : FVec Ideal S16384x128 .f32)
          slices_S16384x128_S16384x10_0_0 : FVec Ideal S16384x10 .f32) := by
    after_results
  rw [e]
  exact slice2_axis1_apply 0 _ _ i j ⟨j.val, by omega⟩ (Nat.zero_add _).symm

end Cert.KernelIdeal.HostGlue
-- ==== Proof.Layer.lean ====
import proofs.«102666_j54082228191696_2_alg».proof.Proof.Reg0
import proofs.«102666_j54082228191696_2_alg».proof.Proof.Spec

open scoped BigOperators

noncomputable section

namespace Cert.KernelIdeal.Layer

open Cert.BnnSpec Cert.KernelIdeal Cert.KernelIdeal.Reg0 Idealize.ShloMosaic Idealize.ShloMosaic.ValueIdx

/-! # From per-tile sums to batch statistics

The batch of 16384 rows is cut into 16 tiles of 1024 rows; summing a column tile by tile and then over the
tiles is summing it over the batch. -/

/-- Row 8·t of a statistics array belongs to tile t. -/
theorem tileOf_eight (t : Fin 16) : tileOf ⟨8 * t.val, by omega⟩ = t :=
  Fin.ext (by show 8 * t.val / 8 = t.val; omega)

/-- A sum over the tiles of sums over a tile's rows is the sum over the batch. -/
theorem sum_tiles {M : Type*} [AddCommMonoid M] (f : Fin 16384 → M) :
    ∑ t : Fin 16, ∑ r : Fin 1024, f (tileRow t r) = ∑ i, f i := by
  rw [← Fintype.sum_prod_type']
  refine Fintype.sum_equiv (finProdFinEquiv (m := 16) (n := 1024)) _ _ fun x => ?_
  refine congrArg f (Fin.ext ?_)
  show x.1.val * 1024 + x.2.val = x.2.val + 1024 * x.1.val
  omega

/-- The mean of a column from its per-tile sums. -/
theorem mean_of_tiles (z : Fin 16384 → Fin 1024 → EReal) (S : S128x1024.Idx → EReal)
    (hS : ∀ (a : Fin 128) (j : Fin 1024), S (ix2 a j) = ∑ r : Fin 1024, z (tileRow (tileOf a) r) j) (j : Fin 1024) :
    Ideal.div (∑ t : Fin 16, S (ix2 ⟨8 * t.val, by omega⟩ j)) nB = mean z j := by
  unfold mean
  refine congrArg (Ideal.div · nB) ?_
  rw [← sum_tiles (fun i => z i j)]
  exact Finset.sum_congr rfl fun t _ => by rw [hS, tileOf_eight]

/-- The mean of the squares of a column from its per-tile sums of squares. -/
theorem meansq_of_tiles (z : Fin 16384 → Fin 1024 → EReal) (Q : S128x1024.Idx → EReal)
    (hQ : ∀ (a : Fin 128) (j : Fin 1024), Q (ix2 a j) = ∑ r : Fin 1024, z (tileRow (tileOf a) r) j * z (tileRow (tileOf a) r) j)
    (j : Fin 1024) :
    Ideal.div (∑ t : Fin 16, Q (ix2 ⟨8 * t.val, by omega⟩ j)) nB = Ideal.div (∑ i, z i j * z i j) nB := by
  refine congrArg (Ideal.div · nB) ?_
  rw [← sum_tiles (fun i => z i j * z i j)]
  exact Finset.sum_congr rfl fun t _ => by rw [hQ, tileOf_eight]

/-- The one-pass variance of a column from its per-tile sums and sums of squares. -/
theorem var_of_tiles (z : Fin 16384 → Fin 1024 → EReal) (S Q : S128x1024.Idx → EReal)
    (hS : ∀ (a : Fin 128) (j : Fin 1024), S (ix2 a j) = ∑ r : Fin 1024, z (tileRow (tileOf a) r) j)
    (hQ : ∀ (a : Fin 128) (j : Fin 1024), Q (ix2 a j) = ∑ r : Fin 1024, z (tileRow (tileOf a) r) j * z (tileRow (tileOf a) r) j)
    (j : Fin 1024) :
    Ideal.div (∑ t : Fin 16, Q (ix2 ⟨8 * t.val, by omega⟩ j)) nB
        - Ideal.div (∑ t : Fin 16, S (ix2 ⟨8 * t.val, by omega⟩ j)) nB * Ideal.div (∑ t : Fin 16, S (ix2 ⟨8 * t.val, by omega⟩ j)) nB
      = varOnePass z j := by
  rw [mean_of_tiles z S hS j, meansq_of_tiles z Q hQ j]
  rfl

/-- A fused layer — normalise a row with the batch statistics it is handed, take the signs, multiply with a
    binarized transposed weight — is the specification's next linear layer of the one-pass normalisation. -/
theorem lin_of_fused {N : ℕ} (z : Fin 16384 → Fin 1024 → EReal) (g b : Fin 1024 → EReal) (W : Fin N → Fin 1024 → EReal)
    (Z : S16384x1024.Idx → EReal) (Mu Va Ga Be : S1x1024.Idx → EReal) (Wt : Fin 1024 → Fin N → EReal)
    (hZ : ∀ i k, Z (ix2 i k) = z i k) (hMu : ∀ k, Mu (ix2 (0 : Fin 1) k) = mean z k)
    (hVa : ∀ k, Va (ix2 (0 : Fin 1) k) = varOnePass z k)
    (hGa : ∀ k, Ga (ix2 (0 : Fin 1) k) = g k) (hBe : ∀ k, Be (ix2 (0 : Fin 1) k) = b k)
    (hW : ∀ k j, Wt k j = Ideal.sign (W j k)) (i : Fin 16384) (j : Fin N) :
    ∑ k : Fin 1024, Ideal.sign (Ga (ix2 (0 : Fin 1) k) * (Z (ix2 i k) - Mu (ix2 (0 : Fin 1) k))
        * Ideal.rsqrt (Va (ix2 (0 : Fin 1) k) + eps) + Be (ix2 (0 : Fin 1) k)) * Wt k j
      = lin (act (bnOnePass z g b)) W i j := by
  unfold lin act bnOnePass
  exact Finset.sum_congr rfl fun k _ => by rw [hZ, hMu, hVa, hGa, hBe, hW]

end Cert.KernelIdeal.Layer

end
-- ==== Proof.KVal.lean ====
import proofs.«102666_j54082228191696_2_alg».proof.Proof.Kept
import proofs.«102666_j54082228191696_2_alg».proof.Proof.Reg0
import proofs.«102666_j54082228191696_2_alg».proof.Proof.Reg1
import proofs.«102666_j54082228191696_2_alg».proof.Proof.Reg2
import proofs.«102666_j54082228191696_2_alg».proof.Proof.Reg3
import proofs.«102666_j54082228191696_2_alg».proof.Proof.HostGlue
import proofs.«102666_j54082228191696_2_alg».proof.Proof.Layer

/-! # The idealized kernel's result as the specification's one-pass network

Segment by segment: the first host stretch binarizes and transposes W1; region 0 leaves x·sign(W1)ᵀ and its
per-tile column sums; each later host stretch turns the per-tile sums into the column mean and the one-pass
variance, and binarizes and transposes the next weight; each later region normalises with those statistics,
takes the signs and multiplies with that weight; the last region's weight is padded with zero columns, which
the final slice drops. -/

set_option maxRecDepth 16384

open scoped BigOperators

noncomputable section

namespace Cert.KernelIdeal.KVal

open Cert.BnnSpec Cert.KernelIdeal Cert.KernelIdeal.Gen Cert.KernelIdeal.Reg0 Cert.KernelIdeal.HostGlue
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## The argument arrays by coordinates -/

def X : Fin 16384 → Fin 784 → EReal := fun i k => (m ((c.tc : Thread nD τ).loc main_arg0) : FVec Ideal S16384x784 .f32) (ix2 i k)
def Wa1 : Fin 1024 → Fin 784 → EReal := fun j k => (m ((c.tc : Thread nD τ).loc main_arg1) : FVec Ideal S1024x784 .f32) (ix2 j k)
def G1 : Fin 1024 → EReal := fun j => (m ((c.tc : Thread nD τ).loc main_arg2) : FVec Ideal S1024 .f32) (ix1 j)
def B1 : Fin 1024 → EReal := fun j => (m ((c.tc : Thread nD τ).loc main_arg3) : FVec Ideal S1024 .f32) (ix1 j)
def Wa2 : Fin 1024 → Fin 1024 → EReal := fun j k => (m ((c.tc : Thread nD τ).loc main_arg4) : FVec Ideal S1024x1024 .f32) (ix2 j k)
def G2 : Fin 1024 → EReal := fun j => (m ((c.tc : Thread nD τ).loc main_arg5) : FVec Ideal S1024 .f32) (ix1 j)
def B2 : Fin 1024 → EReal := fun j => (m ((c.tc : Thread nD τ).loc main_arg6) : FVec Ideal S1024 .f32) (ix1 j)
def Wa3 : Fin 1024 → Fin 1024 → EReal := fun j k => (m ((c.tc : Thread nD τ).loc main_arg7) : FVec Ideal S1024x1024 .f32) (ix2 j k)
def G3 : Fin 1024 → EReal := fun j => (m ((c.tc : Thread nD τ).loc main_arg8) : FVec Ideal S1024 .f32) (ix1 j)
def B3 : Fin 1024 → EReal := fun j => (m ((c.tc : Thread nD τ).loc main_arg9) : FVec Ideal S1024 .f32) (ix1 j)
def Wa4 : Fin 10 → Fin 1024 → EReal := fun j k => (m ((c.tc : Thread nD τ).loc main_arg10) : FVec Ideal S10x1024 .f32) (ix2 j k)

/-- The pre-activations of the three hidden layers, one-pass form. -/
def z1 : Fin 16384 → Fin 1024 → EReal := lin (X m c) (Wa1 m c)
def z2 : Fin 16384 → Fin 1024 → EReal := lin (act (bnOnePass (z1 m c) (G1 m c) (B1 m c))) (Wa2 m c)
def z3 : Fin 16384 → Fin 1024 → EReal := lin (act (bnOnePass (z2 m c) (G2 m c) (B2 m c))) (Wa3 m c)

/-! ## Layer 1 -/

theorem prod1 (i : Fin 16384) (j : Fin 1024) :
    Reg0.prod (V1 m ρ c main_arg0) (V1 m ρ c main_v1) i j = z1 m c i j := by
  unfold Reg0.prod z1 lin
  refine Finset.sum_congr rfl fun k _ => ?_
  refine congrArg₂ (· * ·) (congrFun (Kept.arg0_W1 m ρ c) (ix2 i k)) ?_
  exact ops0_w_apply (W0 m ρ c) k j

theorem z1_arr : (W2 m ρ c (Proc.devRef .tc main_v2_0) : FVec Ideal S16384x1024 .f32) = fun i => z1 m c (i 0) (i 1) :=
  (W2_arr m ρ c 2).trans ((Reg0.final_z (V1 m ρ) c).trans (funext fun i => prod1 m ρ c (i 0) (i 1)))

theorem s1_arr (a : Fin 128) (j : Fin 1024) :
    (W2 m ρ c (Proc.devRef .tc main_v2_1) : FVec Ideal S128x1024 .f32) (ix2 a j) = ∑ r : Fin 1024, z1 m c (tileRow (tileOf a) r) j :=
by
  refine (congrFun ((W2_arr m ρ c 3).trans (Reg0.final_s (V1 m ρ) c)) (ix2 a j)).trans ?_
  show Reg0.tileSum (V1 m ρ c main_arg0) (V1 m ρ c main_v1) a j = _
  unfold Reg0.tileSum
  exact Finset.sum_congr rfl fun r _ => prod1 m ρ c _ j

theorem q1_arr (a : Fin 128) (j : Fin 1024) :
    (W2 m ρ c (Proc.devRef .tc main_v2_2) : FVec Ideal S128x1024 .f32) (ix2 a j)
      = ∑ r : Fin 1024, z1 m c (tileRow (tileOf a) r) j * z1 m c (tileRow (tileOf a) r) j :=
by
  refine (congrFun ((W2_arr m ρ c 4).trans (Reg0.final_q (V1 m ρ) c)) (ix2 a j)).trans ?_
  show Reg0.tileSumSq (V1 m ρ c main_arg0) (V1 m ρ c main_v1) a j = _
  unfold Reg0.tileSumSq
  exact Finset.sum_congr rfl fun r _ => by rw [prod1 m ρ c _ j]

theorem mean1 (j : Fin 1024) : (W3 m ρ c (Proc.devRef .tc main_v14) : FVec Ideal S1x1024 .f32) (ix2 (0 : Fin 1) j) = mean (z1 m c) j :=
  (congrFun (ops1_mean (W2 m ρ c)) _).trans ((statMean_apply _ j).trans (Layer.mean_of_tiles (z1 m c) _ (s1_arr m ρ c) j))

theorem var1 (j : Fin 1024) : (W3 m ρ c (Proc.devRef .tc main_v18) : FVec Ideal S1x1024 .f32) (ix2 (0 : Fin 1) j) = varOnePass (z1 m c) j :=
  (congrFun (ops1_var (W2 m ρ c)) _).trans ((statVar_apply _ _ j).trans (Layer.var_of_tiles (z1 m c) _ _ (s1_arr m ρ c) (q1_arr m ρ c) j))

/-! ## Layer 2 -/

theorem next1 (i : Fin 16384) (j : Fin 1024) :
    Reg1.next (V3 m ρ c main_v2_0) (V3 m ρ c main_v14) (V3 m ρ c main_v18) (V3 m ρ c main_v22) (V3 m ρ c main_v23) (V3 m ρ c main_v21) i j
      = z2 m c i j :=
  Layer.lin_of_fused (z1 m c) (G1 m c) (B1 m c) (Wa2 m c) _ _ _ _ _ (fun k j => V3 m ρ c main_v21 (ix2 k j))
    (fun i k => congrFun ((ops1_keep_z (W2 m ρ c)).trans (z1_arr m ρ c)) (ix2 i k))
    (mean1 m ρ c) (var1 m ρ c)
    (fun k => (ops1_g_apply (W2 m ρ c) k).trans (congrFun (Kept.arg2_W2 m ρ c) (ix1 k)))
    (fun k => (ops1_b_apply (W2 m ρ c) k).trans (congrFun (Kept.arg3_W2 m ρ c) (ix1 k)))
    (fun k j => (ops1_w_apply (W2 m ρ c) k j).trans (congrArg Ideal.sign (congrFun (Kept.arg4_W2 m ρ c) (ix2 j k))))
    i j

theorem z2_arr : (W4 m ρ c (Proc.devRef .tc main_v24_0) : FVec Ideal S16384x1024 .f32) = fun i => z2 m c (i 0) (i 1) :=
  (W4_arr m ρ c 6).trans ((Reg1.final_z (V3 m ρ) c).trans (funext fun i => next1 m ρ c (i 0) (i 1)))

theorem s2_arr (a : Fin 128) (j : Fin 1024) :
    (W4 m ρ c (Proc.devRef .tc main_v24_1) : FVec Ideal S128x1024 .f32) (ix2 a j) = ∑ r : Fin 1024, z2 m c (tileRow (tileOf a) r) j :=
by
  refine (congrFun ((W4_arr m ρ c 7).trans (Reg1.final_s (V3 m ρ) c)) (ix2 a j)).trans ?_
  show Reg1.tileSum (V3 m ρ c main_v2_0) (V3 m ρ c main_v14) (V3 m ρ c main_v18) (V3 m ρ c main_v22) (V3 m ρ c main_v23) (V3 m ρ c main_v21) a j = _
  unfold Reg1.tileSum
  exact Finset.sum_congr rfl fun r _ => next1 m ρ c _ j

theorem q2_arr (a : Fin 128) (j : Fin 1024) :
    (W4 m ρ c (Proc.devRef .tc main_v24_2) : FVec Ideal S128x1024 .f32) (ix2 a j)
      = ∑ r : Fin 1024, z2 m c (tileRow (tileOf a) r) j * z2 m c (tileRow (tileOf a) r) j :=
by
  refine (congrFun ((W4_arr m ρ c 8).trans (Reg1.final_q (V3 m ρ) c)) (ix2 a j)).trans ?_
  show Reg1.tileSumSq (V3 m ρ c main_v2_0) (V3 m ρ c main_v14) (V3 m ρ c main_v18) (V3 m ρ c main_v22) (V3 m ρ c main_v23) (V3 m ρ c main_v21) a j = _
  unfold Reg1.tileSumSq
  exact Finset.sum_congr rfl fun r _ => by rw [next1 m ρ c _ j]

theorem mean2 (j : Fin 1024) : (W5 m ρ c (Proc.devRef .tc main_v36) : FVec Ideal S1x1024 .f32) (ix2 (0 : Fin 1) j) = mean (z2 m c) j :=
  (congrFun (ops2_mean (W4 m ρ c)) _).trans ((statMean_apply _ j).trans (Layer.mean_of_tiles (z2 m c) _ (s2_arr m ρ c) j))

theorem var2 (j : Fin 1024) : (W5 m ρ c (Proc.devRef .tc main_v40) : FVec Ideal S1x1024 .f32) (ix2 (0 : Fin 1) j) = varOnePass (z2 m c) j :=
  (congrFun (ops2_var (W4 m ρ c)) _).trans ((statVar_apply _ _ j).trans (Layer.var_of_tiles (z2 m c) _ _ (s2_arr m ρ c) (q2_arr m ρ c) j))

/-! ## Layer 3 -/

theorem next2 (i : Fin 16384) (j : Fin 1024) :
    Reg2.next (V5 m ρ c main_v24_0) (V5 m ρ c main_v36) (V5 m ρ c main_v40) (V5 m ρ c main_v44) (V5 m ρ c main_v45) (V5 m ρ c main_v43) i j
      = z3 m c i j :=
  Layer.lin_of_fused (z2 m c) (G2 m c) (B2 m c) (Wa3 m c) _ _ _ _ _ (fun k j => V5 m ρ c main_v43 (ix2 k j))
    (fun i k => congrFun ((ops2_keep_z (W4 m ρ c)).trans (z2_arr m ρ c)) (ix2 i k))
    (mean2 m ρ c) (var2 m ρ c)
    (fun k => (ops2_g_apply (W4 m ρ c) k).trans (congrFun (Kept.arg5_W4 m ρ c) (ix1 k)))
    (fun k => (ops2_b_apply (W4 m ρ c) k).trans (congrFun (Kept.arg6_W4 m ρ c) (ix1 k)))
    (fun k j => (ops2_w_apply (W4 m ρ c) k j).trans (congrArg Ideal.sign (congrFun (Kept.arg7_W4 m ρ c) (ix2 j k))))
    i j

theorem z3_arr : (W6 m ρ c (Proc.devRef .tc main_v46_0) : FVec Ideal S16384x1024 .f32) = fun i => z3 m c (i 0) (i 1) :=
  (W6_arr m ρ c 6).trans ((Reg2.final_z (V5 m ρ) c).trans (funext fun i => next2 m ρ c (i 0) (i 1)))

theorem s3_arr (a : Fin 128) (j : Fin 1024) :
    (W6 m ρ c (Proc.devRef .tc main_v46_1) : FVec Ideal S128x1024 .f32) (ix2 a j) = ∑ r : Fin 1024, z3 m c (tileRow (tileOf a) r) j :=
by
  refine (congrFun ((W6_arr m ρ c 7).trans (Reg2.final_s (V5 m ρ) c)) (ix2 a j)).trans ?_
  show Reg2.tileSum (V5 m ρ c main_v24_0) (V5 m ρ c main_v36) (V5 m ρ c main_v40) (V5 m ρ c main_v44) (V5 m ρ c main_v45) (V5 m ρ c main_v43) a j = _
  unfold Reg2.tileSum
  exact Finset.sum_congr rfl fun r _ => next2 m ρ c _ j

theorem q3_arr (a : Fin 128) (j : Fin 1024) :
    (W6 m ρ c (Proc.devRef .tc main_v46_2) : FVec Ideal S128x1024 .f32) (ix2 a j)
      = ∑ r : Fin 1024, z3 m c (tileRow (tileOf a) r) j * z3 m c (tileRow (tileOf a) r) j :=
by
  refine (congrFun ((W6_arr m ρ c 8).trans (Reg2.final_q (V5 m ρ) c)) (ix2 a j)).trans ?_
  show Reg2.tileSumSq (V5 m ρ c main_v24_0) (V5 m ρ c main_v36) (V5 m ρ c main_v40) (V5 m ρ c main_v44) (V5 m ρ c main_v45) (V5 m ρ c main_v43) a j = _
  unfold Reg2.tileSumSq
  exact Finset.sum_congr rfl fun r _ => by rw [next2 m ρ c _ j]

theorem mean3 (j : Fin 1024) : (W7 m ρ c (Proc.devRef .tc main_v58) : FVec Ideal S1x1024 .f32) (ix2 (0 : Fin 1) j) = mean (z3 m c) j :=
  (congrFun (ops3_mean (W6 m ρ c)) _).trans ((statMean_apply _ j).trans (Layer.mean_of_tiles (z3 m c) _ (s3_arr m ρ c) j))

theorem var3 (j : Fin 1024) : (W7 m ρ c (Proc.devRef .tc main_v62) : FVec Ideal S1x1024 .f32) (ix2 (0 : Fin 1) j) = varOnePass (z3 m c) j :=
  (congrFun (ops3_var (W6 m ρ c)) _).trans ((statVar_apply _ _ j).trans (Layer.var_of_tiles (z3 m c) _ _ (s3_arr m ρ c) (q3_arr m ρ c) j))

/-! ## The output layer -/

theorem c_W7 : (W7 m ρ c (Proc.devRef .tc main_c) : IVec S_ 32) = constantI S_ 32 0#32 := ops3_c (W6 m ρ c)

/-- The padded last weight at a column the final slice keeps. -/
theorem w4_apply (k : Fin 1024) (j : Fin 10) :
    (V9 m ρ c main_v66 : FVec Ideal S1024x128 .bf16) (ix2 k ⟨j.val, by omega⟩) = Ideal.sign (Wa4 m c j k) := by
  refine (congrFun (Kept.v66_W9 m ρ c) _).trans ?_
  refine (ops3_1_pad_apply (W7 m ρ c) (c_W7 m ρ c) k ⟨j.val, by omega⟩).trans ?_
  rw [dif_pos (show (⟨j.val, by omega⟩ : Fin 128).val < 10 from j.isLt)]
  exact (ops3_w_apply (W6 m ρ c) k j).trans (congrArg Ideal.sign (congrFun (Kept.arg10_W6 m ρ c) (ix2 j k)))

theorem out3 (i : Fin 16384) (j : Fin 10) :
    Reg3.out (V9 m ρ c main_v46_0) (V9 m ρ c main_v58) (V9 m ρ c main_v62) (V9 m ρ c main_v67) (V9 m ρ c main_v68) (V9 m ρ c main_v66) i ⟨j.val, by omega⟩
      = lin (act (bnOnePass (z3 m c) (G3 m c) (B3 m c))) (Wa4 m c) i j :=
  Layer.lin_of_fused (z3 m c) (G3 m c) (B3 m c) (Wa4 m c) _ _ _ _ _ (fun k (j : Fin 10) => V9 m ρ c main_v66 (ix2 k ⟨j.val, by omega⟩))
    (fun i k => congrFun ((Kept.v46_0_W9 m ρ c).trans (z3_arr m ρ c)) (ix2 i k))
    (fun k => (congrFun (Kept.v58_W9 m ρ c) _).trans (mean3 m ρ c k))
    (fun k => (congrFun (Kept.v62_W9 m ρ c) _).trans (var3 m ρ c k))
    (fun k => (ops3_2_g_apply (W8 m ρ c) k).trans (congrFun (Kept.arg8_W8 m ρ c) (ix1 k)))
    (fun k => (ops3_2_b_apply (W8 m ρ c) k).trans (congrFun (Kept.arg9_W8 m ρ c) (ix1 k)))
    (w4_apply m ρ c) i j

/-- THE RESULT: the program's result buffer at the last boundary is the one-pass network of the arguments. -/
theorem result : (W11 m ρ c (Proc.devRef .tc main_v70) : FVec Ideal S16384x10 .f32)
    = fun idx => netOnePass (X m c) (Wa1 m c) (G1 m c) (B1 m c) (Wa2 m c) (G2 m c) (B2 m c) (Wa3 m c) (G3 m c) (B3 m c) (Wa4 m c) (idx 0) (idx 1) := by
  funext idx
  have hidx : idx = ix2 (idx 0) (idx 1) := eq_ix2 idx
  refine (congrArg (W11 m ρ c (Proc.devRef .tc main_v70) : FVec Ideal S16384x10 .f32) hidx).trans ?_
  refine (ops4_out_apply (W10 m ρ c) (idx 0) (idx 1)).trans ?_
  refine (congrFun ((W10_arr m ρ c 6).trans (Reg3.final_z (V9 m ρ) c)) _).trans ?_
  show _ = lin (act (bnOnePass (z3 m c) (G3 m c) (B3 m c))) (Wa4 m c) (idx 0) (idx 1)
  exact out3 m ρ c (idx 0) (idx 1)

end Cert.KernelIdeal.KVal

end
-- ==== Proof.RefOps.lean ====
import proofs.«102666_j54082228191696_2_alg».proof.Proof.Gen.ReferenceIdeal.Run
import proofs.«102666_j54082228191696_2_alg».proof.Proof.Spec
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value
import Idealize.ShloMosaic.PureOps.Ideal.Laws

/-! # The reference's host operations, each read at one index

Every tensor operation of the reference program — a product of two matrices contracted over one axis, a
column sum, the broadcasts of a row vector down the batch, a transposition — is read here at a single
entry, over the extended reals: a product is the sum over the contracted coordinate, a column sum the
sum over the rows, a broadcast the operand's entry, a transposition the entry with the two coordinates
exchanged. The elementwise operations read through definitionally. -/

open scoped BigOperators

noncomputable section

namespace Cert.ReferenceIdeal.RefValue

open Cert.ReferenceIdeal Cert.ReferenceIdeal.Gen Idealize.ShloMosaic Idealize.ShloMosaic.ValueIdx

/-! ## Broadcasts -/

/-- A scalar constant broadcast to a vector of 1024 entries reads the constant's value everywhere. -/
theorem bcast_const_apply (w : BitVec 32) (j : Fin 1024) :
    broadcastInDim S1024 ![] Facts₀.bcast_S_S1024 (constant (F := Ideal) S_ .f32 w) (ix1 j) = Ideal.ofBits .f32 w := by
  rw [broadcastInDim_scalar_apply]; rfl

/-- A vector of 1024 entries laid as one row: entry (0, j) is entry j. -/
theorem bcast_row_apply (x : FVec Ideal S1024 .f32) (j : Fin 1024) :
    broadcastInDim S1x1024 ![1] Facts₀.bcast_S1024_S1x1024_1 x (ix2 (0 : Fin 1) j) = x (ix1 j) := by
  refine broadcastInDim_apply (s := S1024) (t := S1x1024) _ Facts₀.bcast_S1024_S1x1024_1 x _ (ix1 j) ?_
  intro a
  match a with
  | ⟨0, _⟩ => rfl

/-- One row broadcast down the 16384 rows of the batch: entry (i, j) is entry (0, j) of the row. -/
theorem bcast_rows_apply (y : FVec Ideal S1x1024 .f32) (i : Fin 16384) (j : Fin 1024) :
    broadcastInDim S16384x1024 ![0, 1] Facts₀.bcast_S1x1024_S16384x1024_0_1 y (ix2 i j) = y (ix2 (0 : Fin 1) j) :=
  broadcastInDim_oneRow_apply _ y i j

/-- The two broadcasts composed: a vector of 1024 entries broadcast down the batch reads entry j at (i, j). -/
theorem bcast_col_apply (x : FVec Ideal S1024 .f32) (i : Fin 16384) (j : Fin 1024) :
    broadcastInDim S16384x1024 ![0, 1] Facts₀.bcast_S1x1024_S16384x1024_0_1
        (broadcastInDim S1x1024 ![1] Facts₀.bcast_S1024_S1x1024_1 x) (ix2 i j) = x (ix1 j) := by
  rw [bcast_rows_apply, bcast_row_apply]

/-! ## Transpositions -/

/-- The first layer's weight signs transposed: entry (k, j) is entry (j, k). -/
theorem transpose1_apply (x : FVec Ideal S1024x784 .f32) (k : Fin 784) (j : Fin 1024) :
    transpose S784x1024 [1, 0] x Facts₀.transposes_S1024x784_S784x1024_1_0 (ix2 k j) = x (ix2 j k) :=
  transpose_ix2_apply x _ k j

/-- A square weight matrix transposed. -/
theorem transpose2_apply (x : FVec Ideal S1024x1024 .f32) (k : Fin 1024) (j : Fin 1024) :
    transpose S1024x1024 [1, 0] x Facts₀.transposes_S1024x1024_S1024x1024_1_0 (ix2 k j) = x (ix2 j k) :=
  transpose_ix2_apply x _ k j

/-- The output layer's weight matrix transposed. -/
theorem transpose4_apply (x : FVec Ideal S10x1024 .f32) (k : Fin 1024) (j : Fin 10) :
    transpose S1024x10 [1, 0] x Facts₀.transposes_S10x1024_S1024x10_1_0 (ix2 k j) = x (ix2 j k) :=
  transpose_ix2_apply x _ k j

/-! ## Products -/

/-- The first layer's product at (i, j): the sum over the 784 contracted coordinates. -/
theorem dot1_apply (l : FVec Ideal S16384x784 .f32) (r : FVec Ideal S784x1024 .f32) (i : Fin 16384) (j : Fin 1024) :
    Host.dotGeneral dot_S16384x784_S784x1024_S16384x1024_1_0_0_1_n_n none l r (ix2 i j) = ∑ k : Fin 784, l (ix2 i k) * r (ix2 k j) := by
  rw [Host.dotGeneral, Ideal.dotGeneral_apply,
    ← Equiv.sum_comp (contrEquiv1 dot_S16384x784_S784x1024_S16384x1024_1_0_0_1_n_n 784 rfl rfl).symm]
  refine Finset.sum_congr rfl fun k _ => ?_
  have hk := contrEquiv1_symm_val dot_S16384x784_S784x1024_S16384x1024_1_0_0_1_n_n 784 rfl rfl k
  congr 2
  · funext a
    match a with
    | ⟨0, _⟩ => rfl
    | ⟨1, _⟩ => exact Fin.ext hk
  · funext a
    match a with
    | ⟨0, _⟩ => exact Fin.ext hk
    | ⟨1, _⟩ => rfl

/-- A hidden layer's product at (i, j): the sum over the 1024 contracted coordinates. -/
theorem dot2_apply (l : FVec Ideal S16384x1024 .f32) (r : FVec Ideal S1024x1024 .f32) (i : Fin 16384) (j : Fin 1024) :
    Host.dotGeneral dot_S16384x1024_S1024x1024_S16384x1024_1_0_0_1_n_n none l r (ix2 i j) = ∑ k : Fin 1024, l (ix2 i k) * r (ix2 k j) := by
  rw [Host.dotGeneral, Ideal.dotGeneral_apply,
    ← Equiv.sum_comp (contrEquiv1 dot_S16384x1024_S1024x1024_S16384x1024_1_0_0_1_n_n 1024 rfl rfl).symm]
  refine Finset.sum_congr rfl fun k _ => ?_
  have hk := contrEquiv1_symm_val dot_S16384x1024_S1024x1024_S16384x1024_1_0_0_1_n_n 1024 rfl rfl k
  congr 2
  · funext a
    match a with
    | ⟨0, _⟩ => rfl
    | ⟨1, _⟩ => exact Fin.ext hk
  · funext a
    match a with
    | ⟨0, _⟩ => exact Fin.ext hk
    | ⟨1, _⟩ => rfl

/-- The output layer's product at (i, j): the sum over the 1024 contracted coordinates. -/
theorem dot4_apply (l : FVec Ideal S16384x1024 .f32) (r : FVec Ideal S1024x10 .f32) (i : Fin 16384) (j : Fin 10) :
    Host.dotGeneral dot_S16384x1024_S1024x10_S16384x10_1_0_0_1_n_n none l r (ix2 i j) = ∑ k : Fin 1024, l (ix2 i k) * r (ix2 k j) := by
  rw [Host.dotGeneral, Ideal.dotGeneral_apply,
    ← Equiv.sum_comp (contrEquiv1 dot_S16384x1024_S1024x10_S16384x10_1_0_0_1_n_n 1024 rfl rfl).symm]
  refine Finset.sum_congr rfl fun k _ => ?_
  have hk := contrEquiv1_symm_val dot_S16384x1024_S1024x10_S16384x10_1_0_0_1_n_n 1024 rfl rfl k
  congr 2
  · funext a
    match a with
    | ⟨0, _⟩ => rfl
    | ⟨1, _⟩ => exact Fin.ext hk
  · funext a
    match a with
    | ⟨0, _⟩ => exact Fin.ext hk
    | ⟨1, _⟩ => rfl

/-! ## Column sums -/

/-- The sum over the batch of column j, from the initial word zero. -/
theorem colsum_apply (x : FVec Ideal S16384x1024 .f32) (j : Fin 1024) :
    Host.reduceAdd x (constant (F := Ideal) S_ .f32 0x00000000#32) Facts₀.reducesTo_S16384x1024_S1024_d0 Facts₀.h_S_ (ix1 j)
      = ∑ i : Fin 16384, x (ix2 i j) := by
  have h : S16384x1024.Reduces [0] S1024 := by decide
  rw [hostReduceAdd_apply, Ideal.hostReduceAdd_single _ h]
  show Ideal.ofBits .f32 0x00000000#32 + _ = _
  rw [Ideal.ofBits_zero_f32, zero_add]
  refine Finset.sum_congr rfl fun i _ => congrArg x ?_
  funext a
  match a with
  | ⟨0, _⟩ => rfl
  | ⟨1, _⟩ => rfl

end Cert.ReferenceIdeal.RefValue

end
-- ==== Proof.RefValue.lean ====
import proofs.«102666_j54082228191696_2_alg».proof.Proof.RefOps

/-! # The reference program's result is the two-pass network, entry by entry

The reference's run ends with its result buffer at one long composed term of the eleven arguments.
Read at an entry (i, j), that term is the binarized network of Spec.lean in its two-pass form:
bottom up, each product is a linear layer against the signs of a weight matrix, each column sum
divided by the batch count a mean, the mean of the squared deviations the two-pass variance, and the
scaled, shifted and signed quotient by the square root the binarized activation. -/

open scoped BigOperators

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.BnnSpec

/-! ## One normalisation layer over arbitrary vectors -/

section Layer

variable (z : FVec Ideal S16384x1024 .f32) (zf : Fin 16384 → Fin 1024 → EReal) (hz : ∀ i j, z (ix2 i j) = zf i j)

include hz in
/-- The column sum divided by the batch count is the mean of the column. -/
theorem mean_apply (j : Fin 1024) :
    Host.divf (Host.reduceAdd z (constant S_ .f32 0x00000000#32) Facts₀.reducesTo_S16384x1024_S1024_d0 Facts₀.h_S_)
        (broadcastInDim S1024 ![] Facts₀.bcast_S_S1024 (constant S_ .f32 0x46800000#32)) (ix1 j) = mean zf j := by
  rw [hostDivf_apply, colsum_apply, bcast_const_apply]
  unfold mean
  simp only [hz]

variable (m : FVec Ideal S1024 .f32) (hm : ∀ j, m (ix1 j) = mean zf j)

include hz hm in
/-- The entry less the broadcast mean is the deviation from the column's mean. -/
theorem dev_apply (i : Fin 16384) (j : Fin 1024) :
    subf z (broadcastInDim S16384x1024 ![0, 1] Facts₀.bcast_S1x1024_S16384x1024_0_1
        (broadcastInDim S1x1024 ![1] Facts₀.bcast_S1024_S1x1024_1 m)) (ix2 i j) = zf i j - mean zf j := by
  rw [subf_apply, bcast_col_apply, hz, hm]

variable (d : FVec Ideal S16384x1024 .f32) (hd : ∀ i j, d (ix2 i j) = zf i j - mean zf j)

include hd in
/-- The mean of the squared deviations is the two-pass variance. -/
theorem var_apply (j : Fin 1024) :
    Host.divf (Host.reduceAdd (mulf d d) (constant S_ .f32 0x00000000#32) Facts₀.reducesTo_S16384x1024_S1024_d0 Facts₀.h_S_)
        (broadcastInDim S1024 ![] Facts₀.bcast_S_S1024 (constant S_ .f32 0x46800000#32)) (ix1 j) = varTwoPass zf j := by
  rw [hostDivf_apply, colsum_apply, bcast_const_apply]
  unfold varTwoPass
  simp only [mulf_apply, hd]

variable (g b : FVec Ideal S1024 .f32) (gf bf : Fin 1024 → EReal) (hg : ∀ j, g (ix1 j) = gf j) (hb : ∀ j, b (ix1 j) = bf j)

include hz hm hd hg hb in
/-- The normalised, scaled, shifted and signed entry is the binarized activation of the two-pass normalisation. -/
theorem bnact_apply (i : Fin 16384) (j : Fin 1024) :
    Host.sign (addf (Host.divf (mulf (broadcastInDim S16384x1024 ![0, 1] Facts₀.bcast_S1x1024_S16384x1024_0_1
          (broadcastInDim S1x1024 ![1] Facts₀.bcast_S1024_S1x1024_1 g))
        (subf z (broadcastInDim S16384x1024 ![0, 1] Facts₀.bcast_S1x1024_S16384x1024_0_1
          (broadcastInDim S1x1024 ![1] Facts₀.bcast_S1024_S1x1024_1 m))))
        (broadcastInDim S16384x1024 ![0, 1] Facts₀.bcast_S1x1024_S16384x1024_0_1
          (broadcastInDim S1x1024 ![1] Facts₀.bcast_S1024_S1x1024_1
            (Host.sqrt (addf (Host.divf (Host.reduceAdd (mulf d d) (constant S_ .f32 0x00000000#32)
                Facts₀.reducesTo_S16384x1024_S1024_d0 Facts₀.h_S_)
              (broadcastInDim S1024 ![] Facts₀.bcast_S_S1024 (constant S_ .f32 0x46800000#32)))
              (broadcastInDim S1024 ![] Facts₀.bcast_S_S1024 (constant S_ .f32 0x3727C5AC#32)))))))
        (broadcastInDim S16384x1024 ![0, 1] Facts₀.bcast_S1x1024_S16384x1024_0_1
          (broadcastInDim S1x1024 ![1] Facts₀.bcast_S1024_S1x1024_1 b))) (ix2 i j)
      = act (bnTwoPass zf gf bf) i j := by
  show Ideal.sign _ = _
  rw [addf_apply, hostDivf_apply, mulf_apply, bcast_col_apply, bcast_col_apply, bcast_col_apply,
    dev_apply z zf hz m hm, hg, hb]
  show Ideal.sign (Ideal.div _ (Ideal.sqrt _) + _) = _
  rw [addf_apply, var_apply zf d hd, bcast_const_apply]
  rfl

end Layer

/-! ## The linear layers -/

/-- The first layer: the input rows against the signs of the first weight matrix's rows. -/
theorem lin1_apply (l : FVec Ideal S16384x784 .f32) (w : FVec Ideal S1024x784 .f32)
    (lf : Fin 16384 → Fin 784 → EReal) (wf : Fin 1024 → Fin 784 → EReal)
    (hl : ∀ i k, l (ix2 i k) = lf i k) (hw : ∀ j k, w (ix2 j k) = wf j k) (i : Fin 16384) (j : Fin 1024) :
    Host.dotGeneral dot_S16384x784_S784x1024_S16384x1024_1_0_0_1_n_n none l
        (transpose S784x1024 [1, 0] (Host.sign w) Facts₀.transposes_S1024x784_S784x1024_1_0) (ix2 i j) = lin lf wf i j := by
  rw [dot1_apply]
  unfold lin
  refine Finset.sum_congr rfl fun k _ => ?_
  rw [transpose1_apply, hl]
  show _ * Ideal.sign (w (ix2 j k)) = _
  rw [hw]

/-- A hidden layer: the activations against the signs of a square weight matrix's rows. -/
theorem lin2_apply (l : FVec Ideal S16384x1024 .f32) (w : FVec Ideal S1024x1024 .f32)
    (lf : Fin 16384 → Fin 1024 → EReal) (wf : Fin 1024 → Fin 1024 → EReal)
    (hl : ∀ i k, l (ix2 i k) = lf i k) (hw : ∀ j k, w (ix2 j k) = wf j k) (i : Fin 16384) (j : Fin 1024) :
    Host.dotGeneral dot_S16384x1024_S1024x1024_S16384x1024_1_0_0_1_n_n none l
        (transpose S1024x1024 [1, 0] (Host.sign w) Facts₀.transposes_S1024x1024_S1024x1024_1_0) (ix2 i j) = lin lf wf i j := by
  rw [dot2_apply]
  unfold lin
  refine Finset.sum_congr rfl fun k _ => ?_
  rw [transpose2_apply, hl]
  show _ * Ideal.sign (w (ix2 j k)) = _
  rw [hw]

/-- The output layer: the activations against the signs of the ten rows of the last weight matrix. -/
theorem lin4_apply (l : FVec Ideal S16384x1024 .f32) (w : FVec Ideal S10x1024 .f32)
    (lf : Fin 16384 → Fin 1024 → EReal) (wf : Fin 10 → Fin 1024 → EReal)
    (hl : ∀ i k, l (ix2 i k) = lf i k) (hw : ∀ j k, w (ix2 j k) = wf j k) (i : Fin 16384) (j : Fin 10) :
    Host.dotGeneral dot_S16384x1024_S1024x10_S16384x10_1_0_0_1_n_n none l
        (transpose S1024x10 [1, 0] (Host.sign w) Facts₀.transposes_S10x1024_S1024x10_1_0) (ix2 i j) = lin lf wf i j := by
  rw [dot4_apply]
  unfold lin
  refine Finset.sum_congr rfl fun k _ => ?_
  rw [transpose4_apply, hl]
  show _ * Ideal.sign (w (ix2 j k)) = _
  rw [hw]

/-! ## The arguments by coordinates -/

section Args
variable (V0 : Valuation τ sig (Elt Ideal))

/-- The input: row i, coordinate k. -/
def aX : Fin 16384 → Fin 784 → EReal := fun a b => (V0 (Proc.devRef .tc main_arg0) : FVec Ideal S16384x784 .f32) (ix2 a b)
/-- The first weight matrix. -/
def aW1 : Fin 1024 → Fin 784 → EReal := fun a b => (V0 (Proc.devRef .tc main_arg1) : FVec Ideal S1024x784 .f32) (ix2 a b)
/-- The first normalisation's scale. -/
def aG1 : Fin 1024 → EReal := fun a => (V0 (Proc.devRef .tc main_arg2) : FVec Ideal S1024 .f32) (ix1 a)
/-- The first normalisation's shift. -/
def aB1 : Fin 1024 → EReal := fun a => (V0 (Proc.devRef .tc main_arg3) : FVec Ideal S1024 .f32) (ix1 a)
/-- The second weight matrix. -/
def aW2 : Fin 1024 → Fin 1024 → EReal := fun a b => (V0 (Proc.devRef .tc main_arg4) : FVec Ideal S1024x1024 .f32) (ix2 a b)
/-- The second normalisation's scale. -/
def aG2 : Fin 1024 → EReal := fun a => (V0 (Proc.devRef .tc main_arg5) : FVec Ideal S1024 .f32) (ix1 a)
/-- The second normalisation's shift. -/
def aB2 : Fin 1024 → EReal := fun a => (V0 (Proc.devRef .tc main_arg6) : FVec Ideal S1024 .f32) (ix1 a)
/-- The third weight matrix. -/
def aW3 : Fin 1024 → Fin 1024 → EReal := fun a b => (V0 (Proc.devRef .tc main_arg7) : FVec Ideal S1024x1024 .f32) (ix2 a b)
/-- The third normalisation's scale. -/
def aG3 : Fin 1024 → EReal := fun a => (V0 (Proc.devRef .tc main_arg8) : FVec Ideal S1024 .f32) (ix1 a)
/-- The third normalisation's shift. -/
def aB3 : Fin 1024 → EReal := fun a => (V0 (Proc.devRef .tc main_arg9) : FVec Ideal S1024 .f32) (ix1 a)
/-- The output layer's weight matrix. -/
def aW4 : Fin 10 → Fin 1024 → EReal := fun a b => (V0 (Proc.devRef .tc main_arg10) : FVec Ideal S10x1024 .f32) (ix2 a b)

/-- The first layer's pre-activations. -/
def fz1 : Fin 16384 → Fin 1024 → EReal := lin (aX V0) (aW1 V0)
/-- The second layer's pre-activations. -/
def fz2 : Fin 16384 → Fin 1024 → EReal := lin (act (bnTwoPass (fz1 V0) (aG1 V0) (aB1 V0))) (aW2 V0)
/-- The third layer's pre-activations. -/
def fz3 : Fin 16384 → Fin 1024 → EReal := lin (act (bnTwoPass (fz2 V0) (aG2 V0) (aB2 V0))) (aW3 V0)

/-! ## The named sub-terms of the run, layer by layer -/

set_option maxRecDepth 8192

theorem z1_apply (i : Fin 16384) (j : Fin 1024) : Value.res_main_v2 V0 (ix2 i j) = fz1 V0 i j := by
  unfold Value.res_main_v2
  exact lin1_apply _ _ _ _ (fun _ _ => rfl) (fun _ _ => rfl) i j

theorem m1_apply (j : Fin 1024) : Value.res_main_v5 V0 (ix1 j) = mean (fz1 V0) j := by
  unfold Value.res_main_v5
  exact mean_apply _ _ (z1_apply V0) j

theorem d1_apply (i : Fin 16384) (j : Fin 1024) : Value.res_main_v8 V0 (ix2 i j) = fz1 V0 i j - mean (fz1 V0) j := by
  unfold Value.res_main_v8
  exact dev_apply _ _ (z1_apply V0) _ (m1_apply V0) i j

theorem z2_apply (i : Fin 16384) (j : Fin 1024) : Value.res_main_v31 V0 (ix2 i j) = fz2 V0 i j := by
  unfold Value.res_main_v31
  exact lin2_apply _ _ _ _ (bnact_apply _ _ (z1_apply V0) _ (m1_apply V0) _ (d1_apply V0) _ _ (aG1 V0) (aB1 V0)
    (fun _ => rfl) (fun _ => rfl)) (fun _ _ => rfl) i j

theorem m2_apply (j : Fin 1024) : Value.res_main_v34 V0 (ix1 j) = mean (fz2 V0) j := by
  unfold Value.res_main_v34
  exact mean_apply _ _ (z2_apply V0) j

theorem d2_apply (i : Fin 16384) (j : Fin 1024) : Value.res_main_v37 V0 (ix2 i j) = fz2 V0 i j - mean (fz2 V0) j := by
  unfold Value.res_main_v37
  exact dev_apply _ _ (z2_apply V0) _ (m2_apply V0) i j

theorem z3_apply (i : Fin 16384) (j : Fin 1024) : Value.res_main_v60 V0 (ix2 i j) = fz3 V0 i j := by
  unfold Value.res_main_v60
  exact lin2_apply _ _ _ _ (bnact_apply _ _ (z2_apply V0) _ (m2_apply V0) _ (d2_apply V0) _ _ (aG2 V0) (aB2 V0)
    (fun _ => rfl) (fun _ => rfl)) (fun _ _ => rfl) i j

theorem m3_apply (j : Fin 1024) : Value.res_main_v63 V0 (ix1 j) = mean (fz3 V0) j := by
  unfold Value.res_main_v63
  exact mean_apply _ _ (z3_apply V0) j

theorem d3_apply (i : Fin 16384) (j : Fin 1024) : Value.res_main_v66 V0 (ix2 i j) = fz3 V0 i j - mean (fz3 V0) j := by
  unfold Value.res_main_v66
  exact dev_apply _ _ (z3_apply V0) _ (m3_apply V0) i j

end Args

/-! ## The run -/

section Run
variable (m : (ℓ : Loc nD τ sig) → Buf (Elt Ideal) ℓ) (c : Dev nD)

/-- The input at launch: row i, coordinate k. -/
def X : Fin 16384 → Fin 784 → EReal := fun i k => (m ((c.tc : Thread nD τ).loc main_arg0) : FVec Ideal S16384x784 .f32) (ix2 i k)
/-- The first weight matrix at launch. -/
def W1 : Fin 1024 → Fin 784 → EReal := fun j k => (m ((c.tc : Thread nD τ).loc main_arg1) : FVec Ideal S1024x784 .f32) (ix2 j k)
/-- The first normalisation's scale at launch. -/
def G1 : Fin 1024 → EReal := fun j => (m ((c.tc : Thread nD τ).loc main_arg2) : FVec Ideal S1024 .f32) (ix1 j)
/-- The first normalisation's shift at launch. -/
def B1 : Fin 1024 → EReal := fun j => (m ((c.tc : Thread nD τ).loc main_arg3) : FVec Ideal S1024 .f32) (ix1 j)
/-- The second weight matrix at launch. -/
def W2 : Fin 1024 → Fin 1024 → EReal := fun j k => (m ((c.tc : Thread nD τ).loc main_arg4) : FVec Ideal S1024x1024 .f32) (ix2 j k)
/-- The second normalisation's scale at launch. -/
def G2 : Fin 1024 → EReal := fun j => (m ((c.tc : Thread nD τ).loc main_arg5) : FVec Ideal S1024 .f32) (ix1 j)
/-- The second normalisation's shift at launch. -/
def B2 : Fin 1024 → EReal := fun j => (m ((c.tc : Thread nD τ).loc main_arg6) : FVec Ideal S1024 .f32) (ix1 j)
/-- The third weight matrix at launch. -/
def W3 : Fin 1024 → Fin 1024 → EReal := fun j k => (m ((c.tc : Thread nD τ).loc main_arg7) : FVec Ideal S1024x1024 .f32) (ix2 j k)
/-- The third normalisation's scale at launch. -/
def G3 : Fin 1024 → EReal := fun j => (m ((c.tc : Thread nD τ).loc main_arg8) : FVec Ideal S1024 .f32) (ix1 j)
/-- The third normalisation's shift at launch. -/
def B3 : Fin 1024 → EReal := fun j => (m ((c.tc : Thread nD τ).loc main_arg9) : FVec Ideal S1024 .f32) (ix1 j)
/-- The output layer's weight matrix at launch. -/
def W4 : Fin 10 → Fin 1024 → EReal := fun j k => (m ((c.tc : Thread nD τ).loc main_arg10) : FVec Ideal S10x1024 .f32) (ix2 j k)

end Run

set_option maxRecDepth 8192 in
set_option maxHeartbeats 4000000 in
/-- On every device, from any memory with zero counters, every weakly fair execution of the reference
    terminates with its result, entry by entry, the two-pass binarized network of the eleven arguments'
    launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v89)
        = (fun idx : S16384x10.Idx => netTwoPass (X m c) (W1 m c) (G1 m c) (B1 m c) (W2 m c) (G2 m c) (B2 m c)
            (W3 m c) (G3 m c) (B3 m c) (W4 m c) (idx 0) (idx 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun r h c => ⟨(h c).1.trans ?_, (h c).2⟩) (Value.run (F := Ideal) m ρ)
  funext idx
  obtain ⟨i, j, rfl⟩ : ∃ (i : Fin 16384) (j : Fin 10), idx = ix2 i j := ⟨idx 0, idx 1, eq_ix2 idx⟩
  exact lin4_apply _ _ _ _ (bnact_apply _ _ (z3_apply _) _ (m3_apply _) _ (d3_apply _) _ _
    (aG3 (launchContents m c)) (aB3 (launchContents m c)) (fun _ => rfl) (fun _ => rfl)) (fun _ _ => rfl) i j

end Cert.ReferenceIdeal.RefValue

end
-- ==== Proof.LibBatchNormVar.lean ====
import Idealize.ShloMosaic.PureOps.Ideal

/-! # The two forms of the variance of a finite family

For a finite family `x : ι → ℝ`, a real `n ≠ 0` that is the number of its members, and `μ = (∑ i, x i) / n` its mean,
the mean of the squared deviations is the mean of the squares minus the square of the mean:

  `(∑ i, (x i - μ) * (x i - μ)) / n = (∑ i, x i * x i) / n - μ * μ`.

Expand the square: `∑ (x i - μ)² = ∑ x i² - 2 μ ∑ x i + n μ²`; with `∑ x i = n μ` the last two terms are `- n μ²`; divide by `n`.
The index type enters only through `n` being its cardinality (`hcard`), so the statement is the same for 8 members and
for 100000.

The second half reads the same identity over the extended reals, at entries that are real (coercions), with the division
the idealized float division `Ideal.div` by the real `n`: every sum, quotient, difference and product of coerced reals is
the coercion of the real one (`coe_sum`, `div_coe_coe`), so both sides are coercions and the real identity applies.
No program is mentioned here. -/

noncomputable section

open scoped BigOperators

namespace Cert.LibBatchNormVar

open Idealize.ShloMosaic

/-! ## Over the reals -/

/-- The sum of the squared deviations from `μ`, expanded: `∑ (x i - μ)² = ∑ x i² - 2 μ ∑ x i + (card ι) μ²`, for ANY `μ`. -/
theorem sum_sq_dev {ι : Type*} [Fintype ι] (x : ι → ℝ) (μ : ℝ) :
    ∑ i, (x i - μ) * (x i - μ) = (∑ i, x i * x i) - 2 * μ * (∑ i, x i) + (Fintype.card ι : ℝ) * (μ * μ) := by
  have h : ∀ i, (x i - μ) * (x i - μ) = x i * x i - 2 * μ * x i + μ * μ := fun i => by ring
  simp only [h]
  rw [Finset.sum_add_distrib, Finset.sum_sub_distrib, ← Finset.mul_sum, Finset.sum_const, Finset.card_univ, nsmul_eq_mul]

/-- The mean of the squared deviations from the mean is the mean of the squares minus the square of the mean. -/
theorem var_eq {ι : Type*} [Fintype ι] (x : ι → ℝ) (n : ℝ) (hn : n ≠ 0) (hcard : (Fintype.card ι : ℝ) = n) :
    (∑ i, (x i - (∑ i, x i) / n) * (x i - (∑ i, x i) / n)) / n
      = (∑ i, x i * x i) / n - (∑ i, x i) / n * ((∑ i, x i) / n) := by
  rw [sum_sq_dev, hcard]
  field_simp
  ring

/-- The same with the squares written as powers. -/
theorem var_eq_sq {ι : Type*} [Fintype ι] (x : ι → ℝ) (n : ℝ) (hn : n ≠ 0) (hcard : (Fintype.card ι : ℝ) = n) :
    (∑ i, (x i - (∑ i, x i) / n) ^ 2) / n = (∑ i, x i ^ 2) / n - ((∑ i, x i) / n) ^ 2 := by
  simp only [pow_two]
  exact var_eq x n hn hcard

/-! ## Over the extended reals, at real entries -/

/-- A finite sum of coerced reals is the coercion of the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The idealized division of a real by a nonzero real is the real quotient. -/
theorem div_coe_coe {n : ℝ} (hn : n ≠ 0) (a : ℝ) : Ideal.div (a : EReal) (n : EReal) = ((a / n : ℝ) : EReal) := by
  rw [Ideal.div_coe hn, ← EReal.coe_mul, mul_one_div]

/-- The mean of real entries, read over the extended reals, is the coercion of the real mean. -/
theorem mean_coe {ι : Type*} [Fintype ι] (x : ι → ℝ) {n : ℝ} (hn : n ≠ 0) :
    Ideal.div (∑ i, (x i : EReal)) (n : EReal) = (((∑ i, x i) / n : ℝ) : EReal) := by
  rw [← coe_sum, div_coe_coe hn]

/-- The two forms of the variance over the extended reals, at real entries: with the mean `m` the idealized quotient of
    the sum by `n`, the idealized quotient by `n` of the sum of the squared deviations from `m` is the idealized
    quotient of the sum of the squares, minus `m * m`. -/
theorem ereal_var_eq {ι : Type*} [Fintype ι] (x : ι → ℝ) (n : ℝ) (hn : n ≠ 0) (hcard : (Fintype.card ι : ℝ) = n) :
    Ideal.div (∑ i, ((x i : EReal) - Ideal.div (∑ i, (x i : EReal)) (n : EReal))
        * ((x i : EReal) - Ideal.div (∑ i, (x i : EReal)) (n : EReal))) (n : EReal)
      = Ideal.div (∑ i, (x i : EReal) * (x i : EReal)) (n : EReal)
        - Ideal.div (∑ i, (x i : EReal)) (n : EReal) * Ideal.div (∑ i, (x i : EReal)) (n : EReal) := by
  rw [mean_coe x hn]
  simp only [← EReal.coe_sub, ← EReal.coe_mul]
  rw [← coe_sum, ← coe_sum, div_coe_coe hn, div_coe_coe hn, ← EReal.coe_sub, var_eq x n hn hcard]

/-! ## The divisor 100000.0 -/

/-- The single-precision word `0x47C35000` is the real 100000: sign 0, exponent 143, significand
    `2^23 + 4411392 = 12800000`, and `12800000 · 2^(143 - 127 - 23) = 12800000 / 128`. -/
theorem ofBits_1e5 : Ideal.ofBits .f32 0x47C35000#32 = ((100000 : ℝ) : EReal) := by
  simp [Ideal.ofBits, Ideal.ieee, -EReal.coe_mul]; norm_num

/-- 100000 is the number of members of `Fin 100000`, as a real. -/
theorem card_fin_1e5 : (Fintype.card (Fin 100000) : ℝ) = 100000 := by
  rw [Fintype.card_fin]; norm_num

end Cert.LibBatchNormVar
-- ==== Proof.Algebra.lean ====
import proofs.«102666_j54082228191696_2_alg».proof.Proof.Spec
import proofs.«102666_j54082228191696_2_alg».proof.Proof.LibBatchNormVar

/-! # The one-pass and the two-pass normalisation agree on real columns

The batch count word is the real 16384 and the ε word is a positive real. A sign is always a real
(-1, 0 or 1), so a linear layer against signs maps real entries to real entries, and every layer
after an activation has real entries whatever was normalised before. On a column of reals the mean
of the squared deviations equals the mean of the squares minus the square of the mean, and is a
nonnegative real `v`; `v + ε` is a positive real `s`, so `√s` is a positive real, the division by it
is the product with `(√s)⁻¹`, and the reciprocal square root of `s` is that same `(√s)⁻¹`. The factor
`g · (z − μ)` may be any extended real: division by a nonzero real is the product with the reciprocal
there too. The network statement follows layer by layer. -/

noncomputable section

open scoped BigOperators

namespace Cert.BnnSpec

open Idealize.ShloMosaic

/-! ## The two float words -/

/-- The batch count word `0x46800000`: sign 0, exponent 141, significand `2^23`, so `2^23 · 2^(141 - 127 - 23) = 2^14`. -/
theorem nB_eq : nB = ((16384 : ℝ) : EReal) := by
  simp [Ideal.ofBits, Ideal.ieee, -EReal.coe_mul]; norm_num

/-- The ε word `0x3727C5AC`: sign 0, exponent 110, significand `2^23 + 2606508 = 10995116`, so the positive real
    `10995116 · 2^(110 - 127 - 23) = 10995116 / 2^40`. -/
theorem eps_eq : eps = (((10995116 : ℝ) / 2 ^ 40 : ℝ) : EReal) := by
  simp [Ideal.ofBits, Ideal.ieee, -EReal.coe_mul]; norm_num

/-- ε is a positive real. -/
theorem eps_real : ∃ e : ℝ, 0 < e ∧ eps = (e : EReal) :=
  ⟨(10995116 : ℝ) / 2 ^ 40, by positivity, eps_eq⟩

/-- 16384 is the number of members of `Fin 16384`, as a real. -/
theorem card_fin_nB : (Fintype.card (Fin 16384) : ℝ) = 16384 := by
  rw [Fintype.card_fin]; norm_num

/-! ## Signs and linear layers are real -/

/-- A sign is a real: `-1`, `0` or `1`. -/
theorem sign_real (x : EReal) : ∃ r : ℝ, Ideal.sign x = (r : EReal) := by
  induction x using EReal.rec with
  | bot => exact ⟨-1, by simp⟩
  | coe r => exact ⟨(SignType.sign r : ℝ), rfl⟩
  | top => exact ⟨1, by simp⟩

/-- A linear layer against signs maps real entries to real entries, whatever the weights. -/
theorem lin_real {B K N : ℕ} (h : Fin B → Fin K → EReal) (W : Fin N → Fin K → EReal)
    (hh : ∀ i k, ∃ r : ℝ, h i k = (r : EReal)) : ∀ i j, ∃ r : ℝ, lin h W i j = (r : EReal) := by
  intro i j
  choose f hf using hh
  choose s hs using fun k => sign_real (W j k)
  refine ⟨∑ k, f i k * s k, ?_⟩
  unfold lin
  rw [LibBatchNormVar.coe_sum]
  refine Finset.sum_congr rfl (fun k _ => ?_)
  rw [hf, hs, EReal.coe_mul]

/-- An activation has real entries, whatever it is applied to. -/
theorem act_real {B N : ℕ} (y : Fin B → Fin N → EReal) : ∀ i j, ∃ r : ℝ, act y i j = (r : EReal) :=
  fun i j => sign_real (y i j)

/-- A linear layer after an activation has real entries. -/
theorem lin_act_real {B K N : ℕ} (y : Fin B → Fin K → EReal) (W : Fin N → Fin K → EReal) :
    ∀ i j, ∃ r : ℝ, lin (act y) W i j = (r : EReal) :=
  lin_real (act y) W (act_real y)

/-! ## One column of reals -/

/-- The mean of a real column is the real mean. -/
theorem mean_coe {N : ℕ} (x : Fin 16384 → Fin N → ℝ) (j : Fin N) :
    mean (fun i j => (x i j : EReal)) j = (((∑ i, x i j) / 16384 : ℝ) : EReal) := by
  unfold mean
  rw [nB_eq]
  exact LibBatchNormVar.mean_coe (fun i => x i j) (by norm_num)

/-- The two-pass variance of a real column is the real mean of the squared deviations. -/
theorem varTwoPass_coe {N : ℕ} (x : Fin 16384 → Fin N → ℝ) (j : Fin N) :
    varTwoPass (fun i j => (x i j : EReal)) j
      = (((∑ i, (x i j - (∑ i, x i j) / 16384) * (x i j - (∑ i, x i j) / 16384)) / 16384 : ℝ) : EReal) := by
  unfold varTwoPass
  rw [mean_coe]
  simp only [← EReal.coe_sub, ← EReal.coe_mul]
  rw [nB_eq, ← LibBatchNormVar.coe_sum, LibBatchNormVar.div_coe_coe (by norm_num)]

/-- On a real column the one-pass variance is the two-pass variance. -/
theorem varOnePass_eq {N : ℕ} (x : Fin 16384 → Fin N → ℝ) (j : Fin N) :
    varOnePass (fun i j => (x i j : EReal)) j = varTwoPass (fun i j => (x i j : EReal)) j := by
  unfold varOnePass varTwoPass mean
  rw [nB_eq]
  exact (LibBatchNormVar.ereal_var_eq (fun i => x i j) 16384 (by norm_num) card_fin_nB).symm

/-! ## The normalisation -/

/-- On columns of reals the one-pass normalisation is the two-pass normalisation, for any scale and shift. -/
theorem bn_eq {N : ℕ} (z : Fin 16384 → Fin N → EReal) (hz : ∀ i j, ∃ r : ℝ, z i j = (r : EReal))
    (g b : Fin N → EReal) : bnOnePass z g b = bnTwoPass z g b := by
  choose x hx using hz
  obtain rfl : z = fun i j => (x i j : EReal) := funext fun i => funext fun j => hx i j
  obtain ⟨e, he, hee⟩ := eps_real
  funext i j
  unfold bnOnePass bnTwoPass
  rw [varOnePass_eq, varTwoPass_coe, hee, ← EReal.coe_add]
  have hs : 0 < (∑ i, (x i j - (∑ i, x i j) / 16384) * (x i j - (∑ i, x i j) / 16384)) / 16384 + e :=
    add_pos_of_nonneg_of_pos
      (div_nonneg (Finset.sum_nonneg fun i _ => mul_self_nonneg _) (by norm_num)) he
  have hq : 0 < Real.sqrt ((∑ i, (x i j - (∑ i, x i j) / 16384) * (x i j - (∑ i, x i j) / 16384)) / 16384 + e) :=
    Real.sqrt_pos.mpr hs
  rw [Ideal.sqrt_coe, Ideal.rsqrt_coe, if_neg (not_lt.mpr hs.le), if_neg (not_lt.mpr hs.le), if_neg hs.ne',
    Ideal.div_coe hq.ne', one_div]

/-! ## The network -/

/-- On real inputs the one-pass network is the two-pass network, for any weights, scales and shifts. -/
theorem net_eq {K d O : ℕ} (x : Fin 16384 → Fin K → EReal) (hx : ∀ i k, ∃ r : ℝ, x i k = (r : EReal))
    (W1 : Fin d → Fin K → EReal) (g1 b1 : Fin d → EReal)
    (W2 : Fin d → Fin d → EReal) (g2 b2 : Fin d → EReal) (W3 : Fin d → Fin d → EReal) (g3 b3 : Fin d → EReal)
    (W4 : Fin O → Fin d → EReal) :
    netOnePass x W1 g1 b1 W2 g2 b2 W3 g3 b3 W4 = netTwoPass x W1 g1 b1 W2 g2 b2 W3 g3 b3 W4 := by
  unfold netOnePass netTwoPass
  simp only
  rw [bn_eq (lin x W1) (lin_real x W1 hx) g1 b1,
    bn_eq (lin (act (bnTwoPass (lin x W1) g1 b1)) W2) (lin_act_real _ W2) g2 b2,
    bn_eq (lin (act (bnTwoPass (lin (act (bnTwoPass (lin x W1) g1 b1)) W2) g2 b2)) W3) (lin_act_real _ W3) g3 b3]

end Cert.BnnSpec
-- ==== Proof.Finite.lean ====
import proofs.«102666_j54082228191696_2_alg».proof.Defs
import proofs.«102666_j54082228191696_2_alg».proof.Proof.Gen.Pre_finite_inputs
import Idealize.ShloMosaic.Lib.ReduceAll
import Idealize.ShloMosaic.Lib.ValueIdx

/-! # The precondition makes every entry of the input a real

The precondition is the conjunction, over the eleven argument arrays, of "every entry `x` has
`|x| < +∞`": each array's test is a comparison of `max x (-x)` with the word of `+∞`, reduced
with `and` over all axes from the bit 1, and the eleven bits are joined with `and`. That the whole
is 1 gives the first array's bit 1, hence the comparison 1 at every entry; and of the extended
reals only the reals have `max x (-x) < ⊤`. -/

noncomputable section

namespace Cert.KernelIdeal.Finite

open Idealize.ShloMosaic Idealize.ShloMosaic.ValueIdx

/-- The rank-0 shape has one index. -/
instance : Subsingleton Cert.Pre_finite_inputs.S_.Idx := ⟨fun a b => funext fun d => d.elim0⟩

/-- The word `0x7F800000` is `+∞`: sign 0, exponent all ones, significand 0. -/
theorem ofBits_inf : Ideal.ofBits .f32 0x7F800000#32 = ⊤ := by
  simp [Ideal.ofBits, Ideal.ieee]

/-- An extended real whose absolute value is below `+∞` is a real. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- Under the precondition every entry of the input array is a real. -/
theorem x_real (m : (ℓ : Loc Cert.KernelIdeal.nD Cert.KernelIdeal.τ Cert.KernelIdeal.sig) → Buf (Elt Ideal) ℓ)
    (h : Cert.Pre_KernelIdeal m) (c : Dev Cert.KernelIdeal.nD) (i : Fin 16384) (k : Fin 784) :
    ∃ r : ℝ, (m ((c.tc : Thread Cert.KernelIdeal.nD Cert.KernelIdeal.τ).loc Cert.KernelIdeal.main_arg0)
      : FVec Ideal Cert.KernelIdeal.S16384x784 .f32) (ix2 i k) = (r : EReal) := by
  have h0 := congrFun (h c) ix0
  dsimp only [Cert.Pre_finite_inputs.fn, Cert.Pre_finite_inputs.fn_part1, Cert.Pre_finite_inputs.fn_part2,
    Cert.Pre_finite_inputs.fn_part3] at h0
  replace h0 := (IntOp.andi_eq_one.1 h0).1
  replace h0 := (IntOp.andi_eq_one.1 h0).1
  replace h0 := (IntOp.andi_eq_one.1 h0).1
  replace h0 := (IntOp.andi_eq_one.1 h0).1
  replace h0 := (IntOp.andi_eq_one.1 h0).1
  replace h0 := (IntOp.andi_eq_one.1 h0).1
  replace h0 := (IntOp.andi_eq_one.1 h0).1
  replace h0 := (IntOp.andi_eq_one.1 h0).1
  replace h0 := (IntOp.andi_eq_one.1 h0).1
  replace h0 := (IntOp.andi_eq_one.1 h0).1
  have h1 := Host.reduce_andi_all _ _ _ _ ix0 h0 (ix2 i k)
  exact real_of_abs_lt _ h1

end Cert.KernelIdeal.Finite
-- ==== Proof.lean ====
/-
  A binarized multilayer perceptron with training-mode batch normalisation between its layers, as a
  pipelined kernel program of four regions against its plain reference, over the extended reals.

  Both programs compute z₁ = x · sign(W₁)ᵀ and then, three times, normalise every column of z over the
  batch of 16384 rows, take the signs and multiply with the next sign(W)ᵀ. They differ in how a column is
  normalised. The reference takes the mean μ, the mean of the squared deviations from μ, and
  γ·(z − μ)/√(var + ε) + β. The kernel program sums each column, and its squares, tile by tile (16 tiles of
  1024 rows) inside the region that produces z, lets the host add the tiles' sums and form the mean and the
  one-pass variance E[z²] − E[z]², and normalises inside the NEXT region by γ·(z − μ)·rsqrt(var + ε) + β.
  On a column of real numbers the two variances agree, var + ε is a positive real, and dividing by its
  square root is multiplying by its reciprocal — at every extended real numerator, so γ and β need not
  be finite. Every column is real: z₁ because x is finite (the precondition) and a sign is −1, 0 or 1;
  the later z because they are sums of products of signs. The kernel's spelling of the sign — one with the
  operand's sign where the operand is not zero, the operand itself at zero — is the sign. The last
  weight is padded with zero columns before the last region, and the final slice drops those columns.

  Spec.lean states the network index by index in both forms; Algebra.lean proves the forms equal on real
  inputs; RefValue.lean reads the reference's run as the two-pass form; KRun.lean names the kernel program's
  buffers after its run, Reg0–Reg3.lean read each region's arrays as whole-array functions, HostGlue.lean the
  host stretches between them, KVal.lean composes them into the one-pass form; Finite.lean reads the
  finiteness of x off the precondition.
-/
import proofs.«102666_j54082228191696_2_alg».proof.Defs
import proofs.«102666_j54082228191696_2_alg».proof.Proof.Gen.Kernel
import proofs.«102666_j54082228191696_2_alg».proof.Proof.Gen.Kernel.Skeleton
import proofs.«102666_j54082228191696_2_alg».proof.Proof.Gen.Kernel.Launch
import proofs.«102666_j54082228191696_2_alg».proof.Proof.Gen.Kernel.Points
import proofs.«102666_j54082228191696_2_alg».proof.Proof.Gen.Kernel.Frame
import proofs.«102666_j54082228191696_2_alg».proof.Proof.Gen.KernelIdeal
import proofs.«102666_j54082228191696_2_alg».proof.Proof.Gen.KernelIdeal.Skeleton
import proofs.«102666_j54082228191696_2_alg».proof.Proof.Gen.KernelIdeal.Launch
import proofs.«102666_j54082228191696_2_alg».proof.Proof.Gen.KernelIdeal.Points
import proofs.«102666_j54082228191696_2_alg».proof.Proof.Gen.KernelIdeal.Frame
import proofs.«102666_j54082228191696_2_alg».proof.Proof.Gen.ReferenceIdeal
import proofs.«102666_j54082228191696_2_alg».proof.Proof.Gen.Pre_finite_inputs
import proofs.«102666_j54082228191696_2_alg».proof.Proof.Gen.ReferenceIdeal.Run
import proofs.«102666_j54082228191696_2_alg».proof.Proof.KRun
import proofs.«102666_j54082228191696_2_alg».proof.Proof.KVal
import proofs.«102666_j54082228191696_2_alg».proof.Proof.RefValue
import proofs.«102666_j54082228191696_2_alg».proof.Proof.Algebra
import proofs.«102666_j54082228191696_2_alg».proof.Proof.Finite
import Idealize.ShloMosaic.Adequacy
import Idealize.ShloMosaic.Init

noncomputable section

namespace Cert.Proof

open Idealize.ShloMosaic Idealize.SL.Sem

/-- The three programs run, fault nowhere, and leave their arguments as launched. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The three rewrites of the sign-bit window: one with the operand's sign bit is −1 below zero and 1 otherwise. -/
theorem preserves : Cert.preserves_Kernel_KernelIdeal :=
  ⟨IdealRules.sign_bit.statement Cert.KernelIdeal.S1024x1024 .f32,
   IdealRules.sign_bit.statement Cert.KernelIdeal.S1024x1024 .f32,
   IdealRules.sign_bit.statement Cert.KernelIdeal.S1024x1024 .f32⟩

/-- From memories that agree on the arguments both programs end at the network of those arguments: the kernel
    program at its one-pass form, the reference at its two-pass form, which agree because x is finite. -/
theorem algebraic : Cert.algebraic_KernelIdeal_ReferenceIdeal := by
  intro m ρ m' ρ' hpre hagree
  refine ⟨fun c => (fun idx : Cert.KernelIdeal.S16384x10.Idx =>
    Cert.BnnSpec.netOnePass (Cert.KernelIdeal.KVal.X m c) (Cert.KernelIdeal.KVal.Wa1 m c) (Cert.KernelIdeal.KVal.G1 m c) (Cert.KernelIdeal.KVal.B1 m c) (Cert.KernelIdeal.KVal.Wa2 m c) (Cert.KernelIdeal.KVal.G2 m c) (Cert.KernelIdeal.KVal.B2 m c) (Cert.KernelIdeal.KVal.Wa3 m c) (Cert.KernelIdeal.KVal.G3 m c) (Cert.KernelIdeal.KVal.B3 m c) (Cert.KernelIdeal.KVal.Wa4 m c) (idx 0) (idx 1)), ?_, ?_⟩
  · exact (θ_run Cert.KernelIdeal.defs _ _).mono (fun r h c => ⟨(h c).1.trans (Cert.KernelIdeal.KVal.result m ρ c), (h c).2⟩)
      (Cert.KernelIdeal.KRun.run_result (F := Ideal) m ρ)
  · refine (θ_run Cert.ReferenceIdeal.defs _ _).mono (fun r h c => ⟨(h c).1.trans ?_, (h c).2⟩) (Cert.ReferenceIdeal.RefValue.run m' ρ')
    obtain ⟨a0, a1, a2, a3, a4, a5, a6, a7, a8, a9, a10⟩ := hagree c
    have e0 : Cert.ReferenceIdeal.RefValue.X m' c = Cert.KernelIdeal.KVal.X m c := by unfold Cert.ReferenceIdeal.RefValue.X Cert.KernelIdeal.KVal.X; rw [a0]
    have e1 : Cert.ReferenceIdeal.RefValue.W1 m' c = Cert.KernelIdeal.KVal.Wa1 m c := by unfold Cert.ReferenceIdeal.RefValue.W1 Cert.KernelIdeal.KVal.Wa1; rw [a1]
    have e2 : Cert.ReferenceIdeal.RefValue.G1 m' c = Cert.KernelIdeal.KVal.G1 m c := by unfold Cert.ReferenceIdeal.RefValue.G1 Cert.KernelIdeal.KVal.G1; rw [a2]
    have e3 : Cert.ReferenceIdeal.RefValue.B1 m' c = Cert.KernelIdeal.KVal.B1 m c := by unfold Cert.ReferenceIdeal.RefValue.B1 Cert.KernelIdeal.KVal.B1; rw [a3]
    have e4 : Cert.ReferenceIdeal.RefValue.W2 m' c = Cert.KernelIdeal.KVal.Wa2 m c := by unfold Cert.ReferenceIdeal.RefValue.W2 Cert.KernelIdeal.KVal.Wa2; rw [a4]
    have e5 : Cert.ReferenceIdeal.RefValue.G2 m' c = Cert.KernelIdeal.KVal.G2 m c := by unfold Cert.ReferenceIdeal.RefValue.G2 Cert.KernelIdeal.KVal.G2; rw [a5]
    have e6 : Cert.ReferenceIdeal.RefValue.B2 m' c = Cert.KernelIdeal.KVal.B2 m c := by unfold Cert.ReferenceIdeal.RefValue.B2 Cert.KernelIdeal.KVal.B2; rw [a6]
    have e7 : Cert.ReferenceIdeal.RefValue.W3 m' c = Cert.KernelIdeal.KVal.Wa3 m c := by unfold Cert.ReferenceIdeal.RefValue.W3 Cert.KernelIdeal.KVal.Wa3; rw [a7]
    have e8 : Cert.ReferenceIdeal.RefValue.G3 m' c = Cert.KernelIdeal.KVal.G3 m c := by unfold Cert.ReferenceIdeal.RefValue.G3 Cert.KernelIdeal.KVal.G3; rw [a8]
    have e9 : Cert.ReferenceIdeal.RefValue.B3 m' c = Cert.KernelIdeal.KVal.B3 m c := by unfold Cert.ReferenceIdeal.RefValue.B3 Cert.KernelIdeal.KVal.B3; rw [a9]
    have e10 : Cert.ReferenceIdeal.RefValue.W4 m' c = Cert.KernelIdeal.KVal.Wa4 m c := by unfold Cert.ReferenceIdeal.RefValue.W4 Cert.KernelIdeal.KVal.Wa4; rw [a10]
    rw [e0, e1, e2, e3, e4, e5, e6, e7, e8, e9, e10]
    funext idx
    exact (congrFun (congrFun (Cert.BnnSpec.net_eq (Cert.KernelIdeal.KVal.X m c) (Cert.KernelIdeal.Finite.x_real m hpre c) (Cert.KernelIdeal.KVal.Wa1 m c) (Cert.KernelIdeal.KVal.G1 m c) (Cert.KernelIdeal.KVal.B1 m c)
      (Cert.KernelIdeal.KVal.Wa2 m c) (Cert.KernelIdeal.KVal.G2 m c) (Cert.KernelIdeal.KVal.B2 m c) (Cert.KernelIdeal.KVal.Wa3 m c) (Cert.KernelIdeal.KVal.G3 m c) (Cert.KernelIdeal.KVal.B3 m c) (Cert.KernelIdeal.KVal.Wa4 m c)) (idx 0)) (idx 1)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
